-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x2558x2048 : Shape := ⟨3, ![8, 2558, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x2558x2048 : S_.BroadcastsInDim S8x2558x2048 (![] : Fin 0 → Fin S8x2558x2048.rank)
  reducesTo_S8x2558x2048_S_d0_1_2 : S8x2558x2048.ReducesTo [0, 1, 2] S_

variable [Facts]

def fn {F : FTy → Type} [FloatOps F] (main_arg0 : FVec F S8x1024x2048 .f32) (main_arg1 : FVec F S8x2558x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x2558x2048 .f32 := Host.absf main_arg1
  let main_cst_0 : FVec F S_ .f32 := constant S_ .f32 0x7F800000#32
  let main_v5 : FVec F S8x2558x2048 .f32 := broadcastInDim S8x2558x2048 ![] bcast_S_S8x2558x2048 main_cst_0
  let main_v6 : IVec S8x2558x2048 1 := cmpf .olt main_v4 main_v5
  let main_c_1 : IVec S_ 1 := constantI S_ 1 1#1
  let main_v7 : IVec S_ 1 := (fun x v => Host.reduce IntOp.andi x v reducesTo_S8x2558x2048_S_d0_1_2 h_S_) main_v6 main_c_1
  let main_v8 : IVec S_ 1 := andi main_v3 main_v7
  main_v8
-- ==== Kernel.lean ====
abbrev S8x1024x2048 : Shape := ⟨3, ![8, 1024, 2048]⟩
abbrev S8x2558x2048 : Shape := ⟨3, ![8, 2558, 2048]⟩
abbrev S1x2558x512 : Shape := ⟨3, ![1, 2558, 512]⟩
abbrev S1x8x512 : Shape := ⟨3, ![1, 8, 512]⟩
abbrev S1x512x512 : Shape := ⟨3, ![1, 512, 512]⟩
abbrev S512x512 : Shape := ⟨2, ![512, 512]⟩
abbrev S256x2x512 : Shape := ⟨3, ![256, 2, 512]⟩
abbrev S256x512 : Shape := ⟨2, ![256, 512]⟩
abbrev S128x2x512 : Shape := ⟨3, ![128, 2, 512]⟩
abbrev S128x512 : Shape := ⟨2, ![128, 512]⟩
abbrev S64x2x512 : Shape := ⟨3, ![64, 2, 512]⟩
abbrev S64x512 : Shape := ⟨2, ![64, 512]⟩
abbrev S32x2x512 : Shape := ⟨3, ![32, 2, 512]⟩
abbrev S32x512 : Shape := ⟨2, ![32, 512]⟩
abbrev S16x2x512 : Shape := ⟨3, ![16, 2, 512]⟩
abbrev S16x512 : Shape := ⟨2, ![16, 512]⟩
abbrev S8x2x512 : Shape := ⟨3, ![8, 2, 512]⟩
abbrev S8x512 : Shape := ⟨2, ![8, 512]⟩
abbrev S4x2x512 : Shape := ⟨3, ![4, 2, 512]⟩
abbrev S4x512 : Shape := ⟨2, ![4, 512]⟩
abbrev S2x2x512 : Shape := ⟨3, ![2, 2, 512]⟩
abbrev S2x512 : Shape := ⟨2, ![2, 512]⟩
abbrev S1x2x512 : Shape := ⟨3, ![1, 2, 512]⟩
abbrev S1x512 : Shape := ⟨2, ![1, 512]⟩
abbrev S510x512 : Shape := ⟨2, ![510, 512]⟩
abbrev S1x510x512 : Shape := ⟨3, ![1, 510, 512]⟩
abbrev S1x2046x512 : Shape := ⟨3, ![1, 2046, 512]⟩
abbrev S2046x512 : Shape := ⟨2, ![2046, 512]⟩

abbrev nBuf : Space → Nat
  | .hbm => 3
  | .vmem => 6
  | .smem => 0
  | _ => 0

abbrev bufTy : (tb : Table) → Fin (tcTables nBuf tb) → BufTy
  | .hbm, ⟨0, _⟩ => ⟨S8x1024x2048, .f32⟩
  | .hbm, ⟨1, _⟩ => ⟨S8x2558x2048, .f32⟩
  | .hbm, ⟨2, _⟩ => ⟨S8x2558x2048, .f32⟩
  | .local _ .vmem, ⟨0, _⟩ => ⟨S1x2558x512, .f32⟩
  | .local _ .vmem, ⟨1, _⟩ => ⟨S1x2558x512, .f32⟩
  | .local _ .vmem, ⟨2, _⟩ => ⟨S1x8x512, .f32⟩
  | .local _ .vmem, ⟨3, _⟩ => ⟨S1x8x512, .f32⟩
  | .local _ .vmem, ⟨4, _⟩ => ⟨S1x2558x512, .f32⟩
  | .local _ .vmem, ⟨5, _⟩ => ⟨S1x2558x512, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2558x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2558x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2558x512_S1x512x512_0_1024_0 : ∀ a, (![0, 1024, 0] : Fin 3 → Nat) a + S1x512x512.size a ≤ S1x2558x512.size a
  h_S1x512x512 : 0 < S1x512x512.numel
  shapeCasts_S1x512x512_S512x512 : S1x512x512.ShapeCasts S512x512
  shapeCasts_S512x512_S256x2x512 : S512x512.ShapeCasts S256x2x512
  reduces_S256x2x512_S256x512 : S256x2x512.Reduces [1] S256x512
  shapeCasts_S256x512_S128x2x512 : S256x512.ShapeCasts S128x2x512
  reduces_S128x2x512_S128x512 : S128x2x512.Reduces [1] S128x512
  shapeCasts_S128x512_S64x2x512 : S128x512.ShapeCasts S64x2x512
  reduces_S64x2x512_S64x512 : S64x2x512.Reduces [1] S64x512
  shapeCasts_S64x512_S32x2x512 : S64x512.ShapeCasts S32x2x512
  reduces_S32x2x512_S32x512 : S32x2x512.Reduces [1] S32x512
  shapeCasts_S32x512_S16x2x512 : S32x512.ShapeCasts S16x2x512
  reduces_S16x2x512_S16x512 : S16x2x512.Reduces [1] S16x512
  shapeCasts_S16x512_S8x2x512 : S16x512.ShapeCasts S8x2x512
  reduces_S8x2x512_S8x512 : S8x2x512.Reduces [1] S8x512
  shapeCasts_S8x512_S4x2x512 : S8x512.ShapeCasts S4x2x512
  reduces_S4x2x512_S4x512 : S4x2x512.Reduces [1] S4x512
  shapeCasts_S4x512_S2x2x512 : S4x512.ShapeCasts S2x2x512
  reduces_S2x2x512_S2x512 : S2x2x512.Reduces [1] S2x512
  shapeCasts_S2x512_S1x2x512 : S2x512.ShapeCasts S1x2x512
  reduces_S1x2x512_S1x512 : S1x2x512.Reduces [1] S1x512
  slices_S256x512_o128_0_S128x512 : S256x512.Slices ![128, 0] S128x512
  concatenates_S128x512_S128x512_S256x512_d0 : Shape.Concatenates [S128x512, S128x512] S256x512 0
  slices_S128x512_o64_0_S64x512 : S128x512.Slices ![64, 0] S64x512
  concatenates_S64x512_S64x512_S128x512_d0 : Shape.Concatenates [S64x512, S64x512] S128x512 0
  slices_S64x512_o32_0_S32x512 : S64x512.Slices ![32, 0] S32x512
  concatenates_S32x512_S32x512_S64x512_d0 : Shape.Concatenates [S32x512, S32x512] S64x512 0
  slices_S32x512_o16_0_S16x512 : S32x512.Slices ![16, 0] S16x512
  concatenates_S16x512_S16x512_S32x512_d0 : Shape.Concatenates [S16x512, S16x512] S32x512 0
  slices_S16x512_o8_0_S8x512 : S16x512.Slices ![8, 0] S8x512
  concatenates_S8x512_S8x512_S16x512_d0 : Shape.Concatenates [S8x512, S8x512] S16x512 0
  slices_S8x512_o4_0_S4x512 : S8x512.Slices ![4, 0] S4x512
  concatenates_S4x512_S4x512_S8x512_d0 : Shape.Concatenates [S4x512, S4x512] S8x512 0
  slices_S4x512_o2_0_S2x512 : S4x512.Slices ![2, 0] S2x512
  concatenates_S2x512_S2x512_S4x512_d0 : Shape.Concatenates [S2x512, S2x512] S4x512 0
  slices_S2x512_o1_0_S1x512 : S2x512.Slices ![1, 0] S1x512
  concatenates_S1x512_S1x512_S2x512_d0 : Shape.Concatenates [S1x512, S1x512] S2x512 0
  concatenates_S2x512_S4x512_S8x512_S16x512_S32x512_S64x512_S128x512_S256x512_S510x512_d0 : Shape.Concatenates [S2x512, S4x512, S8x512, S16x512, S32x512, S64x512, S128x512, S256x512] S510x512 0
  inb_S1x2558x512_S1x510x512_0_0_0 : ∀ a, (![0, 0, 0] : Fin 3 → Nat) a + S1x510x512.size a ≤ S1x2558x512.size a
  h_S1x510x512 : 0 < S1x510x512.numel
  shapeCasts_S1x510x512_S510x512 : S1x510x512.ShapeCasts S510x512
  shapeCasts_S510x512_S1x510x512 : S510x512.ShapeCasts S1x510x512
  inb_S1x2558x512_S1x2046x512_0_512_0 : ∀ a, (![0, 512, 0] : Fin 3 → Nat) a + S1x2046x512.size a ≤ S1x2558x512.size a
  h_S1x2046x512 : 0 < S1x2046x512.numel
  shapeCasts_S1x2046x512_S2046x512 : S1x2046x512.ShapeCasts S2046x512
  inb_S1x2558x512_S1x2046x512_0_510_0 : ∀ a, (![0, 510, 0] : Fin 3 → Nat) a + S1x2046x512.size a ≤ S1x2558x512.size a
  shapeCasts_S2046x512_S1x2046x512 : S2046x512.ShapeCasts S1x2046x512
  inb_S1x8x512_S1x2x512_0_0_0 : ∀ a, (![0, 0, 0] : Fin 3 → Nat) a + S1x2x512.size a ≤ S1x8x512.size a
  h_S1x2x512 : 0 < S1x2x512.numel
  shapeCasts_S1x2x512_S2x512 : S1x2x512.ShapeCasts S2x512
  inb_S1x2558x512_S1x2x512_0_2556_0 : ∀ a, (![0, 2556, 0] : Fin 3 → Nat) a + S1x2x512.size a ≤ S1x2558x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2558x512.size a ≤ S8x2558x2048.size a
  hwx0_0 : ∀ i : grid0.Coords, EltTy.bits .f32 = 32 ∨ (Rect.block (s := S8x2558x2048) S1x2558x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S8x1024x2048.size a
  hwx0_1 : ∀ i : grid0.Coords, EltTy.bits .f32 = 32 ∨ (Rect.block (s := S8x1024x2048) S1x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2558x512.size a ≤ S8x2558x2048.size a
  hwx0_2 : ∀ i : grid0.Coords, EltTy.bits .f32 = 32 ∨ (Rect.block (s := S8x2558x2048) S1x2558x512.size (cc0_transform_2 i) (hinb0_2 i)).WholeWords (EltTy.packing .f32)

variable [Facts₀]

abbrev win0_0 : Pipeline.Window sig grid0 :=
  Pipeline.Window.ofSpec (Memref.whole main_arg1) S1x2558x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2558x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S8x2558x2048 : Shape := ⟨3, ![8, 2558, 2048]⟩
abbrev S8x3582x2048 : Shape := ⟨3, ![8, 3582, 2048]⟩
abbrev S8x2048x2048 : Shape := ⟨3, ![8, 2048, 2048]⟩
abbrev S8x512x2048 : Shape := ⟨3, ![8, 512, 2048]⟩
abbrev S8x512x2x2048 : Shape := ⟨4, ![8, 512, 2, 2048]⟩
abbrev S_ : Shape := ⟨0, ![]⟩
abbrev S8x256x2048 : Shape := ⟨3, ![8, 256, 2048]⟩
abbrev S8x128x2x2048 : Shape := ⟨4, ![8, 128, 2, 2048]⟩
abbrev S8x128x2048 : Shape := ⟨3, ![8, 128, 2048]⟩
abbrev S8x768x2048 : Shape := ⟨3, ![8, 768, 2048]⟩
abbrev S8x896x2048 : Shape := ⟨3, ![8, 896, 2048]⟩
abbrev S8x64x2x2048 : Shape := ⟨4, ![8, 64, 2, 2048]⟩
abbrev S8x64x2048 : Shape := ⟨3, ![8, 64, 2048]⟩
abbrev S8x832x2048 : Shape := ⟨3, ![8, 832, 2048]⟩
abbrev S8x32x2x2048 : Shape := ⟨4, ![8, 32, 2, 2048]⟩
abbrev S8x32x2048 : Shape := ⟨3, ![8, 32, 2048]⟩
abbrev S8x800x2048 : Shape := ⟨3, ![8, 800, 2048]⟩
abbrev S8x16x2x2048 : Shape := ⟨4, ![8, 16, 2, 2048]⟩
abbrev S8x16x2048 : Shape := ⟨3, ![8, 16, 2048]⟩
abbrev S8x784x2048 : Shape := ⟨3, ![8, 784, 2048]⟩
abbrev S8x8x2x2048 : Shape := ⟨4, ![8, 8, 2, 2048]⟩
abbrev S8x8x2048 : Shape := ⟨3, ![8, 8, 2048]⟩
abbrev S8x776x2048 : Shape := ⟨3, ![8, 776, 2048]⟩
abbrev S8x4x2x2048 : Shape := ⟨4, ![8, 4, 2, 2048]⟩
abbrev S8x4x2048 : Shape := ⟨3, ![8, 4, 2048]⟩
abbrev S8x772x2048 : Shape := ⟨3, ![8, 772, 2048]⟩
abbrev S8x2x2x2048 : Shape := ⟨4, ![8, 2, 2, 2048]⟩
abbrev S8x2x2048 : Shape := ⟨3, ![8, 2, 2048]⟩
abbrev S8x770x2048 : Shape := ⟨3, ![8, 770, 2048]⟩
abbrev S8x1x2x2048 : Shape := ⟨4, ![8, 1, 2, 2048]⟩
abbrev S8x1x2048 : Shape := ⟨3, ![8, 1, 2048]⟩
abbrev S8x769x2048 : Shape := ⟨3, ![8, 769, 2048]⟩

abbrev nBuf : Space → Nat
  | .hbm => 102
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x2558x2048, .f32⟩
  | .hbm, ⟨2, _⟩ => ⟨S8x3582x2048, .f32⟩
  | .hbm, ⟨3, _⟩ => ⟨S8x2048x2048, .f32⟩
  | .hbm, ⟨4, _⟩ => ⟨S8x512x2048, .f32⟩
  | .hbm, ⟨5, _⟩ => ⟨S8x1024x2048, .f32⟩
  | .hbm, ⟨6, _⟩ => ⟨S8x512x2x2048, .f32⟩
  | .hbm, ⟨7, _⟩ => ⟨S_, .f32⟩
  | .hbm, ⟨8, _⟩ => ⟨S8x512x2048, .f32⟩
  | .hbm, ⟨9, _⟩ => ⟨S_, .f32⟩
  | .hbm, ⟨10, _⟩ => ⟨S8x512x2048, .f32⟩
  | .hbm, ⟨11, _⟩ => ⟨S8x512x2048, .f32⟩
  | .hbm, ⟨12, _⟩ => ⟨S8x1024x2048, .f32⟩
  | .hbm, ⟨13, _⟩ => ⟨S8x256x2048, .f32⟩
  | .hbm, ⟨14, _⟩ => ⟨S8x128x2x2048, .f32⟩
  | .hbm, ⟨15, _⟩ => ⟨S_, .f32⟩
  | .hbm, ⟨16, _⟩ => ⟨S8x128x2048, .f32⟩
  | .hbm, ⟨17, _⟩ => ⟨S_, .f32⟩
  | .hbm, ⟨18, _⟩ => ⟨S8x128x2048, .f32⟩
  | .hbm, ⟨19, _⟩ => ⟨S8x128x2048, .f32⟩
  | .hbm, ⟨20, _⟩ => ⟨S8x768x2048, .f32⟩
  | .hbm, ⟨21, _⟩ => ⟨S8x896x2048, .f32⟩
  | .hbm, ⟨22, _⟩ => ⟨S8x128x2048, .f32⟩
  | .hbm, ⟨23, _⟩ => ⟨S8x256x2048, .f32⟩
  | .hbm, ⟨24, _⟩ => ⟨S8x128x2048, .f32⟩
  | .hbm, ⟨25, _⟩ => ⟨S8x64x2x2048, .f32⟩
  | .hbm, ⟨26, _⟩ => ⟨S_, .f32⟩
  | .hbm, ⟨27, _⟩ => ⟨S8x64x2048, .f32⟩
  | .hbm, ⟨28, _⟩ => ⟨S_, .f32⟩
  | .hbm, ⟨29, _⟩ => ⟨S8x64x2048, .f32⟩
  | .hbm, ⟨30, _⟩ => ⟨S8x64x2048, .f32⟩
  | .hbm, ⟨31, _⟩ => ⟨S8x768x2048, .f32⟩
  | .hbm, ⟨32, _⟩ => ⟨S8x832x2048, .f32⟩
  | .hbm, ⟨33, _⟩ => ⟨S8x64x2048, .f32⟩
  | .hbm, ⟨34, _⟩ => ⟨S8x128x2048, .f32⟩
  | .hbm, ⟨35, _⟩ => ⟨S8x64x2048, .f32⟩
  | .hbm, ⟨36, _⟩ => ⟨S8x32x2x2048, .f32⟩
  | .hbm, ⟨37, _⟩ => ⟨S_, .f32⟩
  | .hbm, ⟨38, _⟩ => ⟨S8x32x2048, .f32⟩
  | .hbm, ⟨39, _⟩ => ⟨S_, .f32⟩
  | .hbm, ⟨40, _⟩ => ⟨S8x32x2048, .f32⟩
  | .hbm, ⟨41, _⟩ => ⟨S8x32x2048, .f32⟩
  | .hbm, ⟨42, _⟩ => ⟨S8x768x2048, .f32⟩
  | .hbm, ⟨43, _⟩ => ⟨S8x800x2048, .f32⟩
  | .hbm, ⟨44, _⟩ => ⟨S8x32x2048, .f32⟩
  | .hbm, ⟨45, _⟩ => ⟨S8x64x2048, .f32⟩
  | .hbm, ⟨46, _⟩ => ⟨S8x32x2048, .f32⟩
  | .hbm, ⟨47, _⟩ => ⟨S8x16x2x2048, .f32⟩
  | .hbm, ⟨48, _⟩ => ⟨S_, .f32⟩
  | .hbm, ⟨49, _⟩ => ⟨S8x16x2048, .f32⟩
  | .hbm, ⟨50, _⟩ => ⟨S_, .f32⟩
  | .hbm, ⟨51, _⟩ => ⟨S8x16x2048, .f32⟩
  | .hbm, ⟨52, _⟩ => ⟨S8x16x2048, .f32⟩
  | .hbm, ⟨53, _⟩ => ⟨S8x768x2048, .f32⟩
  | .hbm, ⟨54, _⟩ => ⟨S8x784x2048, .f32⟩
  | .hbm, ⟨55, _⟩ => ⟨S8x16x2048, .f32⟩
  | .hbm, ⟨56, _⟩ => ⟨S8x32x2048, .f32⟩
  | .hbm, ⟨57, _⟩ => ⟨S8x16x2048, .f32⟩
  | .hbm, ⟨58, _⟩ => ⟨S8x8x2x2048, .f32⟩
  | .hbm, ⟨59, _⟩ => ⟨S_, .f32⟩
  | .hbm, ⟨60, _⟩ => ⟨S8x8x2048, .f32⟩
  | .hbm, ⟨61, _⟩ => ⟨S_, .f32⟩
  | .hbm, ⟨62, _⟩ => ⟨S8x8x2048, .f32⟩
  | .hbm, ⟨63, _⟩ => ⟨S8x8x2048, .f32⟩
  | .hbm, ⟨64, _⟩ => ⟨S8x768x2048, .f32⟩
  | .hbm, ⟨65, _⟩ => ⟨S8x776x2048, .f32⟩
  | .hbm, ⟨66, _⟩ => ⟨S8x8x2048, .f32⟩
  | .hbm, ⟨67, _⟩ => ⟨S8x16x2048, .f32⟩
  | .hbm, ⟨68, _⟩ => ⟨S8x8x2048, .f32⟩
  | .hbm, ⟨69, _⟩ => ⟨S8x4x2x2048, .f32⟩
  | .hbm, ⟨70, _⟩ => ⟨S_, .f32⟩
  | .hbm, ⟨71, _⟩ => ⟨S8x4x2048, .f32⟩
  | .hbm, ⟨72, _⟩ => ⟨S_, .f32⟩
  | .hbm, ⟨73, _⟩ => ⟨S8x4x2048, .f32⟩
  | .hbm, ⟨74, _⟩ => ⟨S8x4x2048, .f32⟩
  | .hbm, ⟨75, _⟩ => ⟨S8x768x2048, .f32⟩
  | .hbm, ⟨76, _⟩ => ⟨S8x772x2048, .f32⟩
  | .hbm, ⟨77, _⟩ => ⟨S8x4x2048, .f32⟩
  | .hbm, ⟨78, _⟩ => ⟨S8x8x2048, .f32⟩
  | .hbm, ⟨79, _⟩ => ⟨S8x4x2048, .f32⟩
  | .hbm, ⟨80, _⟩ => ⟨S8x2x2x2048, .f32⟩
  | .hbm, ⟨81, _⟩ => ⟨S_, .f32⟩
  | .hbm, ⟨82, _⟩ => ⟨S8x2x2048, .f32⟩
  | .hbm, ⟨83, _⟩ => ⟨S_, .f32⟩
  | .hbm, ⟨84, _⟩ => ⟨S8x2x2048, .f32⟩
  | .hbm, ⟨85, _⟩ => ⟨S8x2x2048, .f32⟩
  | .hbm, ⟨86, _⟩ => ⟨S8x768x2048, .f32⟩
  | .hbm, ⟨87, _⟩ => ⟨S8x770x2048, .f32⟩
  | .hbm, ⟨88, _⟩ => ⟨S8x2x2048, .f32⟩
  | .hbm, ⟨89, _⟩ => ⟨S8x4x2048, .f32⟩
  | .hbm, ⟨90, _⟩ => ⟨S8x2x2048, .f32⟩
  | .hbm, ⟨91, _⟩ => ⟨S8x1x2x2048, .f32⟩
  | .hbm, ⟨92, _⟩ => ⟨S_, .f32⟩
  | .hbm, ⟨93, _⟩ => ⟨S8x1x2048, .f32⟩
  | .hbm, ⟨94, _⟩ => ⟨S_, .f32⟩
  | .hbm, ⟨95, _⟩ => ⟨S8x1x2048, .f32⟩
  | .hbm, ⟨96, _⟩ => ⟨S8x1x2048, .f32⟩
  | .hbm, ⟨97, _⟩ => ⟨S8x768x2048, .f32⟩
  | .hbm, ⟨98, _⟩ => ⟨S8x769x2048, .f32⟩
  | .hbm, ⟨99, _⟩ => ⟨S8x1x2048, .f32⟩
  | .hbm, ⟨100, _⟩ => ⟨S8x2x2048, .f32⟩
  | .hbm, ⟨101, _⟩ => ⟨S8x2558x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_11 : Ref sig .tc := ⟨.hbm, 70, rfl⟩
abbrev main_v56 : Ref sig .tc := ⟨.hbm, 71, rfl⟩
abbrev main_cst_12 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_13 : Ref sig .tc := ⟨.hbm, 81, rfl⟩
abbrev main_v65 : Ref sig .tc := ⟨.hbm, 82, rfl⟩
abbrev main_cst_14 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_15 : Ref sig .tc := ⟨.hbm, 92, rfl⟩
abbrev main_v74 : Ref sig .tc := ⟨.hbm, 93, rfl⟩
abbrev main_cst_16 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]

class Facts₀ : Prop where
  concatenates_S8x2558x2048_S8x1024x2048_S8x3582x2048_d1 : Shape.Concatenates [S8x2558x2048, S8x1024x2048] S8x3582x2048 1
  slices_S8x3582x2048_S8x2048x2048_0_512_0 : S8x3582x2048.Slices ![0, 512, 0] S8x2048x2048
  slices_S8x3582x2048_S8x512x2048_0_0_0 : S8x3582x2048.Slices ![0, 0, 0] S8x512x2048
  slices_S8x2048x2048_S8x1024x2048_0_0_0 : S8x2048x2048.Slices ![0, 0, 0] S8x1024x2048
  shapeCasts_S8x1024x2048_S8x512x2x2048 : S8x1024x2048.ShapeCasts S8x512x2x2048
  reducesTo_S8x512x2x2048_S8x512x2048_d2 : S8x512x2x2048.ReducesTo [2] S8x512x2048
  h_S_ : 0 < S_.numel
  bcast_S_S8x512x2048 : S_.BroadcastsInDim S8x512x2048 (![] : Fin 0 → Fin S8x512x2048.rank)
  concatenates_S8x512x2048_S8x512x2048_S8x1024x2048_d1 : Shape.Concatenates [S8x512x2048, S8x512x2048] S8x1024x2048 1
  slices_S8x1024x2048_S8x256x2048_0_768_0 : S8x1024x2048.Slices ![0, 768, 0] S8x256x2048
  shapeCasts_S8x256x2048_S8x128x2x2048 : S8x256x2048.ShapeCasts S8x128x2x2048
  reducesTo_S8x128x2x2048_S8x128x2048_d2 : S8x128x2x2048.ReducesTo [2] S8x128x2048
  bcast_S_S8x128x2048 : S_.BroadcastsInDim S8x128x2048 (![] : Fin 0 → Fin S8x128x2048.rank)
  slices_S8x1024x2048_S8x768x2048_0_0_0 : S8x1024x2048.Slices ![0, 0, 0] S8x768x2048
  concatenates_S8x768x2048_S8x128x2048_S8x896x2048_d1 : Shape.Concatenates [S8x768x2048, S8x128x2048] S8x896x2048 1
  slices_S8x256x2048_S8x128x2048_0_128_0 : S8x256x2048.Slices ![0, 128, 0] S8x128x2048
  concatenates_S8x128x2048_S8x128x2048_S8x256x2048_d1 : Shape.Concatenates [S8x128x2048, S8x128x2048] S8x256x2048 1
  slices_S8x896x2048_S8x128x2048_0_768_0 : S8x896x2048.Slices ![0, 768, 0] S8x128x2048
  shapeCasts_S8x128x2048_S8x64x2x2048 : S8x128x2048.ShapeCasts S8x64x2x2048
  reducesTo_S8x64x2x2048_S8x64x2048_d2 : S8x64x2x2048.ReducesTo [2] S8x64x2048
  bcast_S_S8x64x2048 : S_.BroadcastsInDim S8x64x2048 (![] : Fin 0 → Fin S8x64x2048.rank)
  slices_S8x896x2048_S8x768x2048_0_0_0 : S8x896x2048.Slices ![0, 0, 0] S8x768x2048
  concatenates_S8x768x2048_S8x64x2048_S8x832x2048_d1 : Shape.Concatenates [S8x768x2048, S8x64x2048] S8x832x2048 1
  slices_S8x128x2048_S8x64x2048_0_64_0 : S8x128x2048.Slices ![0, 64, 0] S8x64x2048
  concatenates_S8x64x2048_S8x64x2048_S8x128x2048_d1 : Shape.Concatenates [S8x64x2048, S8x64x2048] S8x128x2048 1
  slices_S8x832x2048_S8x64x2048_0_768_0 : S8x832x2048.Slices ![0, 768, 0] S8x64x2048
  shapeCasts_S8x64x2048_S8x32x2x2048 : S8x64x2048.ShapeCasts S8x32x2x2048
  reducesTo_S8x32x2x2048_S8x32x2048_d2 : S8x32x2x2048.ReducesTo [2] S8x32x2048
  bcast_S_S8x32x2048 : S_.BroadcastsInDim S8x32x2048 (![] : Fin 0 → Fin S8x32x2048.rank)
  slices_S8x832x2048_S8x768x2048_0_0_0 : S8x832x2048.Slices ![0, 0, 0] S8x768x2048
  concatenates_S8x768x2048_S8x32x2048_S8x800x2048_d1 : Shape.Concatenates [S8x768x2048, S8x32x2048] S8x800x2048 1
  slices_S8x64x2048_S8x32x2048_0_32_0 : S8x64x2048.Slices ![0, 32, 0] S8x32x2048
  concatenates_S8x32x2048_S8x32x2048_S8x64x2048_d1 : Shape.Concatenates [S8x32x2048, S8x32x2048] S8x64x2048 1
  slices_S8x800x2048_S8x32x2048_0_768_0 : S8x800x2048.Slices ![0, 768, 0] S8x32x2048
  shapeCasts_S8x32x2048_S8x16x2x2048 : S8x32x2048.ShapeCasts S8x16x2x2048
  reducesTo_S8x16x2x2048_S8x16x2048_d2 : S8x16x2x2048.ReducesTo [2] S8x16x2048
  bcast_S_S8x16x2048 : S_.BroadcastsInDim S8x16x2048 (![] : Fin 0 → Fin S8x16x2048.rank)
  slices_S8x800x2048_S8x768x2048_0_0_0 : S8x800x2048.Slices ![0, 0, 0] S8x768x2048
  concatenates_S8x768x2048_S8x16x2048_S8x784x2048_d1 : Shape.Concatenates [S8x768x2048, S8x16x2048] S8x784x2048 1
  slices_S8x32x2048_S8x16x2048_0_16_0 : S8x32x2048.Slices ![0, 16, 0] S8x16x2048
  concatenates_S8x16x2048_S8x16x2048_S8x32x2048_d1 : Shape.Concatenates [S8x16x2048, S8x16x2048] S8x32x2048 1
  slices_S8x784x2048_S8x16x2048_0_768_0 : S8x784x2048.Slices ![0, 768, 0] S8x16x2048
  shapeCasts_S8x16x2048_S8x8x2x2048 : S8x16x2048.ShapeCasts S8x8x2x2048
  reducesTo_S8x8x2x2048_S8x8x2048_d2 : S8x8x2x2048.ReducesTo [2] S8x8x2048
  bcast_S_S8x8x2048 : S_.BroadcastsInDim S8x8x2048 (![] : Fin 0 → Fin S8x8x2048.rank)
  slices_S8x784x2048_S8x768x2048_0_0_0 : S8x784x2048.Slices ![0, 0, 0] S8x768x2048
  concatenates_S8x768x2048_S8x8x2048_S8x776x2048_d1 : Shape.Concatenates [S8x768x2048, S8x8x2048] S8x776x2048 1
  slices_S8x16x2048_S8x8x2048_0_8_0 : S8x16x2048.Slices ![0, 8, 0] S8x8x2048
  concatenates_S8x8x2048_S8x8x2048_S8x16x2048_d1 : Shape.Concatenates [S8x8x2048, S8x8x2048] S8x16x2048 1
  slices_S8x776x2048_S8x8x2048_0_768_0 : S8x776x2048.Slices ![0, 768, 0] S8x8x2048
  shapeCasts_S8x8x2048_S8x4x2x2048 : S8x8x2048.ShapeCasts S8x4x2x2048
  reducesTo_S8x4x2x2048_S8x4x2048_d2 : S8x4x2x2048.ReducesTo [2] S8x4x2048
  bcast_S_S8x4x2048 : S_.BroadcastsInDim S8x4x2048 (![] : Fin 0 → Fin S8x4x2048.rank)
  slices_S8x776x2048_S8x768x2048_0_0_0 : S8x776x2048.Slices ![0, 0, 0] S8x768x2048
  concatenates_S8x768x2048_S8x4x2048_S8x772x2048_d1 : Shape.Concatenates [S8x768x2048, S8x4x2048] S8x772x2048 1
  slices_S8x8x2048_S8x4x2048_0_4_0 : S8x8x2048.Slices ![0, 4, 0] S8x4x2048
  concatenates_S8x4x2048_S8x4x2048_S8x8x2048_d1 : Shape.Concatenates [S8x4x2048, S8x4x2048] S8x8x2048 1
  slices_S8x772x2048_S8x4x2048_0_768_0 : S8x772x2048.Slices ![0, 768, 0] S8x4x2048
  shapeCasts_S8x4x2048_S8x2x2x2048 : S8x4x2048.ShapeCasts S8x2x2x2048
  reducesTo_S8x2x2x2048_S8x2x2048_d2 : S8x2x2x2048.ReducesTo [2] S8x2x2048
  bcast_S_S8x2x2048 : S_.BroadcastsInDim S8x2x2048 (![] : Fin 0 → Fin S8x2x2048.rank)
  slices_S8x772x2048_S8x768x2048_0_0_0 : S8x772x2048.Slices ![0, 0, 0] S8x768x2048
  concatenates_S8x768x2048_S8x2x2048_S8x770x2048_d1 : Shape.Concatenates [S8x768x2048, S8x2x2048] S8x770x2048 1
  slices_S8x4x2048_S8x2x2048_0_2_0 : S8x4x2048.Slices ![0, 2, 0] S8x2x2048
  concatenates_S8x2x2048_S8x2x2048_S8x4x2048_d1 : Shape.Concatenates [S8x2x2048, S8x2x2048] S8x4x2048 1
  slices_S8x770x2048_S8x2x2048_0_768_0 : S8x770x2048.Slices ![0, 768, 0] S8x2x2048
  shapeCasts_S8x2x2048_S8x1x2x2048 : S8x2x2048.ShapeCasts S8x1x2x2048
  reducesTo_S8x1x2x2048_S8x1x2048_d2 : S8x1x2x2048.ReducesTo [2] S8x1x2048
  bcast_S_S8x1x2048 : S_.BroadcastsInDim S8x1x2048 (![] : Fin 0 → Fin S8x1x2048.rank)
  slices_S8x770x2048_S8x768x2048_0_0_0 : S8x770x2048.Slices ![0, 0, 0] S8x768x2048
  concatenates_S8x768x2048_S8x1x2048_S8x769x2048_d1 : Shape.Concatenates [S8x768x2048, S8x1x2048] S8x769x2048 1
  slices_S8x2x2048_S8x1x2048_0_1_0 : S8x2x2048.Slices ![0, 1, 0] S8x1x2048
  concatenates_S8x1x2048_S8x1x2048_S8x2x2048_d1 : Shape.Concatenates [S8x1x2048, S8x1x2048] S8x2x2048 1
  concatenates_S8x2x2048_S8x4x2048_S8x8x2048_S8x16x2048_S8x32x2048_S8x64x2048_S8x128x2048_S8x256x2048_S8x2048x2048_S8x2558x2048_d1 : Shape.Concatenates [S8x2x2048, S8x4x2048, S8x8x2048, S8x16x2048, S8x32x2048, S8x64x2048, S8x128x2048, S8x256x2048, S8x2048x2048] S8x2558x2048 1

variable [Facts₀]

class Facts : Prop extends Facts₀ where

variable [Facts]
-- ==== Proof.LibColumnRows.lean ====
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

/-!
# Arrays read down one column, row by row

A rank-2 array `[L, D]` at a fixed lane `e`, or a rank-3 array `[B, L, D]` at a fixed batch `b` and lane `e`, is a
finite sequence of extended reals indexed by the row. The operations that only re-arrange rows — a slice along the row
axis, a concatenation along the row axis — and the mean of adjacent row pairs (a reshape `[2n, D] → [n, 2, D]`, a sum
over the new axis from zero, a division by the word 2.0) act on such a sequence independently of every other column.
This file states each of them as an operation on sequences `ℕ → EReal`: `shift`, `glue`, `halve`, and proves that the
array operation, read down a column, is the sequence operation, both for the kernel's vector operations on rank-2 arrays
and for the host's operations on rank-3 arrays. Everything is generic in the extents.
-/

noncomputable section

namespace Cert.ColumnRows

open Idealize.ShloMosaic Idealize.ShloMosaic.ValueIdx

/-! ## Sequences -/

/-- The mean of two extended reals as both programs take it: the sum, divided by the value of the f32 word 2.0. -/
def mean2 (x y : EReal) : EReal := Ideal.div (x + y) (Ideal.ofBits .f32 0x40000000#32)

/-- Means of adjacent pairs: entry `j` is the mean of entries `2j` and `2j + 1`. -/
def halve (f : ℕ → EReal) : ℕ → EReal := fun j => mean2 (f (2 * j)) (f (2 * j + 1))

/-- The sequence from position `o` on. -/
def shift (o : ℕ) (f : ℕ → EReal) : ℕ → EReal := fun j => f (o + j)

/-- The first `n` entries of `f` followed by `g`. -/
def glue (n : ℕ) (f g : ℕ → EReal) : ℕ → EReal := fun r => if r < n then f r else g (r - n)

/-- Past the first `n` entries of `f` followed by `g` comes `g`. -/
theorem shift_glue (n : ℕ) (f g : ℕ → EReal) : shift n (glue n f g) = g := by
  funext r
  unfold shift glue
  rw [if_neg (by omega), Nat.add_sub_cancel_left]

/-- Lane `e` of a matrix, row by row, is the sequence `f` (on the matrix's rows). -/
def Rows2 {L D : ℕ} (v : (⟨2, ![L, D]⟩ : Shape).Idx → EReal) (e : Fin D) (f : ℕ → EReal) : Prop :=
  ∀ (r : ℕ) (h : r < L), v (ix2 ⟨r, h⟩ e) = f r

/-- Batch `b`, lane `e` of a rank-3 array, row by row, is the sequence `f`. -/
def Rows3 {B L D : ℕ} (x : (⟨3, ![B, L, D]⟩ : Shape).Idx → EReal) (b : Fin B) (e : Fin D) (f : ℕ → EReal) : Prop :=
  ∀ (r : ℕ) (h : r < L), x (ix3 b ⟨r, h⟩ e) = f r

theorem Rows2.congr {L D : ℕ} {v : (⟨2, ![L, D]⟩ : Shape).Idx → EReal} {e : Fin D} {f g : ℕ → EReal}
    (h : Rows2 v e f) (hfg : ∀ r, r < L → f r = g r) : Rows2 v e g := fun r hr => (h r hr).trans (hfg r hr)

theorem Rows3.congr {B L D : ℕ} {x : (⟨3, ![B, L, D]⟩ : Shape).Idx → EReal} {b : Fin B} {e : Fin D} {f g : ℕ → EReal}
    (h : Rows3 x b e f) (hfg : ∀ r, r < L → f r = g r) : Rows3 x b e g := fun r hr => (h r hr).trans (hfg r hr)

/-- Lane `e` of batch `b` of a rank-3 array as a sequence (zero past its rows). -/
def col3 {B L D : ℕ} (x : (⟨3, ![B, L, D]⟩ : Shape).Idx → EReal) (b : Fin B) (e : Fin D) : ℕ → EReal :=
  fun n => if h : n < L then x (ix3 b ⟨n, h⟩ e) else 0

theorem col3_apply {B L D : ℕ} (x : (⟨3, ![B, L, D]⟩ : Shape).Idx → EReal) (b : Fin B) (e : Fin D) (n : ℕ) (h : n < L) :
    col3 x b e n = x (ix3 b ⟨n, h⟩ e) := by unfold col3; rw [dif_pos h]

theorem rows3_col3 {B L D : ℕ} (x : (⟨3, ![B, L, D]⟩ : Shape).Idx → EReal) (b : Fin B) (e : Fin D) :
    Rows3 x b e (col3 x b e) := fun r hr => by unfold col3; rw [dif_pos hr]

/-! ## A unit-stride box of a rank-3 array -/

/-- The element of a rank-3 array under local index `(u, r, cc)` of a unit-stride box is the one whose coordinates
    are the box's offsets plus the local ones. -/
theorem emb_unit3 {n0 n1 n2 : ℕ} (o s : Fin 3 → ℕ)
    (inb : ∀ a, o a + s a ≤ (⟨3, ![n0, n1, n2]⟩ : Shape).size a)
    (x : (Rect.unit (s := ⟨3, ![n0, n1, n2]⟩) o s inb).shape.Idx) (a' : Fin n0) (b' : Fin n1) (c' : Fin n2)
    (ha : a'.val = o 0 + (x 0).val) (hb : b'.val = o 1 + (x 1).val) (hc : c'.val = o 2 + (x 2).val) :
    (Rect.unit (s := ⟨3, ![n0, n1, n2]⟩) o s inb).emb x = ix3 a' b' c' := by
  funext a
  apply Fin.ext
  match a with
  | ⟨0, _⟩ => show o 0 + 1 * (x 0).val = a'.val; omega
  | ⟨1, _⟩ => show o 1 + 1 * (x 1).val = b'.val; omega
  | ⟨2, _⟩ => show o 2 + 1 * (x 2).val = c'.val; omega

/-! ## A slice along the row axis -/

/-- Rows `o, o + 1, …` of a matrix. -/
theorem rows2_slice {n0 n1 m : ℕ} (o : ℕ) (X : (⟨2, ![n0, n1]⟩ : Shape).Idx → EReal)
    (h : (⟨2, ![n0, n1]⟩ : Shape).Slices ![o, 0] ⟨2, ![m, n1]⟩) (e : Fin n1) (f : ℕ → EReal) (hX : Rows2 X e f) :
    Rows2 (extractStridedSlice ⟨2, ![m, n1]⟩ ![o, 0] X h) e (shift o f) := by
  intro r hr
  have hb : o + m ≤ n0 := h.2 0
  have hk : o + r < n0 := by omega
  rw [slice2_axis0_apply o X h ⟨r, hr⟩ e ⟨o + r, hk⟩ rfl]
  exact hX _ _

/-- Rows `o, o + 1, …` of every batch of a rank-3 array. -/
theorem rows3_slice {n0 n1 n2 m : ℕ} (o : ℕ) (X : (⟨3, ![n0, n1, n2]⟩ : Shape).Idx → EReal)
    (h : (⟨3, ![n0, n1, n2]⟩ : Shape).Slices ![0, o, 0] ⟨3, ![n0, m, n2]⟩) (b : Fin n0) (e : Fin n2) (f : ℕ → EReal)
    (hX : Rows3 X b e f) :
    Rows3 (extractStridedSlice ⟨3, ![n0, m, n2]⟩ ![0, o, 0] X h) b e (shift o f) := by
  intro r hr
  have hb : o + m ≤ n1 := h.2 1
  have hk : o + r < n1 := by omega
  rw [slice3_axis1_apply o X h b ⟨r, hr⟩ e ⟨o + r, hk⟩ rfl]
  exact hX _ _

/-! ## A concatenation of two arrays along the row axis -/

/-- Two matrices stacked: the first's rows, then the second's. -/
theorem rows2_glue {n1 n2 n d : ℕ} (x1 : (⟨2, ![n1, d]⟩ : Shape).Idx → EReal) (x2 : (⟨2, ![n2, d]⟩ : Shape).Idx → EReal)
    (h : Shape.Concatenates [⟨2, ![n1, d]⟩, ⟨2, ![n2, d]⟩] ⟨2, ![n, d]⟩ 0) (e : Fin d) (f g : ℕ → EReal)
    (h1 : Rows2 x1 e f) (h2 : Rows2 x2 e g) :
    Rows2 (concatenate ⟨2, ![n, d]⟩ 0 [⟨⟨2, ![n1, d]⟩, x1⟩, ⟨⟨2, ![n2, d]⟩, x2⟩] h) e (glue n1 f g) := by
  intro r hr
  have hs : n1 + (n2 + 0) = n := by have := h.2.2; simpa using this
  unfold glue
  by_cases hlt : r < n1
  · rw [if_pos hlt]
    rw [concatenate_pair_apply_left (0 : Fin 2) x1 x2 h (ix2 ⟨r, hr⟩ e) rfl (ix2 ⟨r, hlt⟩ e)
      (fun b => by match b with | ⟨0, _⟩ => rfl | ⟨1, _⟩ => rfl)]
    exact h1 _ _
  · rw [if_neg hlt]
    have hr2 : r - n1 < n2 := by omega
    rw [concatenate_pair_apply_right (0 : Fin 2) x1 x2 h (ix2 ⟨r, hr⟩ e) rfl rfl (ix2 ⟨r - n1, hr2⟩ e)
      (fun b hb => by
        match b with
        | ⟨0, _⟩ => exact absurd rfl hb
        | ⟨1, _⟩ => rfl)
      (by show r - n1 + n1 = r; omega)]
    exact h2 _ _

/-- Two rank-3 arrays stacked along axis 1. -/
theorem rows3_glue {B n1 n2 n d : ℕ} (x1 : (⟨3, ![B, n1, d]⟩ : Shape).Idx → EReal)
    (x2 : (⟨3, ![B, n2, d]⟩ : Shape).Idx → EReal)
    (h : Shape.Concatenates [⟨3, ![B, n1, d]⟩, ⟨3, ![B, n2, d]⟩] ⟨3, ![B, n, d]⟩ 1) (b : Fin B) (e : Fin d)
    (f g : ℕ → EReal) (h1 : Rows3 x1 b e f) (h2 : Rows3 x2 b e g) :
    Rows3 (concatenate ⟨3, ![B, n, d]⟩ 1 [⟨⟨3, ![B, n1, d]⟩, x1⟩, ⟨⟨3, ![B, n2, d]⟩, x2⟩] h) b e (glue n1 f g) := by
  intro r hr
  have hs : n1 + (n2 + 0) = n := by have := h.2.2; simpa using this
  unfold glue
  by_cases hlt : r < n1
  · rw [if_pos hlt]
    rw [concatenate_pair_apply_left (1 : Fin 3) x1 x2 h (ix3 b ⟨r, hr⟩ e) rfl (ix3 b ⟨r, hlt⟩ e)
      (fun a => by match a with | ⟨0, _⟩ => rfl | ⟨1, _⟩ => rfl | ⟨2, _⟩ => rfl)]
    exact h1 _ _
  · rw [if_neg hlt]
    have hr2 : r - n1 < n2 := by omega
    rw [concatenate_pair_apply_right (1 : Fin 3) x1 x2 h (ix3 b ⟨r, hr⟩ e) rfl rfl (ix3 b ⟨r - n1, hr2⟩ e)
      (fun a ha => by
        match a with
        | ⟨0, _⟩ => rfl
        | ⟨1, _⟩ => exact absurd rfl ha
        | ⟨2, _⟩ => rfl)
      (by show r - n1 + n1 = r; omega)]
    exact h2 _ _

/-! ## One operand of a longer concatenation along the row axis -/

/-- A row of a concatenation of any number of matrices that falls in operand `k` — whose rows start at `pre`, the total
    of the extents before it — reads that operand's row `r - pre`. -/
theorem rows2_piece {n d : ℕ} (xs : List ((s : Shape) × (s.Idx → EReal)))
    (h : Shape.Concatenates (xs.map (·.1)) ⟨2, ![n, d]⟩ 0) (k : ℕ) (hk : k < xs.length) {nk : ℕ}
    (xk : (⟨2, ![nk, d]⟩ : Shape).Idx → EReal) (hxk : xs[k] = ⟨⟨2, ![nk, d]⟩, xk⟩) (pre : ℕ)
    (hpre : (((xs.take k).map (·.1)).map fun s => if h : s.rank = (⟨2, ![n, d]⟩ : Shape).rank
      then s.size ((0 : Fin (⟨2, ![n, d]⟩ : Shape).rank).cast h.symm) else 0).sum = pre)
    (e : Fin d) (f : ℕ → EReal) (hf : Rows2 xk e f) (r : ℕ) (hr : r < n) (hlo : pre ≤ r) (hhi : r < pre + nk) :
    concatenate ⟨2, ![n, d]⟩ 0 xs h (ix2 ⟨r, hr⟩ e) = f (r - pre) := by
  rw [concatenate_apply_piece (0 : Fin 2) xs h (ix2 ⟨r, hr⟩ e) k hk ⟨2, ![nk, d]⟩ xk hxk rfl pre hpre
    (ix2 ⟨r - pre, by omega⟩ e)
    (fun b hb => by
      match b with
      | ⟨0, _⟩ => exact absurd rfl hb
      | ⟨1, _⟩ => rfl)
    (by show pre + (r - pre) = r; omega)]
  exact hf _ _

/-- The same for rank-3 arrays concatenated along axis 1. -/
theorem rows3_piece {B n d : ℕ} (xs : List ((s : Shape) × (s.Idx → EReal)))
    (h : Shape.Concatenates (xs.map (·.1)) ⟨3, ![B, n, d]⟩ 1) (k : ℕ) (hk : k < xs.length) {nk : ℕ}
    (xk : (⟨3, ![B, nk, d]⟩ : Shape).Idx → EReal) (hxk : xs[k] = ⟨⟨3, ![B, nk, d]⟩, xk⟩) (pre : ℕ)
    (hpre : (((xs.take k).map (·.1)).map fun s => if h : s.rank = (⟨3, ![B, n, d]⟩ : Shape).rank
      then s.size ((1 : Fin (⟨3, ![B, n, d]⟩ : Shape).rank).cast h.symm) else 0).sum = pre)
    (b : Fin B) (e : Fin d) (f : ℕ → EReal) (hf : Rows3 xk b e f) (r : ℕ) (hr : r < n) (hlo : pre ≤ r)
    (hhi : r < pre + nk) :
    concatenate ⟨3, ![B, n, d]⟩ 1 xs h (ix3 b ⟨r, hr⟩ e) = f (r - pre) := by
  rw [concatenate_apply_piece (1 : Fin 3) xs h (ix3 b ⟨r, hr⟩ e) k hk ⟨3, ![B, nk, d]⟩ xk hxk rfl pre hpre
    (ix3 b ⟨r - pre, by omega⟩ e)
    (fun a ha => by
      match a with
      | ⟨0, _⟩ => rfl
      | ⟨1, _⟩ => exact absurd rfl ha
      | ⟨2, _⟩ => rfl)
    (by show pre + (r - pre) = r; omega)]
  exact hf _ _

/-! ## Means of adjacent row pairs -/

/-- A matrix `[m, d]` with `m = 2n` viewed as `[n, 2, d]`: entry `(j, k, e)` is row `2j + k`. -/
theorem shapeCast_pairs2 {m n d : ℕ} (v : (⟨2, ![m, d]⟩ : Shape).Idx → EReal)
    (hc : (⟨2, ![m, d]⟩ : Shape).ShapeCasts ⟨3, ![n, 2, d]⟩) (j : Fin n) (k : Fin 2) (e : Fin d)
    (h2 : 2 * j.val + k.val < m) :
    shapeCast ⟨3, ![n, 2, d]⟩ v hc (ix3 j k e) = v (ix2 ⟨2 * j.val + k.val, h2⟩ e) := by
  refine shapeCast_apply v hc _ _ ?_
  rw [Shape.rowMajor_val_two, Shape.rowMajor_val_three]
  show (2 * j.val + k.val) * d + e.val = (j.val * 2 + k.val) * d + e.val
  ring

/-- The same under a leading batch axis: `[B, m, d]` viewed as `[B, n, 2, d]`. -/
theorem shapeCast_pairs3 {B m n d : ℕ} (x : (⟨3, ![B, m, d]⟩ : Shape).Idx → EReal)
    (hc : (⟨3, ![B, m, d]⟩ : Shape).ShapeCasts ⟨4, ![B, n, 2, d]⟩) (b : Fin B) (j : Fin n) (k : Fin 2) (e : Fin d)
    (h2 : 2 * j.val + k.val < m) (hm : m = 2 * n) :
    shapeCast ⟨4, ![B, n, 2, d]⟩ x hc (ix4 b j k e) = x (ix3 b ⟨2 * j.val + k.val, h2⟩ e) := by
  refine shapeCast_apply x hc _ _ ?_
  rw [Shape.rowMajor_val_three, Shape.rowMajor_val_four]
  show (b.val * m + (2 * j.val + k.val)) * d + e.val = ((b.val * n + j.val) * 2 + k.val) * d + e.val
  subst hm
  ring

/-- The index over `(j, e)` with `k` inserted on the reduced middle axis. -/
theorem lift_mid3 {n d : ℕ} (hr : (⟨3, ![n, 2, d]⟩ : Shape).Reduces [1] ⟨2, ![n, d]⟩) (j : Fin n) (e : Fin d)
    (k : Fin 2) : hr.lift (ix2 j e) k = ix3 j k e := by
  funext c; apply Fin.ext
  match c with
  | ⟨0, _⟩ => rfl
  | ⟨1, _⟩ => rfl
  | ⟨2, _⟩ => rfl

theorem lift_mid4 {B n d : ℕ} (hr : (⟨4, ![B, n, 2, d]⟩ : Shape).Reduces [2] ⟨3, ![B, n, d]⟩) (b : Fin B) (j : Fin n)
    (e : Fin d) (k : Fin 2) : hr.lift (ix3 b j e) k = ix4 b j k e := by
  funext c; apply Fin.ext
  match c with
  | ⟨0, _⟩ => rfl
  | ⟨1, _⟩ => rfl
  | ⟨2, _⟩ => rfl
  | ⟨3, _⟩ => rfl

/-- The kernel's pair mean: `[m, d]` viewed as `[n, 2, d]`, summed over the middle axis from the zero word, divided by
    the splat of the word 2.0 — down a lane, the means of adjacent pairs. -/
theorem rows2_halve {m n d : ℕ} (hm : m = 2 * n) (v : FVec Ideal ⟨2, ![m, d]⟩ .f32)
    (hc : (⟨2, ![m, d]⟩ : Shape).ShapeCasts ⟨3, ![n, 2, d]⟩)
    (hr : (⟨3, ![n, 2, d]⟩ : Shape).Reduces [1] ⟨2, ![n, d]⟩)
    (hφ : FKind.Formats .f32) (hacc : (0x00000000#32 : BitVec 32) = FKind.add.neutral .f32 hφ)
    (e : Fin d) (f : ℕ → EReal) (hv : Rows2 v e f) :
    Rows2 (divf (multiReduction .add [1] ⟨2, ![n, d]⟩ (shapeCast ⟨3, ![n, 2, d]⟩ v hc) 0x00000000#32 hr hφ hacc)
      (broadcast ⟨2, ![n, d]⟩ (Scalar.ofBits (F := Ideal) .f32 0x40000000#32))) e (halve f) := by
  intro j hj
  show Ideal.div (multiReduction .add [1] ⟨2, ![n, d]⟩ (shapeCast ⟨3, ![n, 2, d]⟩ v hc) 0x00000000#32 hr hφ hacc
    (ix2 ⟨j, hj⟩ e)) (Ideal.ofBits .f32 0x40000000#32) = mean2 (f (2 * j)) (f (2 * j + 1))
  rw [Ideal.multiReduction_add_single _ _ hr hφ hacc]
  show Ideal.div (∑ k : Fin 2, shapeCast ⟨3, ![n, 2, d]⟩ v hc (hr.lift (ix2 ⟨j, hj⟩ e) k)) _ = _
  rw [Fin.sum_univ_two, lift_mid3, lift_mid3,
    shapeCast_pairs2 v hc ⟨j, hj⟩ 0 e (by show 2 * j + 0 < m; omega),
    shapeCast_pairs2 v hc ⟨j, hj⟩ 1 e (by show 2 * j + 1 < m; omega)]
  rw [hv, hv]
  rfl

/-- The host's pair mean: `[B, m, d]` reshaped `[B, n, 2, d]`, reduced with `add` over axis 2 from the zero word,
    divided by the broadcast of the word 2.0 — down a lane of a batch, the means of adjacent pairs. -/
theorem rows3_halve {B m n d : ℕ} (hm : m = 2 * n) (x : FVec Ideal ⟨3, ![B, m, d]⟩ .f32)
    (hc : (⟨3, ![B, m, d]⟩ : Shape).ShapeCasts ⟨4, ![B, n, 2, d]⟩)
    (hr : (⟨4, ![B, n, 2, d]⟩ : Shape).ReducesTo [2] ⟨3, ![B, n, d]⟩)
    (hu : 0 < (⟨0, ![]⟩ : Shape).numel) (hb : (⟨0, ![]⟩ : Shape).BroadcastsInDim ⟨3, ![B, n, d]⟩ ![])
    (b : Fin B) (e : Fin d) (f : ℕ → EReal) (hx : Rows3 x b e f) :
    Rows3 (Host.divf (Host.reduceAdd (shapeCast ⟨4, ![B, n, 2, d]⟩ x hc)
        (constant (F := Ideal) ⟨0, ![]⟩ .f32 0x00000000#32) hr hu)
      (broadcastInDim ⟨3, ![B, n, d]⟩ ![] hb (constant (F := Ideal) ⟨0, ![]⟩ .f32 0x40000000#32))) b e (halve f) := by
  intro j hj
  have hR : (⟨4, ![B, n, 2, d]⟩ : Shape).Reduces [2] ⟨3, ![B, n, d]⟩ := ⟨hr.1, Nat.succ_pos _, hr.2⟩
  show Ideal.div (Ideal.hostReduceAdd hr (shapeCast ⟨4, ![B, n, 2, d]⟩ x hc) (Ideal.ofBits .f32 0x00000000#32)
    (ix3 b ⟨j, hj⟩ e)) (Ideal.ofBits .f32 0x40000000#32) = mean2 (f (2 * j)) (f (2 * j + 1))
  rw [Ideal.hostReduceAdd_single hr hR]
  show Ideal.div (Ideal.ofBits .f32 0x00000000#32
    + ∑ k : Fin 2, shapeCast ⟨4, ![B, n, 2, d]⟩ x hc (hR.lift (ix3 b ⟨j, hj⟩ e) k)) _ = _
  rw [Fin.sum_univ_two, lift_mid4, lift_mid4,
    shapeCast_pairs3 x hc b ⟨j, hj⟩ 0 e (by show 2 * j + 0 < m; omega) hm,
    shapeCast_pairs3 x hc b ⟨j, hj⟩ 1 e (by show 2 * j + 1 < m; omega) hm]
  rw [hx, hx, Ideal.ofBits_zero_f32, zero_add]
  rfl

end Cert.ColumnRows

end
-- ==== Proof.Cascade.lean ====
import proofs.«137517_j10634339025369_2_alg».proof.Proof.LibColumnRows

/-!
# The halving cascade and the rows it leaves

Down one lane, memory is a sequence `M` of 2558 rows and the new input a sequence `I`. The update reads rows
1024 … 1535 of `M` and halves them nine times by means of adjacent pairs: level `k` has `256 / 2^k` rows. Turn `k` of the
helix keeps the newer half of level `k` and appends level `k + 1`; the eight turns, shortest first, fill rows 0 … 509 of
the result, rows 510 … 2555 are rows 512 … 2557 of `M` and the last two rows are the first two of `I`.
-/

noncomputable section

namespace Cert.Cascade

open Idealize.ShloMosaic Idealize.ShloMosaic.ValueIdx Cert.ColumnRows

/-- The nine levels: means of adjacent pairs, from rows 1024 … 1535 of memory. -/
def lvl0 (M : ℕ → EReal) : ℕ → EReal := halve (shift 1024 M)
def lvl1 (M : ℕ → EReal) : ℕ → EReal := halve (lvl0 M)
def lvl2 (M : ℕ → EReal) : ℕ → EReal := halve (lvl1 M)
def lvl3 (M : ℕ → EReal) : ℕ → EReal := halve (lvl2 M)
def lvl4 (M : ℕ → EReal) : ℕ → EReal := halve (lvl3 M)
def lvl5 (M : ℕ → EReal) : ℕ → EReal := halve (lvl4 M)
def lvl6 (M : ℕ → EReal) : ℕ → EReal := halve (lvl5 M)
def lvl7 (M : ℕ → EReal) : ℕ → EReal := halve (lvl6 M)
def lvl8 (M : ℕ → EReal) : ℕ → EReal := halve (lvl7 M)

/-- One turn: the newer half (`h` rows from row `h`) of a level, then the next level. -/
def turn (h : ℕ) (f g : ℕ → EReal) : ℕ → EReal := glue h (shift h f) g

/-- Eight sequences of 2, 4, …, 256 rows laid end to end. -/
def cat8 (p7 p6 p5 p4 p3 p2 p1 p0 : ℕ → EReal) : ℕ → EReal := fun r =>
  if r < 2 then p7 r else if r < 6 then p6 (r - 2) else if r < 14 then p5 (r - 6) else if r < 30 then p4 (r - 14)
  else if r < 62 then p3 (r - 30) else if r < 126 then p2 (r - 62) else if r < 254 then p1 (r - 126) else p0 (r - 254)

/-- Rows 0 … 509 of the result: the eight turns, shortest first. -/
def helix (M : ℕ → EReal) : ℕ → EReal :=
  cat8 (turn 1 (lvl7 M) (lvl8 M)) (turn 2 (lvl6 M) (lvl7 M)) (turn 4 (lvl5 M) (lvl6 M)) (turn 8 (lvl4 M) (lvl5 M))
    (turn 16 (lvl3 M) (lvl4 M)) (turn 32 (lvl2 M) (lvl3 M)) (turn 64 (lvl1 M) (lvl2 M)) (turn 128 (lvl0 M) (lvl1 M))

/-- The 2558 rows of the result down one lane. -/
def outRow (M I : ℕ → EReal) : ℕ → EReal := fun r =>
  if r < 510 then helix M r else if r < 2556 then M (r + 2) else I (r - 2556)

/-- The whole result array, as a function of the two argument arrays. -/
def result (inp : (⟨3, ![8, 1024, 2048]⟩ : Shape).Idx → EReal) (mem : (⟨3, ![8, 2558, 2048]⟩ : Shape).Idx → EReal) :
    (⟨3, ![8, 2558, 2048]⟩ : Shape).Idx → EReal :=
  fun i => outRow (col3 mem (i 0) (i 2)) (col3 inp (i 0) (i 2)) (i 1).val

theorem result_apply (inp : (⟨3, ![8, 1024, 2048]⟩ : Shape).Idx → EReal)
    (mem : (⟨3, ![8, 2558, 2048]⟩ : Shape).Idx → EReal) (b : Fin 8) (r : Fin 2558) (e : Fin 2048) :
    result inp mem (ix3 b r e) = outRow (col3 mem b e) (col3 inp b e) r.val := rfl

theorem outRow_helix (M I : ℕ → EReal) (r : ℕ) (h : r < 510) : outRow M I r = helix M r := by
  unfold outRow; rw [if_pos h]

theorem outRow_copy (M I : ℕ → EReal) (r : ℕ) (h1 : 510 ≤ r) (h2 : r < 2556) : outRow M I r = M (r + 2) := by
  unfold outRow; rw [if_neg (Nat.not_lt.2 h1), if_pos h2]

theorem outRow_tail (M I : ℕ → EReal) (r : ℕ) (h : 2556 ≤ r) : outRow M I r = I (r - 2556) := by
  have h1 : ¬ r < 510 := by omega
  unfold outRow; rw [if_neg h1, if_neg (Nat.not_lt.2 h)]

/-- Of the input only its first two rows reach the result. -/
theorem outRow_congr_input (M I I' : ℕ → EReal) (h : ∀ n, n < 2 → I n = I' n) (r : ℕ) (hr : r < 2558) :
    outRow M I r = outRow M I' r := by
  by_cases c : r < 510
  · rw [outRow_helix M I r c, outRow_helix M I' r c]
  · by_cases c2 : r < 2556
    · rw [outRow_copy M I r (by omega) c2, outRow_copy M I' r (by omega) c2]
    · rw [outRow_tail M I r (by omega), outRow_tail M I' r (by omega)]
      exact h _ (by omega)

/-! ## The eight-operand concatenation, down a lane -/

/-- Eight matrices of 2, 4, …, 256 rows concatenated along the rows. -/
theorem rows2_cat8 {d : ℕ}
    (x7 : (⟨2, ![2, d]⟩ : Shape).Idx → EReal) (x6 : (⟨2, ![4, d]⟩ : Shape).Idx → EReal)
    (x5 : (⟨2, ![8, d]⟩ : Shape).Idx → EReal) (x4 : (⟨2, ![16, d]⟩ : Shape).Idx → EReal)
    (x3 : (⟨2, ![32, d]⟩ : Shape).Idx → EReal) (x2 : (⟨2, ![64, d]⟩ : Shape).Idx → EReal)
    (x1 : (⟨2, ![128, d]⟩ : Shape).Idx → EReal) (x0 : (⟨2, ![256, d]⟩ : Shape).Idx → EReal)
    (h : Shape.Concatenates [⟨2, ![2, d]⟩, ⟨2, ![4, d]⟩, ⟨2, ![8, d]⟩, ⟨2, ![16, d]⟩, ⟨2, ![32, d]⟩, ⟨2, ![64, d]⟩,
      ⟨2, ![128, d]⟩, ⟨2, ![256, d]⟩] ⟨2, ![510, d]⟩ 0)
    (e : Fin d) (p7 p6 p5 p4 p3 p2 p1 p0 : ℕ → EReal)
    (h7 : Rows2 x7 e p7) (h6 : Rows2 x6 e p6) (h5 : Rows2 x5 e p5) (h4 : Rows2 x4 e p4)
    (h3 : Rows2 x3 e p3) (h2 : Rows2 x2 e p2) (h1 : Rows2 x1 e p1) (h0 : Rows2 x0 e p0) :
    Rows2 (concatenate ⟨2, ![510, d]⟩ 0 [⟨⟨2, ![2, d]⟩, x7⟩, ⟨⟨2, ![4, d]⟩, x6⟩, ⟨⟨2, ![8, d]⟩, x5⟩, ⟨⟨2, ![16, d]⟩, x4⟩,
      ⟨⟨2, ![32, d]⟩, x3⟩, ⟨⟨2, ![64, d]⟩, x2⟩, ⟨⟨2, ![128, d]⟩, x1⟩, ⟨⟨2, ![256, d]⟩, x0⟩] h) e
      (cat8 p7 p6 p5 p4 p3 p2 p1 p0) := by
  intro r hr
  unfold cat8
  by_cases c7 : r < 2
  · rw [if_pos c7]
    exact rows2_piece _ _ 0 (by simp) x7 rfl 0 rfl e p7 h7 r hr (by omega) (by omega)
  by_cases c6 : r < 6
  · rw [if_neg c7, if_pos c6]
    exact rows2_piece _ _ 1 (by simp) x6 rfl 2 rfl e p6 h6 r hr (by omega) (by omega)
  by_cases c5 : r < 14
  · rw [if_neg c7, if_neg c6, if_pos c5]
    exact rows2_piece _ _ 2 (by simp) x5 rfl 6 rfl e p5 h5 r hr (by omega) (by omega)
  by_cases c4 : r < 30
  · rw [if_neg c7, if_neg c6, if_neg c5, if_pos c4]
    exact rows2_piece _ _ 3 (by simp) x4 rfl 14 rfl e p4 h4 r hr (by omega) (by omega)
  by_cases c3 : r < 62
  · rw [if_neg c7, if_neg c6, if_neg c5, if_neg c4, if_pos c3]
    exact rows2_piece _ _ 4 (by simp) x3 rfl 30 rfl e p3 h3 r hr (by omega) (by omega)
  by_cases c2 : r < 126
  · rw [if_neg c7, if_neg c6, if_neg c5, if_neg c4, if_neg c3, if_pos c2]
    exact rows2_piece _ _ 5 (by simp) x2 rfl 62 rfl e p2 h2 r hr (by omega) (by omega)
  by_cases c1 : r < 254
  · rw [if_neg c7, if_neg c6, if_neg c5, if_neg c4, if_neg c3, if_neg c2, if_pos c1]
    exact rows2_piece _ _ 6 (by simp) x1 rfl 126 rfl e p1 h1 r hr (by omega) (by omega)
  rw [if_neg c7, if_neg c6, if_neg c5, if_neg c4, if_neg c3, if_neg c2, if_neg c1]
  exact rows2_piece _ _ 7 (by simp) x0 rfl 254 rfl e p0 h0 r hr (by omega) (by omega)

/-- Nine rank-3 arrays of 2, 4, …, 256 and 2048 rows concatenated along axis 1: the eight short ones as above, then
    the long one from row 510. -/
theorem rows3_cat9 {B d : ℕ}
    (x7 : (⟨3, ![B, 2, d]⟩ : Shape).Idx → EReal) (x6 : (⟨3, ![B, 4, d]⟩ : Shape).Idx → EReal)
    (x5 : (⟨3, ![B, 8, d]⟩ : Shape).Idx → EReal) (x4 : (⟨3, ![B, 16, d]⟩ : Shape).Idx → EReal)
    (x3 : (⟨3, ![B, 32, d]⟩ : Shape).Idx → EReal) (x2 : (⟨3, ![B, 64, d]⟩ : Shape).Idx → EReal)
    (x1 : (⟨3, ![B, 128, d]⟩ : Shape).Idx → EReal) (x0 : (⟨3, ![B, 256, d]⟩ : Shape).Idx → EReal)
    (xs : (⟨3, ![B, 2048, d]⟩ : Shape).Idx → EReal)
    (h : Shape.Concatenates [⟨3, ![B, 2, d]⟩, ⟨3, ![B, 4, d]⟩, ⟨3, ![B, 8, d]⟩, ⟨3, ![B, 16, d]⟩, ⟨3, ![B, 32, d]⟩,
      ⟨3, ![B, 64, d]⟩, ⟨3, ![B, 128, d]⟩, ⟨3, ![B, 256, d]⟩, ⟨3, ![B, 2048, d]⟩] ⟨3, ![B, 2558, d]⟩ 1)
    (b : Fin B) (e : Fin d) (p7 p6 p5 p4 p3 p2 p1 p0 s : ℕ → EReal)
    (h7 : Rows3 x7 b e p7) (h6 : Rows3 x6 b e p6) (h5 : Rows3 x5 b e p5) (h4 : Rows3 x4 b e p4)
    (h3 : Rows3 x3 b e p3) (h2 : Rows3 x2 b e p2) (h1 : Rows3 x1 b e p1) (h0 : Rows3 x0 b e p0)
    (hs : Rows3 xs b e s) :
    Rows3 (concatenate ⟨3, ![B, 2558, d]⟩ 1 [⟨⟨3, ![B, 2, d]⟩, x7⟩, ⟨⟨3, ![B, 4, d]⟩, x6⟩, ⟨⟨3, ![B, 8, d]⟩, x5⟩,
      ⟨⟨3, ![B, 16, d]⟩, x4⟩, ⟨⟨3, ![B, 32, d]⟩, x3⟩, ⟨⟨3, ![B, 64, d]⟩, x2⟩, ⟨⟨3, ![B, 128, d]⟩, x1⟩,
      ⟨⟨3, ![B, 256, d]⟩, x0⟩, ⟨⟨3, ![B, 2048, d]⟩, xs⟩] h) b e
      (glue 510 (cat8 p7 p6 p5 p4 p3 p2 p1 p0) s) := by
  intro r hr
  unfold glue cat8
  by_cases c : r < 510
  · rw [if_pos c]
    by_cases c7 : r < 2
    · rw [if_pos c7]
      exact rows3_piece _ _ 0 (by simp) x7 rfl 0 rfl b e p7 h7 r hr (by omega) (by omega)
    by_cases c6 : r < 6
    · rw [if_neg c7, if_pos c6]
      exact rows3_piece _ _ 1 (by simp) x6 rfl 2 rfl b e p6 h6 r hr (by omega) (by omega)
    by_cases c5 : r < 14
    · rw [if_neg c7, if_neg c6, if_pos c5]
      exact rows3_piece _ _ 2 (by simp) x5 rfl 6 rfl b e p5 h5 r hr (by omega) (by omega)
    by_cases c4 : r < 30
    · rw [if_neg c7, if_neg c6, if_neg c5, if_pos c4]
      exact rows3_piece _ _ 3 (by simp) x4 rfl 14 rfl b e p4 h4 r hr (by omega) (by omega)
    by_cases c3 : r < 62
    · rw [if_neg c7, if_neg c6, if_neg c5, if_neg c4, if_pos c3]
      exact rows3_piece _ _ 4 (by simp) x3 rfl 30 rfl b e p3 h3 r hr (by omega) (by omega)
    by_cases c2 : r < 126
    · rw [if_neg c7, if_neg c6, if_neg c5, if_neg c4, if_neg c3, if_pos c2]
      exact rows3_piece _ _ 5 (by simp) x2 rfl 62 rfl b e p2 h2 r hr (by omega) (by omega)
    by_cases c1 : r < 254
    · rw [if_neg c7, if_neg c6, if_neg c5, if_neg c4, if_neg c3, if_neg c2, if_pos c1]
      exact rows3_piece _ _ 6 (by simp) x1 rfl 126 rfl b e p1 h1 r hr (by omega) (by omega)
    rw [if_neg c7, if_neg c6, if_neg c5, if_neg c4, if_neg c3, if_neg c2, if_neg c1]
    exact rows3_piece _ _ 7 (by simp) x0 rfl 254 rfl b e p0 h0 r hr (by omega) (by omega)
  · rw [if_neg c]
    exact rows3_piece _ _ 8 (by simp) xs rfl 510 rfl b e s hs r hr (by omega) (by omega)

end Cert.Cascade

end
-- ==== Proof.KernelRows.lean ====
import proofs.«137517_j10634339025369_2_alg».proof.Proof.Gen.KernelIdeal.Skeleton
import proofs.«137517_j10634339025369_2_alg».proof.Proof.Cascade

/-!
# What the kernel body computes, down one lane of its blocks

The body loads rows 1024 … 1535 of its memory block, halves them nine times, and lays the eight turns end to end; each
step is an operation on whole `[rows, 512]` vectors that acts on every lane separately. Read down lane `c`, with `M` the
lane of the memory block, the nine levels are `lvl0 M … lvl8 M` and the stored `[1, 510, 512]` vector is `helix M`.
-/

noncomputable section

namespace Cert.KernelIdeal.Rows

open Cert.KernelIdeal Cert.KernelIdeal.Gen Idealize.ShloMosaic Idealize.ShloMosaic.ValueIdx Cert.ColumnRows Cert.Cascade

variable (v0 : Vec Ideal S1x512x512 .f32) (c : Fin 512) (M : ℕ → EReal)

/-- The loaded `[1, 512, 512]` block viewed as a matrix has the same rows. -/
theorem load_rows (h0 : Rows3 v0 0 c (shift 1024 M)) :
    Rows2 (shapeCast S512x512 v0 Facts₀.shapeCasts_S1x512x512_S512x512) c (shift 1024 M) := by
  intro r hr
  rw [shapeCast_1ab_ab_apply v0 Facts₀.shapeCasts_S1x512x512_S512x512 ⟨r, hr⟩ c]
  exact h0 r hr

theorem level0 (h0 : Rows3 v0 0 c (shift 1024 M)) : Rows2 (k0_pay4 v0) c (lvl0 M) := by
  unfold k0_pay4
  exact rows2_halve (by norm_num : (512 : ℕ) = 2 * 256) _ _ _ _ _ c _ (load_rows v0 c M h0)

theorem level1 (h0 : Rows3 v0 0 c (shift 1024 M)) : Rows2 (k0_pay5 v0) c (lvl1 M) := by
  unfold k0_pay5
  exact rows2_halve (by norm_num : (256 : ℕ) = 2 * 128) _ _ _ _ _ c _ (level0 v0 c M h0)

theorem level2 (h0 : Rows3 v0 0 c (shift 1024 M)) : Rows2 (k0_pay6 v0) c (lvl2 M) := by
  unfold k0_pay6
  exact rows2_halve (by norm_num : (128 : ℕ) = 2 * 64) _ _ _ _ _ c _ (level1 v0 c M h0)

theorem level3 (h0 : Rows3 v0 0 c (shift 1024 M)) : Rows2 (k0_pay7 v0) c (lvl3 M) := by
  unfold k0_pay7
  exact rows2_halve (by norm_num : (64 : ℕ) = 2 * 32) _ _ _ _ _ c _ (level2 v0 c M h0)

theorem level4 (h0 : Rows3 v0 0 c (shift 1024 M)) : Rows2 (k0_pay8 v0) c (lvl4 M) := by
  unfold k0_pay8
  exact rows2_halve (by norm_num : (32 : ℕ) = 2 * 16) _ _ _ _ _ c _ (level3 v0 c M h0)

theorem level5 (h0 : Rows3 v0 0 c (shift 1024 M)) : Rows2 (k0_pay9 v0) c (lvl5 M) := by
  unfold k0_pay9
  exact rows2_halve (by norm_num : (16 : ℕ) = 2 * 8) _ _ _ _ _ c _ (level4 v0 c M h0)

theorem level6 (h0 : Rows3 v0 0 c (shift 1024 M)) : Rows2 (k0_pay10 v0) c (lvl6 M) := by
  unfold k0_pay10
  exact rows2_halve (by norm_num : (8 : ℕ) = 2 * 4) _ _ _ _ _ c _ (level5 v0 c M h0)

theorem level7 (h0 : Rows3 v0 0 c (shift 1024 M)) : Rows2 (k0_pay11 v0) c (lvl7 M) := by
  unfold k0_pay11
  exact rows2_halve (by norm_num : (4 : ℕ) = 2 * 2) _ _ _ _ _ c _ (level6 v0 c M h0)

/-- The last level is printed in two payloads — the sum, and the splat of 2.0 — divided where the turns are built. -/
theorem level8 (h0 : Rows3 v0 0 c (shift 1024 M)) :
    Rows2 (divf (k0_pay12 v0) (k0_pay13 (F := Ideal))) c (lvl8 M) := by
  unfold k0_pay12 k0_pay13
  exact rows2_halve (by norm_num : (2 : ℕ) = 2 * 1) _ _ _ _ _ c _ (level7 v0 c M h0)

/-- The stored `[1, 510, 512]` vector: the eight turns, each the newer half of a level followed by the next level. -/
theorem helix_rows (h0 : Rows3 v0 0 c (shift 1024 M)) :
    Rows3 (k0_pay1 (k0_pay4 v0) (k0_pay5 v0) (k0_pay6 v0) (k0_pay7 v0) (k0_pay8 v0) (k0_pay9 v0) (k0_pay10 v0)
      (k0_pay11 v0) (k0_pay12 v0) (k0_pay13 (F := Ideal))) 0 c (helix M) := by
  intro r hr
  unfold k0_pay1
  rw [shapeCast_ab_1ab_apply _ Facts₀.shapeCasts_S510x512_S1x510x512 0 ⟨r, hr⟩ c]
  refine rows2_cat8 _ _ _ _ _ _ _ _ _ c _ _ _ _ _ _ _ _ ?_ ?_ ?_ ?_ ?_ ?_ ?_ ?_ r hr
  · exact rows2_glue _ _ _ c _ _ (rows2_slice 1 _ _ c _ (level7 v0 c M h0)) (level8 v0 c M h0)
  · exact rows2_glue _ _ _ c _ _ (rows2_slice 2 _ _ c _ (level6 v0 c M h0)) (level7 v0 c M h0)
  · exact rows2_glue _ _ _ c _ _ (rows2_slice 4 _ _ c _ (level5 v0 c M h0)) (level6 v0 c M h0)
  · exact rows2_glue _ _ _ c _ _ (rows2_slice 8 _ _ c _ (level4 v0 c M h0)) (level5 v0 c M h0)
  · exact rows2_glue _ _ _ c _ _ (rows2_slice 16 _ _ c _ (level3 v0 c M h0)) (level4 v0 c M h0)
  · exact rows2_glue _ _ _ c _ _ (rows2_slice 32 _ _ c _ (level2 v0 c M h0)) (level3 v0 c M h0)
  · exact rows2_glue _ _ _ c _ _ (rows2_slice 64 _ _ c _ (level1 v0 c M h0)) (level2 v0 c M h0)
  · exact rows2_glue _ _ _ c _ _ (rows2_slice 128 _ _ c _ (level0 v0 c M h0)) (level1 v0 c M h0)

end Cert.KernelIdeal.Rows

end
-- ==== Proof.KernelBlock.lean ====
import proofs.«137517_j10634339025369_2_alg».proof.Proof.Gen.KernelIdeal.Frame
import proofs.«137517_j10634339025369_2_alg».proof.Proof.KernelRows
import Idealize.ShloMosaic.Lib.Pipeline.Value
import Idealize.ShloMosaic.Lib.Tactic

/-!
# The block one grid point leaves

At each grid point the body fills its `[1, 2558, 512]` output block with three stores: rows 0 … 509 the helix, rows
510 … 2555 rows 512 … 2557 of the memory block, rows 2556, 2557 the first two rows of the input block. Lane by lane this
is `outRow` of the two input blocks' lanes: each store's vector, at a local index, is that function at the block index
the store's box puts it at, and the three boxes cover the block.
-/

noncomputable section

namespace Cert.KernelIdeal.Block

open Cert.KernelIdeal Cert.KernelIdeal.Gen Cert.KernelIdeal.Rows
open Idealize.ShloMosaic Idealize.ShloMosaic.TcCoe Idealize.SL.Sem Idealize.ShloMosaic.ValueIdx
open Cert.ColumnRows Cert.Cascade

/-- What a grid point leaves in its output block, as a function of its memory block `x0` and its input block `x1`. -/
def blockOut (x0 : Vec Ideal S1x2558x512 .f32) (x1 : Vec Ideal S1x8x512 .f32) : S1x2558x512.Idx → EReal :=
  fun y => outRow (col3 x0 0 (y 2)) (col3 x1 0 (y 2)) (y 1).val

theorem blockOut_apply (x0 : Vec Ideal S1x2558x512 .f32) (x1 : Vec Ideal S1x8x512 .f32) (u : Fin 1) (r : Fin 2558)
    (cc : Fin 512) : blockOut x0 x1 (ix3 u r cc) = outRow (col3 x0 0 cc) (col3 x1 0 cc) r.val := rfl

/-- The boxes of the body's three stores into the output block, -/
abbrev boxHelix : Rect S1x2558x512 := Rect.unit ![0, 0, 0] S1x510x512.size Facts₀.inb_S1x2558x512_S1x510x512_0_0_0
abbrev boxCopy : Rect S1x2558x512 := Rect.unit ![0, 510, 0] S1x2046x512.size Facts₀.inb_S1x2558x512_S1x2046x512_0_510_0
abbrev boxTail : Rect S1x2558x512 := Rect.unit ![0, 2556, 0] S1x2x512.size Facts₀.inb_S1x2558x512_S1x2x512_0_2556_0
/-- and of its loads: rows 1024 … 1535 and 512 … 2557 of the memory block, rows 0, 1 of the input block. -/
abbrev boxSeed : Rect S1x2558x512 := Rect.unit ![0, 1024, 0] S1x512x512.size Facts₀.inb_S1x2558x512_S1x512x512_0_1024_0
abbrev boxShort : Rect S1x2558x512 := Rect.unit ![0, 512, 0] S1x2046x512.size Facts₀.inb_S1x2558x512_S1x2046x512_0_512_0
abbrev boxNew : Rect S1x8x512 := Rect.unit ![0, 0, 0] S1x2x512.size Facts₀.inb_S1x8x512_S1x2x512_0_0_0

variable (x0 : Vec Ideal S1x2558x512 .f32) (x1 : Vec Ideal S1x8x512 .f32)

/-- The store of rows 0 … 509: the helix of the memory block's lane. -/
theorem piece_helix (x : boxHelix.shape.Idx) :
    k0_pay1 (k0_pay4 (View.ld x0 boxSeed)) (k0_pay5 (View.ld x0 boxSeed)) (k0_pay6 (View.ld x0 boxSeed))
      (k0_pay7 (View.ld x0 boxSeed)) (k0_pay8 (View.ld x0 boxSeed)) (k0_pay9 (View.ld x0 boxSeed))
      (k0_pay10 (View.ld x0 boxSeed)) (k0_pay11 (View.ld x0 boxSeed)) (k0_pay12 (View.ld x0 boxSeed))
      (k0_pay13 (F := Ideal)) x
    = blockOut x0 x1 (boxHelix.emb x) := by
  obtain ⟨u, r, cc, rfl⟩ : ∃ (u : Fin 1) (r : Fin 510) (cc : Fin 512), x = ix3 u r cc := ⟨x 0, x 1, x 2, eq_ix3 x⟩
  have hu : u = 0 := Subsingleton.elim _ _
  subst hu
  have hr := r.isLt
  have hemb : boxHelix.emb (ix3 (0 : Fin 1) r cc) = ix3 (0 : Fin 1) (⟨r.val, by omega⟩ : Fin 2558) cc :=
    emb_unit3 _ _ _ _ _ _ _ rfl (by show r.val = 0 + r.val; omega) (by show cc.val = 0 + cc.val; omega)
  rw [hemb, blockOut_apply]
  have h0 : Rows3 (View.ld x0 boxSeed) 0 cc (shift 1024 (col3 x0 0 cc)) := by
    intro n hn
    have hemb0 : boxSeed.emb (ix3 (0 : Fin 1) (⟨n, hn⟩ : Fin 512) cc) = ix3 (0 : Fin 1) (⟨1024 + n, by omega⟩ : Fin 2558) cc :=
      emb_unit3 _ _ _ _ _ _ _ rfl rfl (by show cc.val = 0 + cc.val; omega)
    show x0 (boxSeed.emb (ix3 (0 : Fin 1) ⟨n, hn⟩ cc)) = col3 x0 0 cc (1024 + n)
    rw [hemb0, col3_apply x0 0 cc (1024 + n) (by omega)]
  refine (helix_rows _ cc (col3 x0 0 cc) h0 r.val r.isLt).trans ?_
  exact (outRow_helix (col3 x0 0 cc) (col3 x1 0 cc) r.val hr).symm

/-- The store of rows 510 … 2555: rows 512 … 2557 of the memory block. -/
theorem piece_copy (x : boxCopy.shape.Idx) :
    k0_pay2 (View.ld x0 boxShort) x = blockOut x0 x1 (boxCopy.emb x) := by
  obtain ⟨u, r, cc, rfl⟩ : ∃ (u : Fin 1) (r : Fin 2046) (cc : Fin 512), x = ix3 u r cc := ⟨x 0, x 1, x 2, eq_ix3 x⟩
  have hu : u = 0 := Subsingleton.elim _ _
  subst hu
  have hr := r.isLt
  have hemb : boxCopy.emb (ix3 (0 : Fin 1) r cc) = ix3 (0 : Fin 1) (⟨510 + r.val, by omega⟩ : Fin 2558) cc :=
    emb_unit3 _ _ _ _ _ _ _ rfl rfl (by show cc.val = 0 + cc.val; omega)
  have hemb1 : boxShort.emb (ix3 (0 : Fin 1) r cc) = ix3 (0 : Fin 1) (⟨512 + r.val, by omega⟩ : Fin 2558) cc :=
    emb_unit3 _ _ _ _ _ _ _ rfl rfl (by show cc.val = 0 + cc.val; omega)
  rw [hemb, blockOut_apply]
  unfold k0_pay2
  rw [shapeCast_shapeCast]
  show x0 (boxShort.emb (ix3 (0 : Fin 1) r cc)) = outRow (col3 x0 0 cc) (col3 x1 0 cc) (510 + r.val)
  rw [hemb1, outRow_copy _ _ (510 + r.val) (by omega) (by omega), col3_apply x0 0 cc (510 + r.val + 2) (by omega)]
  refine congrArg x0 (congrArg (fun k : Fin 2558 => ix3 (0 : Fin 1) k cc) (Fin.ext ?_))
  show 512 + r.val = 510 + r.val + 2
  omega

/-- The store of rows 2556, 2557: the first two rows of the input block. -/
theorem piece_input (x : boxTail.shape.Idx) :
    k0_pay3 (View.ld x1 boxNew) x = blockOut x0 x1 (boxTail.emb x) := by
  obtain ⟨u, r, cc, rfl⟩ : ∃ (u : Fin 1) (r : Fin 2) (cc : Fin 512), x = ix3 u r cc := ⟨x 0, x 1, x 2, eq_ix3 x⟩
  have hu : u = 0 := Subsingleton.elim _ _
  subst hu
  have hr := r.isLt
  have hemb : boxTail.emb (ix3 (0 : Fin 1) r cc) = ix3 (0 : Fin 1) (⟨2556 + r.val, by omega⟩ : Fin 2558) cc :=
    emb_unit3 _ _ _ _ _ _ _ rfl rfl (by show cc.val = 0 + cc.val; omega)
  have hemb1 : boxNew.emb (ix3 (0 : Fin 1) r cc) = ix3 (0 : Fin 1) (⟨r.val, by omega⟩ : Fin 8) cc :=
    emb_unit3 _ _ _ _ _ _ _ rfl (by show r.val = 0 + r.val; omega) (by show cc.val = 0 + cc.val; omega)
  rw [hemb, blockOut_apply]
  unfold k0_pay3
  rw [shapeCast_shapeCast]
  show x1 (boxNew.emb (ix3 (0 : Fin 1) r cc)) = outRow (col3 x0 0 cc) (col3 x1 0 cc) (2556 + r.val)
  rw [hemb1, outRow_tail _ _ (2556 + r.val) (by omega), col3_apply x1 0 cc (2556 + r.val - 2556) (by omega)]
  refine congrArg x1 (congrArg (fun k : Fin 8 => ix3 (0 : Fin 1) k cc) (Fin.ext ?_))
  show r.val = 2556 + r.val - 2556
  omega

/-- The body's stores, last first: the pieces the frame's run found. -/
theorem pieces_eq (c : Dev nD) (i : grid0.Coords) (arg2 : Memref sig .tc .vmem S1x2558x512 .f32) (harg2 : arg2.IsWhole)
    (arg3 : Memref sig .tc .vmem S1x8x512 .f32) (harg3 : arg3.IsWhole) (arg4 : Memref sig .tc .vmem S1x2558x512 .f32)
    (harg4 : arg4.IsWhole) :
    (kernelRun0_A (F := Ideal) c i arg2 harg2 arg3 harg3 arg4 harg4 x0 x1).1 =
      [⟨boxTail, k0_pay3 (View.ld x1 boxNew)⟩, ⟨boxCopy, k0_pay2 (View.ld x0 boxShort)⟩,
        ⟨boxHelix, k0_pay1 (k0_pay4 (View.ld x0 boxSeed)) (k0_pay5 (View.ld x0 boxSeed)) (k0_pay6 (View.ld x0 boxSeed))
          (k0_pay7 (View.ld x0 boxSeed)) (k0_pay8 (View.ld x0 boxSeed)) (k0_pay9 (View.ld x0 boxSeed))
          (k0_pay10 (View.ld x0 boxSeed)) (k0_pay11 (View.ld x0 boxSeed)) (k0_pay12 (View.ld x0 boxSeed))
          (k0_pay13 (F := Ideal))⟩] := by
  unfold kernelRun0_A
  dsimp only
  try sl_unfold_words
  simp only [View.readAt_eq_ld, harg2.read_unread, harg3.read_unread]

/-- So the block a point leaves is `blockOut` of its input blocks. -/
theorem out_block (c : Dev nD) (i : grid0.Coords) (arg2 : Memref sig .tc .vmem S1x2558x512 .f32) (harg2 : arg2.IsWhole)
    (arg3 : Memref sig .tc .vmem S1x8x512 .f32) (harg3 : arg3.IsWhole) (arg4 : Memref sig .tc .vmem S1x2558x512 .f32)
    (harg4 : arg4.IsWhole) :
    out0_A_2 (F := Ideal) c i arg2 harg2 arg3 harg3 arg4 harg4 x0 x1 = blockOut x0 x1 := by
  funext y
  unfold out0_A_2
  rw [View.read_writes_eq_canon _ _ _ (cover0_A_2 c i arg2 harg2 arg3 harg3 arg4 harg4 x0 x1)]
  refine View.canon_apply_of_pieces (blockOut x0 x1) _ ?_ y (cover0_A_2 c i arg2 harg2 arg3 harg3 arg4 harg4 x0 x1 y)
  rw [pieces_eq x0 x1 c i arg2 harg2 arg3 harg3 arg4 harg4]
  intro p hp x
  simp only [List.mem_cons, List.not_mem_nil, or_false] at hp
  rcases hp with rfl | rfl | rfl
  · exact piece_input x0 x1 x
  · exact piece_copy x0 x1 x
  · exact piece_helix x0 x1 x

end Cert.KernelIdeal.Block

end
-- ==== Proof.KernelValue.lean ====
import proofs.«137517_j10634339025369_2_alg».proof.Proof.Gen.KernelIdeal.Value
import proofs.«137517_j10634339025369_2_alg».proof.Proof.KernelBlock

/-!
# The kernel's result array

Grid point `t` has block indices `(b, 0, dt)` in all three windows. Its memory block is batch `b`, lanes
`512 dt … 512 dt + 511` of the memory array, its input block the same lanes of rows 0 … 7 of the input array, and what it
writes back is block `(b, 0, dt)` of `result` of the two arrays; the 8 × 4 blocks tile the `[8, 2558, 2048]` array.
-/

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx
open Idealize.ShloMosaic.Pipeline (Dat)
open Cert.ColumnRows Cert.Cascade

variable (m : (ℓ : Loc nD τ sig) → Buf (Elt Ideal) ℓ) (ρ : Dev nD → PrngReg)

/-- The printed index maps over the 32 grid points: the three windows move together, over 8 batches and 4 lane tiles. -/
theorem idx_facts : ∀ t : Fin cfg0.N,
    win0_0.index t (0 : Fin 3) = win0_2.index t (0 : Fin 3) ∧ win0_0.index t (1 : Fin 3) = 0
    ∧ win0_0.index t (2 : Fin 3) = win0_2.index t (2 : Fin 3)
    ∧ win0_1.index t (0 : Fin 3) = win0_2.index t (0 : Fin 3) ∧ win0_1.index t (1 : Fin 3) = 0
    ∧ win0_1.index t (2 : Fin 3) = win0_2.index t (2 : Fin 3)
    ∧ win0_2.index t (0 : Fin 3) < 8 ∧ win0_2.index t (1 : Fin 3) = 0 ∧ win0_2.index t (2 : Fin 3) < 4 :=
  (by decide +kernel : ∀ t : Fin grid0.N, _)

/-- Every pair (batch, lane tile) is some point's. -/
theorem idx_onto : ∀ (q0 : Fin 8) (q2 : Fin 4), ∃ t : Fin cfg0.N, win0_2.index t = ![q0.val, 0, q2.val] :=
  (by decide +kernel : ∀ (q0 : Fin 8) (q2 : Fin 4), ∃ t : Fin grid0.N, win0_2.index t = ![q0.val, 0, q2.val])

/-- The memory block at point `t`, read down lane `cc`, is lane `512 dt + cc` of batch `b` of the memory array. -/
theorem mem_block (c : Dev nD) (t : Fin cfg0.N) (cc : Fin 512) (b : Fin 8) (e : Fin 2048)
    (hb : b.val = win0_2.index t (0 : Fin 3)) (he : e.val = win0_2.index t (2 : Fin 3) * 512 + cc.val)
    (n : ℕ) (hn : n < 2558) :
    (iblk m c 0 t : Vec Ideal S1x2558x512 .f32) (ix3 (0 : Fin 1) ⟨n, hn⟩ cc)
      = (m ((c : Thread nD τ).loc main_arg1) : S8x2558x2048.Idx → EReal) (ix3 b ⟨n, hn⟩ e) := by
  obtain ⟨e0, e1, e2, -⟩ := idx_facts t
  show V m c main_arg1 (((cfg0.win 0).blk t).view.emb (ix3 (0 : Fin 1) (⟨n, hn⟩ : Fin 2558) cc)) = V m c main_arg1 (ix3 b ⟨n, hn⟩ e)
  refine congrArg _ ?_
  funext a
  apply Fin.ext
  match a with
  | ⟨0, _⟩ => show win0_0.index t (0 : Fin 3) * 1 + 1 * 0 = b.val; omega
  | ⟨1, _⟩ => show win0_0.index t (1 : Fin 3) * 2558 + 1 * n = n; omega
  | ⟨2, _⟩ => show win0_0.index t (2 : Fin 3) * 512 + 1 * cc.val = e.val; omega

/-- The input block at point `t`: rows 0 … 7 of the same batch and lanes of the input array. -/
theorem inp_block (c : Dev nD) (t : Fin cfg0.N) (cc : Fin 512) (b : Fin 8) (e : Fin 2048)
    (hb : b.val = win0_2.index t (0 : Fin 3)) (he : e.val = win0_2.index t (2 : Fin 3) * 512 + cc.val)
    (n : ℕ) (hn : n < 8) :
    (iblk m c 1 t : Vec Ideal S1x8x512 .f32) (ix3 (0 : Fin 1) ⟨n, hn⟩ cc)
      = (m ((c : Thread nD τ).loc main_arg0) : S8x1024x2048.Idx → EReal) (ix3 b ⟨n, by omega⟩ e) := by
  obtain ⟨-, -, -, e0, e1, e2, -⟩ := idx_facts t
  show V m c main_arg0 (((cfg0.win 1).blk t).view.emb (ix3 (0 : Fin 1) (⟨n, hn⟩ : Fin 8) cc)) = V m c main_arg0 (ix3 b ⟨n, by omega⟩ e)
  refine congrArg _ ?_
  funext a
  apply Fin.ext
  match a with
  | ⟨0, _⟩ => show win0_1.index t (0 : Fin 3) * 1 + 1 * 0 = b.val; omega
  | ⟨1, _⟩ => show win0_1.index t (1 : Fin 3) * 8 + 1 * n = n; omega
  | ⟨2, _⟩ => show win0_1.index t (2 : Fin 3) * 512 + 1 * cc.val = e.val; omega

/-- What point `t` writes back is its block of `result` of the argument arrays. -/
theorem flushed_eq (c : Dev nD) (t : Fin cfg0.N) :
    (dats m 0 c).flushed 2 t = ((cfg0.win 2).blk t).view.read (Elt Ideal)
      (result (m ((c : Thread nD τ).loc main_arg0)) (m ((c : Thread nD τ).loc main_arg1))) := by
  rw [flushed2_A m c t]
  have hblk := out_block (iblk m c 0 t) (iblk m c 1 t) c (grid0.coords t) (ms0_0 t) (hs0_0 t) (ms0_1 t) (hs0_1 t) (ms0_2 t) (hs0_2 t)
  rw [hblk]
  obtain ⟨-, -, -, -, -, -, l0, l1, l2⟩ := idx_facts t
  refine funext fun (j : S1x2558x512.Idx) => ?_
  obtain ⟨u, r, cc, rfl⟩ : ∃ (u : Fin 1) (r : Fin 2558) (cc : Fin 512), j = ix3 u r cc := ⟨j 0, j 1, j 2, eq_ix3 j⟩
  have hu : u = 0 := Subsingleton.elim _ _
  subst hu
  have hemb : ((cfg0.win 2).blk t).view.emb (ix3 (0 : Fin 1) r cc)
      = ix3 (⟨win0_2.index t (0 : Fin 3), l0⟩ : Fin 8) r (⟨win0_2.index t (2 : Fin 3) * 512 + cc.val, by omega⟩ : Fin 2048) := by
    funext a
    apply Fin.ext
    match a with
    | ⟨0, _⟩ => show win0_2.index t (0 : Fin 3) * 1 + 1 * 0 = win0_2.index t (0 : Fin 3); omega
    | ⟨1, _⟩ => show win0_2.index t (1 : Fin 3) * 2558 + 1 * r.val = r.val; omega
    | ⟨2, _⟩ => show win0_2.index t (2 : Fin 3) * 512 + 1 * cc.val = win0_2.index t (2 : Fin 3) * 512 + cc.val; omega
  show blockOut (iblk m c 0 t) (iblk m c 1 t) (ix3 (0 : Fin 1) r cc)
    = result (m ((c : Thread nD τ).loc main_arg0)) (m ((c : Thread nD τ).loc main_arg1))
        (((cfg0.win 2).blk t).view.emb (ix3 (0 : Fin 1) r cc))
  rw [hemb, result_apply, blockOut_apply]
  have hM : col3 (iblk m c 0 t : Vec Ideal S1x2558x512 .f32) 0 cc
      = col3 (m ((c : Thread nD τ).loc main_arg1) : S8x2558x2048.Idx → EReal)
          (⟨win0_2.index t (0 : Fin 3), l0⟩ : Fin 8) (⟨win0_2.index t (2 : Fin 3) * 512 + cc.val, by omega⟩ : Fin 2048) := by
    funext n
    unfold col3
    by_cases hn : n < 2558
    · rw [dif_pos hn, dif_pos hn]
      exact mem_block m c t cc _ _ rfl rfl n hn
    · rw [dif_neg hn, dif_neg hn]
  rw [hM]
  refine outRow_congr_input _ _ _ (fun n hn => ?_) r.val r.isLt
  unfold col3
  rw [dif_pos (by omega : n < 8), dif_pos (by omega : n < 1024)]
  exact inp_block m c t cc _ _ rfl rfl n (by omega)

/-- An index of the array is in point `t`'s block iff each coordinate is in the block's range on its axis. -/
theorem mem_blk (t : Fin cfg0.N) (i : S8x2558x2048.Idx) :
    i ∈ ((cfg0.win 2).blk t).view.set ↔ ∀ a : Fin 3, win0_2.index t a * S1x2558x512.size a ≤ (i a).val
      ∧ (i a).val < win0_2.index t a * S1x2558x512.size a + S1x2558x512.size a := by
  show i ∈ ((View.whole main_v0).slice (win0_2.rect t)).set ↔ _
  rw [View.set_slice_whole, Rect.mem_set_unit]
  exact Iff.rfl

/-- The blocks of the 32 points cover the array: index `(b, r, e)` is in the block of the point at `(b, e / 512)`. -/
theorem cover (i : S8x2558x2048.Idx) : ∃ t : Fin cfg0.N, (cfg0.win 2).flush t = true ∧ i ∈ ((cfg0.win 2).blk t).view.set := by
  have hi0 : (i 0).val < 8 := (i 0).isLt
  have hi1 : (i 1).val < 2558 := (i 1).isLt
  have hi2 : (i 2).val < 2048 := (i 2).isLt
  obtain ⟨t, ht⟩ := idx_onto ⟨(i 0).val, hi0⟩ ⟨(i 2).val / 512, by omega⟩
  have q0 : win0_2.index t (0 : Fin 3) = (i 0).val := congrFun ht 0
  have q1 : win0_2.index t (1 : Fin 3) = 0 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2558 ≤ (i 1).val ∧ (i 1).val < win0_2.index t (1 : Fin 3) * 2558 + 2558; omega
  | ⟨2, _⟩ => show win0_2.index t (2 : Fin 3) * 512 ≤ (i 2).val ∧ (i 2).val < win0_2.index t (2 : Fin 3) * 512 + 512; omega

/-- The result array after the run. -/
theorem final (c : Dev nD) : (dats m 0 c).arrAt 2 cfg0.N
    = result (m ((c : Thread nD τ).loc main_arg0)) (m ((c : Thread nD τ).loc main_arg1)) :=
  (dats m 0 c).arrAt_eq_of_cover 2 _ (fun t _ => flushed_eq m c t) cover

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.ReferenceSteps.lean ====
/- One equation per buffer of the reference's helix loop: a table of cases written by the script named above from the
   run module's list of operations; the argument is in Proof/ReferenceRows.lean. -/
import proofs.«137517_j10634339025369_2_alg».proof.Proof.ReferenceRunPatched

/-!
# The reference's operations, one equation per buffer

After the reference's hundred host operations every buffer holds its operation's function of what its operands'
buffers hold: each buffer is written once, after its operands, and never again. `W V0` is what the buffers hold
after the run from the launch contents `V0`; one equation per buffer of the helix loop states it over the buffers it
is computed from: a slice, the means of adjacent row pairs, a concatenation. An equation holds for the operations
after a point of the list run from ANY contents: the list is cut there (`seg0`, `seg1`, … are its pieces in order),
the contents at the cut are taken as a variable, and both sides are read through the operations after the cut. A
concatenation is cut at its own operation: its operands, read at the cut, are what they are at the end.
-/

-- one equation at a time: each reads up to a hundred operations, and elaborated side by side they hold gigabytes
set_option Elab.async false

noncomputable section

namespace Cert.ReferenceIdeal.Steps

open Cert.ReferenceIdeal Cert.ReferenceIdeal.Gen Cert.ReferenceIdeal.ValueP Idealize.ShloMosaic Idealize.ShloMosaic.TcCoe
open Idealize.SL.Sem Idealize.ShloMosaic.StableHlo

variable {F : FTy → Type} [FloatOps F]

/-- Operations run one list after another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- What every buffer holds after the reference's operations, from launch contents `V0`. -/
def W (V0 : Valuation τ sig (Elt F)) : Valuation τ sig (Elt F) := after ops V0

/-- Operations 0 … 0 of the list. -/
abbrev seg0 : List (HloOp τ sig (Elt F)) :=
  [ binary main_arg1 main_arg0 main_v0 ((fun a b => concatenate S8x3582x2048 1 [⟨S8x2558x2048, a⟩, ⟨S8x1024x2048, b⟩] concatenates_S8x2558x2048_S8x1024x2048_S8x3582x2048_d1) : (⟨S8x2558x2048, .f32⟩ : BufTy).Contents (Elt F) → (⟨S8x1024x2048, .f32⟩ : BufTy).Contents (Elt F) → (⟨S8x3582x2048, .f32⟩ : BufTy).Contents (Elt F)) ]

/-- Operations 1 … 1 of the list. -/
abbrev seg1 : List (HloOp τ sig (Elt F)) :=
  [ unary main_v0 main_v1 ((extractStridedSlice S8x2048x2048 ![0, 512, 0] · slices_S8x3582x2048_S8x2048x2048_0_512_0) : (⟨S8x3582x2048, .f32⟩ : BufTy).Contents (Elt F) → (⟨S8x2048x2048, .f32⟩ : BufTy).Contents (Elt F)) ]

/-- Operations 2 … 3 of the list. -/
abbrev seg2 : List (HloOp τ sig (Elt F)) :=
  [ unary main_v0 main_v2 ((extractStridedSlice S8x512x2048 ![0, 0, 0] · slices_S8x3582x2048_S8x512x2048_0_0_0) : (⟨S8x3582x2048, .f32⟩ : BufTy).Contents (Elt F) → (⟨S8x512x2048, .f32⟩ : BufTy).Contents (Elt F)),
    unary main_v1 main_v3 ((extractStridedSlice S8x1024x2048 ![0, 0, 0] · slices_S8x2048x2048_S8x1024x2048_0_0_0) : (⟨S8x2048x2048, .f32⟩ : BufTy).Contents (Elt F) → (⟨S8x1024x2048, .f32⟩ : BufTy).Contents (Elt F)) ]

/-- Operations 4 … 9 of the list. -/
abbrev seg3 : List (HloOp τ sig (Elt F)) :=
  [ reshape main_v3 main_v4 rfl shapeCasts_S8x1024x2048_S8x512x2x2048,
    nullary main_cst (constant S_ .f32 0x00000000#32),
    binary main_v4 main_cst main_v5 ((fun x v => Host.reduceAdd x v reducesTo_S8x512x2x2048_S8x512x2048_d2 h_S_) : (⟨S8x512x2x2048, .f32⟩ : BufTy).Contents (Elt F) → (⟨S_, .f32⟩ : BufTy).Contents (Elt F) → (⟨S8x512x2048, .f32⟩ : BufTy).Contents (Elt F)),
    nullary main_cst_0 (constant S_ .f32 0x40000000#32),
    unary main_cst_0 main_v6 (broadcastInDim S8x512x2048 ![] bcast_S_S8x512x2048 : (⟨S_, .f32⟩ : BufTy).Contents (Elt F) → (⟨S8x512x2048, .f32⟩ : BufTy).Contents (Elt F)),
    binary main_v5 main_v6 main_v7 (Host.divf : (⟨S8x512x2048, .f32⟩ : BufTy).Contents (Elt F) → (⟨S8x512x2048, .f32⟩ : BufTy).Contents (Elt F) → (⟨S8x512x2048, .f32⟩ : BufTy).Contents (Elt F)) ]

/-- Operations 10 … 10 of the list. -/
abbrev seg4 : List (HloOp τ sig (Elt F)) :=
  [ binary main_v2 main_v7 main_v8 ((fun a b => concatenate S8x1024x2048 1 [⟨S8x512x2048, a⟩, ⟨S8x512x2048, b⟩] concatenates_S8x512x2048_S8x512x2048_S8x1024x2048_d1) : (⟨S8x512x2048, .f32⟩ : BufTy).Contents (Elt F) → (⟨S8x512x2048, .f32⟩ : BufTy).Contents (Elt F) → (⟨S8x1024x2048, .f32⟩ : BufTy).Contents (Elt F)) ]

/-- Operations 11 … 11 of the list. -/
abbrev seg5 : List (HloOp τ sig (Elt F)) :=
  [ unary main_v8 main_v9 ((extractStridedSlice S8x256x2048 ![0, 768, 0] · slices_S8x1024x2048_S8x256x2048_0_768_0) : (⟨S8x1024x2048, .f32⟩ : BufTy).Contents (Elt F) → (⟨S8x256x2048, .f32⟩ : BufTy).Contents (Elt F)) ]

/-- Operations 12 … 18 of the list. -/
abbrev seg6 : List (HloOp τ sig (Elt F)) :=
  [ reshape main_v9 main_v10 rfl shapeCasts_S8x256x2048_S8x128x2x2048,
    nullary main_cst_1 (constant S_ .f32 0x00000000#32),
    binary main_v10 main_cst_1 main_v11 ((fun x v => Host.reduceAdd x v reducesTo_S8x128x2x2048_S8x128x2048_d2 h_S_) : (⟨S8x128x2x2048, .f32⟩ : BufTy).Contents (Elt F) → (⟨S_, .f32⟩ : BufTy).Contents (Elt F) → (⟨S8x128x2048, .f32⟩ : BufTy).Contents (Elt F)),
    nullary main_cst_2 (constant S_ .f32 0x40000000#32),
    unary main_cst_2 main_v12 (broadcastInDim S8x128x2048 ![] bcast_S_S8x128x2048 : (⟨S_, .f32⟩ : BufTy).Contents (Elt F) → (⟨S8x128x2048, .f32⟩ : BufTy).Contents (Elt F)),
    binary main_v11 main_v12 main_v13 (Host.divf : (⟨S8x128x2048, .f32⟩ : BufTy).Contents (Elt F) → (⟨S8x128x2048, .f32⟩ : BufTy).Contents (Elt F) → (⟨S8x128x2048, .f32⟩ : BufTy).Contents (Elt F)),
    unary main_v8 main_v14 ((extractStridedSlice S8x768x2048 ![0, 0, 0] · slices_S8x1024x2048_S8x768x2048_0_0_0) : (⟨S8x1024x2048, .f32⟩ : BufTy).Contents (Elt F) → (⟨S8x768x2048, .f32⟩ : BufTy).Contents (Elt F)) ]

/-- Operations 19 … 19 of the list. -/
abbrev seg7 : List (HloOp τ sig (Elt F)) :=
  [ binary main_v14 main_v13 main_v15 ((fun a b => concatenate S8x896x2048 1 [⟨S8x768x2048, a⟩, ⟨S8x128x2048, b⟩] concatenates_S8x768x2048_S8x128x2048_S8x896x2048_d1) : (⟨S8x768x2048, .f32⟩ : BufTy).Contents (Elt F) → (⟨S8x128x2048, .f32⟩ : BufTy).Contents (Elt F) → (⟨S8x896x2048, .f32⟩ : BufTy).Contents (Elt F)) ]

/-- Operations 20 … 20 of the list. -/
abbrev seg8 : List (HloOp τ sig (Elt F)) :=
  [ unary main_v9 main_v16 ((extractStridedSlice S8x128x2048 ![0, 128, 0] · slices_S8x256x2048_S8x128x2048_0_128_0) : (⟨S8x256x2048, .f32⟩ : BufTy).Contents (Elt F) → (⟨S8x128x2048, .f32⟩ : BufTy).Contents (Elt F)) ]

/-- Operations 21 … 22 of the list. -/
abbrev seg9 : List (HloOp τ sig (Elt F)) :=
  [ binary main_v16 main_v13 main_v17 ((fun a b => concatenate S8x256x2048 1 [⟨S8x128x2048, a⟩, ⟨S8x128x2048, b⟩] concatenates_S8x128x2048_S8x128x2048_S8x256x2048_d1) : (⟨S8x128x2048, .f32⟩ : BufTy).Contents (Elt F) → (⟨S8x128x2048, .f32⟩ : BufTy).Contents (Elt F) → (⟨S8x256x2048, .f32⟩ : BufTy).Contents (Elt F)),
    unary main_v15 main_v18 ((extractStridedSlice S8x128x2048 ![0, 768, 0] · slices_S8x896x2048_S8x128x2048_0_768_0) : (⟨S8x896x2048, .f32⟩ : BufTy).Contents (Elt F) → (⟨S8x128x2048, .f32⟩ : BufTy).Contents (Elt F)) ]

/-- Operations 23 … 29 of the list. -/
abbrev seg10 : List (HloOp τ sig (Elt F)) :=
  [ reshape main_v18 main_v19 rfl shapeCasts_S8x128x2048_S8x64x2x2048,
    nullary main_cst_3 (constant S_ .f32 0x00000000#32),
    binary main_v19 main_cst_3 main_v20 ((fun x v => Host.reduceAdd x v reducesTo_S8x64x2x2048_S8x64x2048_d2 h_S_) : (⟨S8x64x2x2048, .f32⟩ : BufTy).Contents (Elt F) → (⟨S_, .f32⟩ : BufTy).Contents (Elt F) → (⟨S8x64x2048, .f32⟩ : BufTy).Contents (Elt F)),
    nullary main_cst_4 (constant S_ .f32 0x40000000#32),
    unary main_cst_4 main_v21 (broadcastInDim S8x64x2048 ![] bcast_S_S8x64x2048 : (⟨S_, .f32⟩ : BufTy).Contents (Elt F) → (⟨S8x64x2048, .f32⟩ : BufTy).Contents (Elt F)),
    binary main_v20 main_v21 main_v22 (Host.divf : (⟨S8x64x2048, .f32⟩ : BufTy).Contents (Elt F) → (⟨S8x64x2048, .f32⟩ : BufTy).Contents (Elt F) → (⟨S8x64x2048, .f32⟩ : BufTy).Contents (Elt F)),
    unary main_v15 main_v23 ((extractStridedSlice S8x768x2048 ![0, 0, 0] · slices_S8x896x2048_S8x768x2048_0_0_0) : (⟨S8x896x2048, .f32⟩ : BufTy).Contents (Elt F) → (⟨S8x768x2048, .f32⟩ : BufTy).Contents (Elt F)) ]

/-- Operations 30 … 30 of the list. -/
abbrev seg11 : List (HloOp τ sig (Elt F)) :=
  [ binary main_v23 main_v22 main_v24 ((fun a b => concatenate S8x832x2048 1 [⟨S8x768x2048, a⟩, ⟨S8x64x2048, b⟩] concatenates_S8x768x2048_S8x64x2048_S8x832x2048_d1) : (⟨S8x768x2048, .f32⟩ : BufTy).Contents (Elt F) → (⟨S8x64x2048, .f32⟩ : BufTy).Contents (Elt F) → (⟨S8x832x2048, .f32⟩ : BufTy).Contents (Elt F)) ]

/-- Operations 31 … 31 of the list. -/
abbrev seg12 : List (HloOp τ sig (Elt F)) :=
  [ unary main_v18 main_v25 ((extractStridedSlice S8x64x2048 ![0, 64, 0] · slices_S8x128x2048_S8x64x2048_0_64_0) : (⟨S8x128x2048, .f32⟩ : BufTy).Contents (Elt F) → (⟨S8x64x2048, .f32⟩ : BufTy).Contents (Elt F)) ]

/-- Operations 32 … 33 of the list. -/
abbrev seg13 : List (HloOp τ sig (Elt F)) :=
  [ binary main_v25 main_v22 main_v26 ((fun a b => concatenate S8x128x2048 1 [⟨S8x64x2048, a⟩, ⟨S8x64x2048, b⟩] concatenates_S8x64x2048_S8x64x2048_S8x128x2048_d1) : (⟨S8x64x2048, .f32⟩ : BufTy).Contents (Elt F) → (⟨S8x64x2048, .f32⟩ : BufTy).Contents (Elt F) → (⟨S8x128x2048, .f32⟩ : BufTy).Contents (Elt F)),
    unary main_v24 main_v27 ((extractStridedSlice S8x64x2048 ![0, 768, 0] · slices_S8x832x2048_S8x64x2048_0_768_0) : (⟨S8x832x2048, .f32⟩ : BufTy).Contents (Elt F) → (⟨S8x64x2048, .f32⟩ : BufTy).Contents (Elt F)) ]

/-- Operations 34 … 40 of the list. -/
abbrev seg14 : List (HloOp τ sig (Elt F)) :=
  [ reshape main_v27 main_v28 rfl shapeCasts_S8x64x2048_S8x32x2x2048,
    nullary main_cst_5 (constant S_ .f32 0x00000000#32),
    binary main_v28 main_cst_5 main_v29 ((fun x v => Host.reduceAdd x v reducesTo_S8x32x2x2048_S8x32x2048_d2 h_S_) : (⟨S8x32x2x2048, .f32⟩ : BufTy).Contents (Elt F) → (⟨S_, .f32⟩ : BufTy).Contents (Elt F) → (⟨S8x32x2048, .f32⟩ : BufTy).Contents (Elt F)),
    nullary main_cst_6 (constant S_ .f32 0x40000000#32),
    unary main_cst_6 main_v30 (broadcastInDim S8x32x2048 ![] bcast_S_S8x32x2048 : (⟨S_, .f32⟩ : BufTy).Contents (Elt F) → (⟨S8x32x2048, .f32⟩ : BufTy).Contents (Elt F)),
    binary main_v29 main_v30 main_v31 (Host.divf : (⟨S8x32x2048, .f32⟩ : BufTy).Contents (Elt F) → (⟨S8x32x2048, .f32⟩ : BufTy).Contents (Elt F) → (⟨S8x32x2048, .f32⟩ : BufTy).Contents (Elt F)),
    unary main_v24 main_v32 ((extractStridedSlice S8x768x2048 ![0, 0, 0] · slices_S8x832x2048_S8x768x2048_0_0_0) : (⟨S8x832x2048, .f32⟩ : BufTy).Contents (Elt F) → (⟨S8x768x2048, .f32⟩ : BufTy).Contents (Elt F)) ]

/-- Operations 41 … 41 of the list. -/
abbrev seg15 : List (HloOp τ sig (Elt F)) :=
  [ binary main_v32 main_v31 main_v33 ((fun a b => concatenate S8x800x2048 1 [⟨S8x768x2048, a⟩, ⟨S8x32x2048, b⟩] concatenates_S8x768x2048_S8x32x2048_S8x800x2048_d1) : (⟨S8x768x2048, .f32⟩ : BufTy).Contents (Elt F) → (⟨S8x32x2048, .f32⟩ : BufTy).Contents (Elt F) → (⟨S8x800x2048, .f32⟩ : BufTy).Contents (Elt F)) ]

/-- Operations 42 … 42 of the list. -/
abbrev seg16 : List (HloOp τ sig (Elt F)) :=
  [ unary main_v27 main_v34 ((extractStridedSlice S8x32x2048 ![0, 32, 0] · slices_S8x64x2048_S8x32x2048_0_32_0) : (⟨S8x64x2048, .f32⟩ : BufTy).Contents (Elt F) → (⟨S8x32x2048, .f32⟩ : BufTy).Contents (Elt F)) ]

/-- Operations 43 … 44 of the list. -/
abbrev seg17 : List (HloOp τ sig (Elt F)) :=
  [ binary main_v34 main_v31 main_v35 ((fun a b => concatenate S8x64x2048 1 [⟨S8x32x2048, a⟩, ⟨S8x32x2048, b⟩] concatenates_S8x32x2048_S8x32x2048_S8x64x2048_d1) : (⟨S8x32x2048, .f32⟩ : BufTy).Contents (Elt F) → (⟨S8x32x2048, .f32⟩ : BufTy).Contents (Elt F) → (⟨S8x64x2048, .f32⟩ : BufTy).Contents (Elt F)),
    unary main_v33 main_v36 ((extractStridedSlice S8x32x2048 ![0, 768, 0] · slices_S8x800x2048_S8x32x2048_0_768_0) : (⟨S8x800x2048, .f32⟩ : BufTy).Contents (Elt F) → (⟨S8x32x2048, .f32⟩ : BufTy).Contents (Elt F)) ]

/-- Operations 45 … 51 of the list. -/
abbrev seg18 : List (HloOp τ sig (Elt F)) :=
  [ reshape main_v36 main_v37 rfl shapeCasts_S8x32x2048_S8x16x2x2048,
    nullary main_cst_7 (constant S_ .f32 0x00000000#32),
    binary main_v37 main_cst_7 main_v38 ((fun x v => Host.reduceAdd x v reducesTo_S8x16x2x2048_S8x16x2048_d2 h_S_) : (⟨S8x16x2x2048, .f32⟩ : BufTy).Contents (Elt F) → (⟨S_, .f32⟩ : BufTy).Contents (Elt F) → (⟨S8x16x2048, .f32⟩ : BufTy).Contents (Elt F)),
    nullary main_cst_8 (constant S_ .f32 0x40000000#32),
    unary main_cst_8 main_v39 (broadcastInDim S8x16x2048 ![] bcast_S_S8x16x2048 : (⟨S_, .f32⟩ : BufTy).Contents (Elt F) → (⟨S8x16x2048, .f32⟩ : BufTy).Contents (Elt F)),
    binary main_v38 main_v39 main_v40 (Host.divf : (⟨S8x16x2048, .f32⟩ : BufTy).Contents (Elt F) → (⟨S8x16x2048, .f32⟩ : BufTy).Contents (Elt F) → (⟨S8x16x2048, .f32⟩ : BufTy).Contents (Elt F)),
    unary main_v33 main_v41 ((extractStridedSlice S8x768x2048 ![0, 0, 0] · slices_S8x800x2048_S8x768x2048_0_0_0) : (⟨S8x800x2048, .f32⟩ : BufTy).Contents (Elt F) → (⟨S8x768x2048, .f32⟩ : BufTy).Contents (Elt F)) ]

/-- Operations 52 … 52 of the list. -/
abbrev seg19 : List (HloOp τ sig (Elt F)) :=
  [ binary main_v41 main_v40 main_v42 ((fun a b => concatenate S8x784x2048 1 [⟨S8x768x2048, a⟩, ⟨S8x16x2048, b⟩] concatenates_S8x768x2048_S8x16x2048_S8x784x2048_d1) : (⟨S8x768x2048, .f32⟩ : BufTy).Contents (Elt F) → (⟨S8x16x2048, .f32⟩ : BufTy).Contents (Elt F) → (⟨S8x784x2048, .f32⟩ : BufTy).Contents (Elt F)) ]

/-- Operations 53 … 53 of the list. -/
abbrev seg20 : List (HloOp τ sig (Elt F)) :=
  [ unary main_v36 main_v43 ((extractStridedSlice S8x16x2048 ![0, 16, 0] · slices_S8x32x2048_S8x16x2048_0_16_0) : (⟨S8x32x2048, .f32⟩ : BufTy).Contents (Elt F) → (⟨S8x16x2048, .f32⟩ : BufTy).Contents (Elt F)) ]

/-- Operations 54 … 55 of the list. -/
abbrev seg21 : List (HloOp τ sig (Elt F)) :=
  [ binary main_v43 main_v40 main_v44 ((fun a b => concatenate S8x32x2048 1 [⟨S8x16x2048, a⟩, ⟨S8x16x2048, b⟩] concatenates_S8x16x2048_S8x16x2048_S8x32x2048_d1) : (⟨S8x16x2048, .f32⟩ : BufTy).Contents (Elt F) → (⟨S8x16x2048, .f32⟩ : BufTy).Contents (Elt F) → (⟨S8x32x2048, .f32⟩ : BufTy).Contents (Elt F)),
    unary main_v42 main_v45 ((extractStridedSlice S8x16x2048 ![0, 768, 0] · slices_S8x784x2048_S8x16x2048_0_768_0) : (⟨S8x784x2048, .f32⟩ : BufTy).Contents (Elt F) → (⟨S8x16x2048, .f32⟩ : BufTy).Contents (Elt F)) ]

/-- Operations 56 … 62 of the list. -/
abbrev seg22 : List (HloOp τ sig (Elt F)) :=
  [ reshape main_v45 main_v46 rfl shapeCasts_S8x16x2048_S8x8x2x2048,
    nullary main_cst_9 (constant S_ .f32 0x00000000#32),
    binary main_v46 main_cst_9 main_v47 ((fun x v => Host.reduceAdd x v reducesTo_S8x8x2x2048_S8x8x2048_d2 h_S_) : (⟨S8x8x2x2048, .f32⟩ : BufTy).Contents (Elt F) → (⟨S_, .f32⟩ : BufTy).Contents (Elt F) → (⟨S8x8x2048, .f32⟩ : BufTy).Contents (Elt F)),
    nullary main_cst_10 (constant S_ .f32 0x40000000#32),
    unary main_cst_10 main_v48 (broadcastInDim S8x8x2048 ![] bcast_S_S8x8x2048 : (⟨S_, .f32⟩ : BufTy).Contents (Elt F) → (⟨S8x8x2048, .f32⟩ : BufTy).Contents (Elt F)),
    binary main_v47 main_v48 main_v49 (Host.divf : (⟨S8x8x2048, .f32⟩ : BufTy).Contents (Elt F) → (⟨S8x8x2048, .f32⟩ : BufTy).Contents (Elt F) → (⟨S8x8x2048, .f32⟩ : BufTy).Contents (Elt F)),
    unary main_v42 main_v50 ((extractStridedSlice S8x768x2048 ![0, 0, 0] · slices_S8x784x2048_S8x768x2048_0_0_0) : (⟨S8x784x2048, .f32⟩ : BufTy).Contents (Elt F) → (⟨S8x768x2048, .f32⟩ : BufTy).Contents (Elt F)) ]

/-- Operations 63 … 63 of the list. -/
abbrev seg23 : List (HloOp τ sig (Elt F)) :=
  [ binary main_v50 main_v49 main_v51 ((fun a b => concatenate S8x776x2048 1 [⟨S8x768x2048, a⟩, ⟨S8x8x2048, b⟩] concatenates_S8x768x2048_S8x8x2048_S8x776x2048_d1) : (⟨S8x768x2048, .f32⟩ : BufTy).Contents (Elt F) → (⟨S8x8x2048, .f32⟩ : BufTy).Contents (Elt F) → (⟨S8x776x2048, .f32⟩ : BufTy).Contents (Elt F)) ]

/-- Operations 64 … 64 of the list. -/
abbrev seg24 : List (HloOp τ sig (Elt F)) :=
  [ unary main_v45 main_v52 ((extractStridedSlice S8x8x2048 ![0, 8, 0] · slices_S8x16x2048_S8x8x2048_0_8_0) : (⟨S8x16x2048, .f32⟩ : BufTy).Contents (Elt F) → (⟨S8x8x2048, .f32⟩ : BufTy).Contents (Elt F)) ]

/-- Operations 65 … 66 of the list. -/
abbrev seg25 : List (HloOp τ sig (Elt F)) :=
  [ binary main_v52 main_v49 main_v53 ((fun a b => concatenate S8x16x2048 1 [⟨S8x8x2048, a⟩, ⟨S8x8x2048, b⟩] concatenates_S8x8x2048_S8x8x2048_S8x16x2048_d1) : (⟨S8x8x2048, .f32⟩ : BufTy).Contents (Elt F) → (⟨S8x8x2048, .f32⟩ : BufTy).Contents (Elt F) → (⟨S8x16x2048, .f32⟩ : BufTy).Contents (Elt F)),
    unary main_v51 main_v54 ((extractStridedSlice S8x8x2048 ![0, 768, 0] · slices_S8x776x2048_S8x8x2048_0_768_0) : (⟨S8x776x2048, .f32⟩ : BufTy).Contents (Elt F) → (⟨S8x8x2048, .f32⟩ : BufTy).Contents (Elt F)) ]

/-- Operations 67 … 73 of the list. -/
abbrev seg26 : List (HloOp τ sig (Elt F)) :=
  [ reshape main_v54 main_v55 rfl shapeCasts_S8x8x2048_S8x4x2x2048,
    nullary main_cst_11 (constant S_ .f32 0x00000000#32),
    binary main_v55 main_cst_11 main_v56 ((fun x v => Host.reduceAdd x v reducesTo_S8x4x2x2048_S8x4x2048_d2 h_S_) : (⟨S8x4x2x2048, .f32⟩ : BufTy).Contents (Elt F) → (⟨S_, .f32⟩ : BufTy).Contents (Elt F) → (⟨S8x4x2048, .f32⟩ : BufTy).Contents (Elt F)),
    nullary main_cst_12 (constant S_ .f32 0x40000000#32),
    unary main_cst_12 main_v57 (broadcastInDim S8x4x2048 ![] bcast_S_S8x4x2048 : (⟨S_, .f32⟩ : BufTy).Contents (Elt F) → (⟨S8x4x2048, .f32⟩ : BufTy).Contents (Elt F)),
    binary main_v56 main_v57 main_v58 (Host.divf : (⟨S8x4x2048, .f32⟩ : BufTy).Contents (Elt F) → (⟨S8x4x2048, .f32⟩ : BufTy).Contents (Elt F) → (⟨S8x4x2048, .f32⟩ : BufTy).Contents (Elt F)),
    unary main_v51 main_v59 ((extractStridedSlice S8x768x2048 ![0, 0, 0] · slices_S8x776x2048_S8x768x2048_0_0_0) : (⟨S8x776x2048, .f32⟩ : BufTy).Contents (Elt F) → (⟨S8x768x2048, .f32⟩ : BufTy).Contents (Elt F)) ]

/-- Operations 74 … 74 of the list. -/
abbrev seg27 : List (HloOp τ sig (Elt F)) :=
  [ binary main_v59 main_v58 main_v60 ((fun a b => concatenate S8x772x2048 1 [⟨S8x768x2048, a⟩, ⟨S8x4x2048, b⟩] concatenates_S8x768x2048_S8x4x2048_S8x772x2048_d1) : (⟨S8x768x2048, .f32⟩ : BufTy).Contents (Elt F) → (⟨S8x4x2048, .f32⟩ : BufTy).Contents (Elt F) → (⟨S8x772x2048, .f32⟩ : BufTy).Contents (Elt F)) ]

/-- Operations 75 … 75 of the list. -/
abbrev seg28 : List (HloOp τ sig (Elt F)) :=
  [ unary main_v54 main_v61 ((extractStridedSlice S8x4x2048 ![0, 4, 0] · slices_S8x8x2048_S8x4x2048_0_4_0) : (⟨S8x8x2048, .f32⟩ : BufTy).Contents (Elt F) → (⟨S8x4x2048, .f32⟩ : BufTy).Contents (Elt F)) ]

/-- Operations 76 … 77 of the list. -/
abbrev seg29 : List (HloOp τ sig (Elt F)) :=
  [ binary main_v61 main_v58 main_v62 ((fun a b => concatenate S8x8x2048 1 [⟨S8x4x2048, a⟩, ⟨S8x4x2048, b⟩] concatenates_S8x4x2048_S8x4x2048_S8x8x2048_d1) : (⟨S8x4x2048, .f32⟩ : BufTy).Contents (Elt F) → (⟨S8x4x2048, .f32⟩ : BufTy).Contents (Elt F) → (⟨S8x8x2048, .f32⟩ : BufTy).Contents (Elt F)),
    unary main_v60 main_v63 ((extractStridedSlice S8x4x2048 ![0, 768, 0] · slices_S8x772x2048_S8x4x2048_0_768_0) : (⟨S8x772x2048, .f32⟩ : BufTy).Contents (Elt F) → (⟨S8x4x2048, .f32⟩ : BufTy).Contents (Elt F)) ]

/-- Operations 78 … 84 of the list. -/
abbrev seg30 : List (HloOp τ sig (Elt F)) :=
  [ reshape main_v63 main_v64 rfl shapeCasts_S8x4x2048_S8x2x2x2048,
    nullary main_cst_13 (constant S_ .f32 0x00000000#32),
    binary main_v64 main_cst_13 main_v65 ((fun x v => Host.reduceAdd x v reducesTo_S8x2x2x2048_S8x2x2048_d2 h_S_) : (⟨S8x2x2x2048, .f32⟩ : BufTy).Contents (Elt F) → (⟨S_, .f32⟩ : BufTy).Contents (Elt F) → (⟨S8x2x2048, .f32⟩ : BufTy).Contents (Elt F)),
    nullary main_cst_14 (constant S_ .f32 0x40000000#32),
    unary main_cst_14 main_v66 (broadcastInDim S8x2x2048 ![] bcast_S_S8x2x2048 : (⟨S_, .f32⟩ : BufTy).Contents (Elt F) → (⟨S8x2x2048, .f32⟩ : BufTy).Contents (Elt F)),
    binary main_v65 main_v66 main_v67 (Host.divf : (⟨S8x2x2048, .f32⟩ : BufTy).Contents (Elt F) → (⟨S8x2x2048, .f32⟩ : BufTy).Contents (Elt F) → (⟨S8x2x2048, .f32⟩ : BufTy).Contents (Elt F)),
    unary main_v60 main_v68 ((extractStridedSlice S8x768x2048 ![0, 0, 0] · slices_S8x772x2048_S8x768x2048_0_0_0) : (⟨S8x772x2048, .f32⟩ : BufTy).Contents (Elt F) → (⟨S8x768x2048, .f32⟩ : BufTy).Contents (Elt F)) ]

/-- Operations 85 … 85 of the list. -/
abbrev seg31 : List (HloOp τ sig (Elt F)) :=
  [ binary main_v68 main_v67 main_v69 ((fun a b => concatenate S8x770x2048 1 [⟨S8x768x2048, a⟩, ⟨S8x2x2048, b⟩] concatenates_S8x768x2048_S8x2x2048_S8x770x2048_d1) : (⟨S8x768x2048, .f32⟩ : BufTy).Contents (Elt F) → (⟨S8x2x2048, .f32⟩ : BufTy).Contents (Elt F) → (⟨S8x770x2048, .f32⟩ : BufTy).Contents (Elt F)) ]

/-- Operations 86 … 86 of the list. -/
abbrev seg32 : List (HloOp τ sig (Elt F)) :=
  [ unary main_v63 main_v70 ((extractStridedSlice S8x2x2048 ![0, 2, 0] · slices_S8x4x2048_S8x2x2048_0_2_0) : (⟨S8x4x2048, .f32⟩ : BufTy).Contents (Elt F) → (⟨S8x2x2048, .f32⟩ : BufTy).Contents (Elt F)) ]

/-- Operations 87 … 88 of the list. -/
abbrev seg33 : List (HloOp τ sig (Elt F)) :=
  [ binary main_v70 main_v67 main_v71 ((fun a b => concatenate S8x4x2048 1 [⟨S8x2x2048, a⟩, ⟨S8x2x2048, b⟩] concatenates_S8x2x2048_S8x2x2048_S8x4x2048_d1) : (⟨S8x2x2048, .f32⟩ : BufTy).Contents (Elt F) → (⟨S8x2x2048, .f32⟩ : BufTy).Contents (Elt F) → (⟨S8x4x2048, .f32⟩ : BufTy).Contents (Elt F)),
    unary main_v69 main_v72 ((extractStridedSlice S8x2x2048 ![0, 768, 0] · slices_S8x770x2048_S8x2x2048_0_768_0) : (⟨S8x770x2048, .f32⟩ : BufTy).Contents (Elt F) → (⟨S8x2x2048, .f32⟩ : BufTy).Contents (Elt F)) ]

/-- Operations 89 … 95 of the list. -/
abbrev seg34 : List (HloOp τ sig (Elt F)) :=
  [ reshape main_v72 main_v73 rfl shapeCasts_S8x2x2048_S8x1x2x2048,
    nullary main_cst_15 (constant S_ .f32 0x00000000#32),
    binary main_v73 main_cst_15 main_v74 ((fun x v => Host.reduceAdd x v reducesTo_S8x1x2x2048_S8x1x2048_d2 h_S_) : (⟨S8x1x2x2048, .f32⟩ : BufTy).Contents (Elt F) → (⟨S_, .f32⟩ : BufTy).Contents (Elt F) → (⟨S8x1x2048, .f32⟩ : BufTy).Contents (Elt F)),
    nullary main_cst_16 (constant S_ .f32 0x40000000#32),
    unary main_cst_16 main_v75 (broadcastInDim S8x1x2048 ![] bcast_S_S8x1x2048 : (⟨S_, .f32⟩ : BufTy).Contents (Elt F) → (⟨S8x1x2048, .f32⟩ : BufTy).Contents (Elt F)),
    binary main_v74 main_v75 main_v76 (Host.divf : (⟨S8x1x2048, .f32⟩ : BufTy).Contents (Elt F) → (⟨S8x1x2048, .f32⟩ : BufTy).Contents (Elt F) → (⟨S8x1x2048, .f32⟩ : BufTy).Contents (Elt F)),
    unary main_v69 main_v77 ((extractStridedSlice S8x768x2048 ![0, 0, 0] · slices_S8x770x2048_S8x768x2048_0_0_0) : (⟨S8x770x2048, .f32⟩ : BufTy).Contents (Elt F) → (⟨S8x768x2048, .f32⟩ : BufTy).Contents (Elt F)) ]

/-- Operations 96 … 97 of the list. -/
abbrev seg35 : List (HloOp τ sig (Elt F)) :=
  [ binary main_v77 main_v76 main_v78 ((fun a b => concatenate S8x769x2048 1 [⟨S8x768x2048, a⟩, ⟨S8x1x2048, b⟩] concatenates_S8x768x2048_S8x1x2048_S8x769x2048_d1) : (⟨S8x768x2048, .f32⟩ : BufTy).Contents (Elt F) → (⟨S8x1x2048, .f32⟩ : BufTy).Contents (Elt F) → (⟨S8x769x2048, .f32⟩ : BufTy).Contents (Elt F)),
    unary main_v72 main_v79 ((extractStridedSlice S8x1x2048 ![0, 1, 0] · slices_S8x2x2048_S8x1x2048_0_1_0) : (⟨S8x2x2048, .f32⟩ : BufTy).Contents (Elt F) → (⟨S8x1x2048, .f32⟩ : BufTy).Contents (Elt F)) ]

/-- Operations 98 … 98 of the list. -/
abbrev seg36 : List (HloOp τ sig (Elt F)) :=
  [ binary main_v79 main_v76 main_v80 ((fun a b => concatenate S8x2x2048 1 [⟨S8x1x2048, a⟩, ⟨S8x1x2048, b⟩] concatenates_S8x1x2048_S8x1x2048_S8x2x2048_d1) : (⟨S8x1x2048, .f32⟩ : BufTy).Contents (Elt F) → (⟨S8x1x2048, .f32⟩ : BufTy).Contents (Elt F) → (⟨S8x2x2048, .f32⟩ : BufTy).Contents (Elt F)) ]

/-- Operations 99 … 99 of the list. -/
abbrev seg37 : List (HloOp τ sig (Elt F)) :=
  [ nary ![main_v80, main_v71, main_v62, main_v53, main_v44, main_v35, main_v26, main_v17, main_v1] main_v81 (fun u => concatenate S8x2558x2048 1 [⟨S8x2x2048, u 0⟩, ⟨S8x4x2048, u 1⟩, ⟨S8x8x2048, u 2⟩, ⟨S8x16x2048, u 3⟩, ⟨S8x32x2048, u 4⟩, ⟨S8x64x2048, u 5⟩, ⟨S8x128x2048, u 6⟩, ⟨S8x256x2048, u 7⟩, ⟨S8x2048x2048, u 8⟩] concatenates_S8x2x2048_S8x4x2048_S8x8x2048_S8x16x2048_S8x32x2048_S8x64x2048_S8x128x2048_S8x256x2048_S8x2048x2048_S8x2558x2048_d1) ]

set_option maxRecDepth 8192 in
/-- The list is its pieces in order. -/
theorem ops_eq : (ops : List (HloOp τ sig (Elt F))) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20 ++ (seg21 ++ (seg22 ++ (seg23 ++ (seg24 ++ (seg25 ++ (seg26 ++ (seg27 ++ (seg28 ++ (seg29 ++ (seg30 ++ (seg31 ++ (seg32 ++ (seg33 ++ (seg34 ++ (seg35 ++ (seg36 ++ (seg37))))))))))))))))))))))))))))))))))))) := rfl

variable (V0 : Valuation τ sig (Elt F))

set_option maxRecDepth 8192 in
set_option maxHeartbeats 4000000 in
/-- Two earlier buffers, one after the other. -/
theorem held_v0 : W V0 (Proc.devRef .tc main_v0) =
    concatenate S8x3582x2048 1 [⟨S8x2558x2048, (V0 (Proc.devRef .tc main_arg1))⟩, ⟨S8x1024x2048, (V0 (Proc.devRef .tc main_arg0))⟩] concatenates_S8x2558x2048_S8x1024x2048_S8x3582x2048_d1 := by
  unfold W
  rw [ops_eq]
  repeat rw [after_append]
  after_results_simp <;> rfl

set_option maxRecDepth 8192 in
set_option maxHeartbeats 4000000 in
/-- A slice of an earlier buffer. -/
theorem held_v1 : W V0 (Proc.devRef .tc main_v1) =
    extractStridedSlice S8x2048x2048 ![0, 512, 0] (W V0 (Proc.devRef .tc main_v0)) slices_S8x3582x2048_S8x2048x2048_0_512_0 := by
  unfold W
  rw [ops_eq]
  repeat rw [after_append]
  generalize after seg0 V0 = V1
  after_results_simp <;> rfl

set_option maxRecDepth 8192 in
set_option maxHeartbeats 4000000 in
/-- A slice of an earlier buffer. -/
theorem held_v2 : W V0 (Proc.devRef .tc main_v2) =
    extractStridedSlice S8x512x2048 ![0, 0, 0] (W V0 (Proc.devRef .tc main_v0)) slices_S8x3582x2048_S8x512x2048_0_0_0 := by
  unfold W
  rw [ops_eq]
  repeat rw [after_append]
  generalize after seg0 V0 = V1
  after_results_simp <;> rfl

set_option maxRecDepth 8192 in
set_option maxHeartbeats 4000000 in
/-- A slice of an earlier buffer. -/
theorem held_v3 : W V0 (Proc.devRef .tc main_v3) =
    extractStridedSlice S8x1024x2048 ![0, 0, 0] (W V0 (Proc.devRef .tc main_v1)) slices_S8x2048x2048_S8x1024x2048_0_0_0 := by
  unfold W
  rw [ops_eq]
  repeat rw [after_append]
  generalize after seg1 (after seg0 V0) = V1
  after_results_simp <;> rfl

set_option maxRecDepth 8192 in
set_option maxHeartbeats 4000000 in
/-- The means of adjacent row pairs of an earlier buffer. -/
theorem held_v7 : W V0 (Proc.devRef .tc main_v7) =
    Host.divf (Host.reduceAdd (shapeCast _ (W V0 (Proc.devRef .tc main_v3)) shapeCasts_S8x1024x2048_S8x512x2x2048) (constant S_ .f32 0x00000000#32) reducesTo_S8x512x2x2048_S8x512x2048_d2 h_S_) (broadcastInDim S8x512x2048 ![] bcast_S_S8x512x2048 (constant S_ .f32 0x40000000#32)) := by
  unfold W
  rw [ops_eq]
  repeat rw [after_append]
  generalize after seg2 (after seg1 (after seg0 V0)) = V1
  after_results_simp <;> rfl

set_option maxRecDepth 8192 in
set_option maxHeartbeats 4000000 in
/-- Two earlier buffers, one after the other. -/
theorem held_v8 : W V0 (Proc.devRef .tc main_v8) =
    concatenate S8x1024x2048 1 [⟨S8x512x2048, (W V0 (Proc.devRef .tc main_v2))⟩, ⟨S8x512x2048, (W V0 (Proc.devRef .tc main_v7))⟩] concatenates_S8x512x2048_S8x512x2048_S8x1024x2048_d1 := by
  unfold W
  rw [ops_eq]
  repeat rw [after_append]
  generalize after seg3 (after seg2 (after seg1 (after seg0 V0))) = V1
  have h0 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 V1))))))))))))))))))))))))))))))))) (Proc.devRef .tc main_v2) = V1 (Proc.devRef .tc main_v2) := by after_results_simp
  have h1 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 V1))))))))))))))))))))))))))))))))) (Proc.devRef .tc main_v7) = V1 (Proc.devRef .tc main_v7) := by after_results_simp
  rw [h0, h1]
  after_results_simp <;> rfl

set_option maxRecDepth 8192 in
set_option maxHeartbeats 4000000 in
/-- A slice of an earlier buffer. -/
theorem held_v9 : W V0 (Proc.devRef .tc main_v9) =
    extractStridedSlice S8x256x2048 ![0, 768, 0] (W V0 (Proc.devRef .tc main_v8)) slices_S8x1024x2048_S8x256x2048_0_768_0 := by
  unfold W
  rw [ops_eq]
  repeat rw [after_append]
  generalize after seg4 (after seg3 (after seg2 (after seg1 (after seg0 V0)))) = V1
  after_results_simp <;> rfl

set_option maxRecDepth 8192 in
set_option maxHeartbeats 4000000 in
/-- The means of adjacent row pairs of an earlier buffer. -/
theorem held_v13 : W V0 (Proc.devRef .tc main_v13) =
    Host.divf (Host.reduceAdd (shapeCast _ (W V0 (Proc.devRef .tc main_v9)) shapeCasts_S8x256x2048_S8x128x2x2048) (constant S_ .f32 0x00000000#32) reducesTo_S8x128x2x2048_S8x128x2048_d2 h_S_) (broadcastInDim S8x128x2048 ![] bcast_S_S8x128x2048 (constant S_ .f32 0x40000000#32)) := by
  unfold W
  rw [ops_eq]
  repeat rw [after_append]
  generalize after seg5 (after seg4 (after seg3 (after seg2 (after seg1 (after seg0 V0))))) = V1
  after_results_simp <;> rfl

set_option maxRecDepth 8192 in
set_option maxHeartbeats 4000000 in
/-- A slice of an earlier buffer. -/
theorem held_v14 : W V0 (Proc.devRef .tc main_v14) =
    extractStridedSlice S8x768x2048 ![0, 0, 0] (W V0 (Proc.devRef .tc main_v8)) slices_S8x1024x2048_S8x768x2048_0_0_0 := by
  unfold W
  rw [ops_eq]
  repeat rw [after_append]
  generalize after seg4 (after seg3 (after seg2 (after seg1 (after seg0 V0)))) = V1
  after_results_simp <;> rfl

set_option maxRecDepth 8192 in
set_option maxHeartbeats 4000000 in
/-- Two earlier buffers, one after the other. -/
theorem held_v15 : W V0 (Proc.devRef .tc main_v15) =
    concatenate S8x896x2048 1 [⟨S8x768x2048, (W V0 (Proc.devRef .tc main_v14))⟩, ⟨S8x128x2048, (W V0 (Proc.devRef .tc main_v13))⟩] concatenates_S8x768x2048_S8x128x2048_S8x896x2048_d1 := by
  unfold W
  rw [ops_eq]
  repeat rw [after_append]
  generalize after seg6 (after seg5 (after seg4 (after seg3 (after seg2 (after seg1 (after seg0 V0)))))) = V1
  have h0 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 V1)))))))))))))))))))))))))))))) (Proc.devRef .tc main_v14) = V1 (Proc.devRef .tc main_v14) := by after_results_simp
  have h1 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 V1)))))))))))))))))))))))))))))) (Proc.devRef .tc main_v13) = V1 (Proc.devRef .tc main_v13) := by after_results_simp
  rw [h0, h1]
  after_results_simp <;> rfl

set_option maxRecDepth 8192 in
set_option maxHeartbeats 4000000 in
/-- A slice of an earlier buffer. -/
theorem held_v16 : W V0 (Proc.devRef .tc main_v16) =
    extractStridedSlice S8x128x2048 ![0, 128, 0] (W V0 (Proc.devRef .tc main_v9)) slices_S8x256x2048_S8x128x2048_0_128_0 := by
  unfold W
  rw [ops_eq]
  repeat rw [after_append]
  generalize after seg5 (after seg4 (after seg3 (after seg2 (after seg1 (after seg0 V0))))) = V1
  after_results_simp <;> rfl

set_option maxRecDepth 8192 in
set_option maxHeartbeats 4000000 in
/-- Two earlier buffers, one after the other. -/
theorem held_v17 : W V0 (Proc.devRef .tc main_v17) =
    concatenate S8x256x2048 1 [⟨S8x128x2048, (W V0 (Proc.devRef .tc main_v16))⟩, ⟨S8x128x2048, (W V0 (Proc.devRef .tc main_v13))⟩] concatenates_S8x128x2048_S8x128x2048_S8x256x2048_d1 := by
  unfold W
  rw [ops_eq]
  repeat rw [after_append]
  generalize after seg8 (after seg7 (after seg6 (after seg5 (after seg4 (after seg3 (after seg2 (after seg1 (after seg0 V0)))))))) = V1
  have h0 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 V1)))))))))))))))))))))))))))) (Proc.devRef .tc main_v16) = V1 (Proc.devRef .tc main_v16) := by after_results_simp
  have h1 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 V1)))))))))))))))))))))))))))) (Proc.devRef .tc main_v13) = V1 (Proc.devRef .tc main_v13) := by after_results_simp
  rw [h0, h1]
  after_results_simp <;> rfl

set_option maxRecDepth 8192 in
set_option maxHeartbeats 4000000 in
/-- A slice of an earlier buffer. -/
theorem held_v18 : W V0 (Proc.devRef .tc main_v18) =
    extractStridedSlice S8x128x2048 ![0, 768, 0] (W V0 (Proc.devRef .tc main_v15)) slices_S8x896x2048_S8x128x2048_0_768_0 := by
  unfold W
  rw [ops_eq]
  repeat rw [after_append]
  generalize after seg7 (after seg6 (after seg5 (after seg4 (after seg3 (after seg2 (after seg1 (after seg0 V0))))))) = V1
  after_results_simp <;> rfl

set_option maxRecDepth 8192 in
set_option maxHeartbeats 4000000 in
/-- The means of adjacent row pairs of an earlier buffer. -/
theorem held_v22 : W V0 (Proc.devRef .tc main_v22) =
    Host.divf (Host.reduceAdd (shapeCast _ (W V0 (Proc.devRef .tc main_v18)) shapeCasts_S8x128x2048_S8x64x2x2048) (constant S_ .f32 0x00000000#32) reducesTo_S8x64x2x2048_S8x64x2048_d2 h_S_) (broadcastInDim S8x64x2048 ![] bcast_S_S8x64x2048 (constant S_ .f32 0x40000000#32)) := by
  unfold W
  rw [ops_eq]
  repeat rw [after_append]
  generalize after seg9 (after seg8 (after seg7 (after seg6 (after seg5 (after seg4 (after seg3 (after seg2 (after seg1 (after seg0 V0))))))))) = V1
  after_results_simp <;> rfl

set_option maxRecDepth 8192 in
set_option maxHeartbeats 4000000 in
/-- A slice of an earlier buffer. -/
theorem held_v23 : W V0 (Proc.devRef .tc main_v23) =
    extractStridedSlice S8x768x2048 ![0, 0, 0] (W V0 (Proc.devRef .tc main_v15)) slices_S8x896x2048_S8x768x2048_0_0_0 := by
  unfold W
  rw [ops_eq]
  repeat rw [after_append]
  generalize after seg7 (after seg6 (after seg5 (after seg4 (after seg3 (after seg2 (after seg1 (after seg0 V0))))))) = V1
  after_results_simp <;> rfl

set_option maxRecDepth 8192 in
set_option maxHeartbeats 4000000 in
/-- Two earlier buffers, one after the other. -/
theorem held_v24 : W V0 (Proc.devRef .tc main_v24) =
    concatenate S8x832x2048 1 [⟨S8x768x2048, (W V0 (Proc.devRef .tc main_v23))⟩, ⟨S8x64x2048, (W V0 (Proc.devRef .tc main_v22))⟩] concatenates_S8x768x2048_S8x64x2048_S8x832x2048_d1 := by
  unfold W
  rw [ops_eq]
  repeat rw [after_append]
  generalize after seg10 (after seg9 (after seg8 (after seg7 (after seg6 (after seg5 (after seg4 (after seg3 (after seg2 (after seg1 (after seg0 V0)))))))))) = V1
  have h0 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 V1)))))))))))))))))))))))))) (Proc.devRef .tc main_v23) = V1 (Proc.devRef .tc main_v23) := by after_results_simp
  have h1 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 V1)))))))))))))))))))))))))) (Proc.devRef .tc main_v22) = V1 (Proc.devRef .tc main_v22) := by after_results_simp
  rw [h0, h1]
  after_results_simp <;> rfl

set_option maxRecDepth 8192 in
set_option maxHeartbeats 4000000 in
/-- A slice of an earlier buffer. -/
theorem held_v25 : W V0 (Proc.devRef .tc main_v25) =
    extractStridedSlice S8x64x2048 ![0, 64, 0] (W V0 (Proc.devRef .tc main_v18)) slices_S8x128x2048_S8x64x2048_0_64_0 := by
  unfold W
  rw [ops_eq]
  repeat rw [after_append]
  generalize after seg9 (after seg8 (after seg7 (after seg6 (after seg5 (after seg4 (after seg3 (after seg2 (after seg1 (after seg0 V0))))))))) = V1
  after_results_simp <;> rfl

set_option maxRecDepth 8192 in
set_option maxHeartbeats 4000000 in
/-- Two earlier buffers, one after the other. -/
theorem held_v26 : W V0 (Proc.devRef .tc main_v26) =
    concatenate S8x128x2048 1 [⟨S8x64x2048, (W V0 (Proc.devRef .tc main_v25))⟩, ⟨S8x64x2048, (W V0 (Proc.devRef .tc main_v22))⟩] concatenates_S8x64x2048_S8x64x2048_S8x128x2048_d1 := by
  unfold W
  rw [ops_eq]
  repeat rw [after_append]
  generalize after seg12 (after seg11 (after seg10 (after seg9 (after seg8 (after seg7 (after seg6 (after seg5 (after seg4 (after seg3 (after seg2 (after seg1 (after seg0 V0)))))))))))) = V1
  have h0 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 V1)))))))))))))))))))))))) (Proc.devRef .tc main_v25) = V1 (Proc.devRef .tc main_v25) := by after_results_simp
  have h1 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 V1)))))))))))))))))))))))) (Proc.devRef .tc main_v22) = V1 (Proc.devRef .tc main_v22) := by after_results_simp
  rw [h0, h1]
  after_results_simp <;> rfl

set_option maxRecDepth 8192 in
set_option maxHeartbeats 4000000 in
/-- A slice of an earlier buffer. -/
theorem held_v27 : W V0 (Proc.devRef .tc main_v27) =
    extractStridedSlice S8x64x2048 ![0, 768, 0] (W V0 (Proc.devRef .tc main_v24)) slices_S8x832x2048_S8x64x2048_0_768_0 := by
  unfold W
  rw [ops_eq]
  repeat rw [after_append]
  generalize after seg11 (after seg10 (after seg9 (after seg8 (after seg7 (after seg6 (after seg5 (after seg4 (after seg3 (after seg2 (after seg1 (after seg0 V0))))))))))) = V1
  after_results_simp <;> rfl

set_option maxRecDepth 8192 in
set_option maxHeartbeats 4000000 in
/-- The means of adjacent row pairs of an earlier buffer. -/
theorem held_v31 : W V0 (Proc.devRef .tc main_v31) =
    Host.divf (Host.reduceAdd (shapeCast _ (W V0 (Proc.devRef .tc main_v27)) shapeCasts_S8x64x2048_S8x32x2x2048) (constant S_ .f32 0x00000000#32) reducesTo_S8x32x2x2048_S8x32x2048_d2 h_S_) (broadcastInDim S8x32x2048 ![] bcast_S_S8x32x2048 (constant S_ .f32 0x40000000#32)) := by
  unfold W
  rw [ops_eq]
  repeat rw [after_append]
  generalize after seg13 (after seg12 (after seg11 (after seg10 (after seg9 (after seg8 (after seg7 (after seg6 (after seg5 (after seg4 (after seg3 (after seg2 (after seg1 (after seg0 V0))))))))))))) = V1
  after_results_simp <;> rfl

set_option maxRecDepth 8192 in
set_option maxHeartbeats 4000000 in
/-- A slice of an earlier buffer. -/
theorem held_v32 : W V0 (Proc.devRef .tc main_v32) =
    extractStridedSlice S8x768x2048 ![0, 0, 0] (W V0 (Proc.devRef .tc main_v24)) slices_S8x832x2048_S8x768x2048_0_0_0 := by
  unfold W
  rw [ops_eq]
  repeat rw [after_append]
  generalize after seg11 (after seg10 (after seg9 (after seg8 (after seg7 (after seg6 (after seg5 (after seg4 (after seg3 (after seg2 (after seg1 (after seg0 V0))))))))))) = V1
  after_results_simp <;> rfl

set_option maxRecDepth 8192 in
set_option maxHeartbeats 4000000 in
/-- Two earlier buffers, one after the other. -/
theorem held_v33 : W V0 (Proc.devRef .tc main_v33) =
    concatenate S8x800x2048 1 [⟨S8x768x2048, (W V0 (Proc.devRef .tc main_v32))⟩, ⟨S8x32x2048, (W V0 (Proc.devRef .tc main_v31))⟩] concatenates_S8x768x2048_S8x32x2048_S8x800x2048_d1 := by
  unfold W
  rw [ops_eq]
  repeat rw [after_append]
  generalize after seg14 (after seg13 (after seg12 (after seg11 (after seg10 (after seg9 (after seg8 (after seg7 (after seg6 (after seg5 (after seg4 (after seg3 (after seg2 (after seg1 (after seg0 V0)))))))))))))) = V1
  have h0 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 V1)))))))))))))))))))))) (Proc.devRef .tc main_v32) = V1 (Proc.devRef .tc main_v32) := by after_results_simp
  have h1 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 V1)))))))))))))))))))))) (Proc.devRef .tc main_v31) = V1 (Proc.devRef .tc main_v31) := by after_results_simp
  rw [h0, h1]
  after_results_simp <;> rfl

set_option maxRecDepth 8192 in
set_option maxHeartbeats 4000000 in
/-- A slice of an earlier buffer. -/
theorem held_v34 : W V0 (Proc.devRef .tc main_v34) =
    extractStridedSlice S8x32x2048 ![0, 32, 0] (W V0 (Proc.devRef .tc main_v27)) slices_S8x64x2048_S8x32x2048_0_32_0 := by
  unfold W
  rw [ops_eq]
  repeat rw [after_append]
  generalize after seg13 (after seg12 (after seg11 (after seg10 (after seg9 (after seg8 (after seg7 (after seg6 (after seg5 (after seg4 (after seg3 (after seg2 (after seg1 (after seg0 V0))))))))))))) = V1
  after_results_simp <;> rfl

set_option maxRecDepth 8192 in
set_option maxHeartbeats 4000000 in
/-- Two earlier buffers, one after the other. -/
theorem held_v35 : W V0 (Proc.devRef .tc main_v35) =
    concatenate S8x64x2048 1 [⟨S8x32x2048, (W V0 (Proc.devRef .tc main_v34))⟩, ⟨S8x32x2048, (W V0 (Proc.devRef .tc main_v31))⟩] concatenates_S8x32x2048_S8x32x2048_S8x64x2048_d1 := by
  unfold W
  rw [ops_eq]
  repeat rw [after_append]
  generalize after seg16 (after seg15 (after seg14 (after seg13 (after seg12 (after seg11 (after seg10 (after seg9 (after seg8 (after seg7 (after seg6 (after seg5 (after seg4 (after seg3 (after seg2 (after seg1 (after seg0 V0)))))))))))))))) = V1
  have h0 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 V1)))))))))))))))))))) (Proc.devRef .tc main_v34) = V1 (Proc.devRef .tc main_v34) := by after_results_simp
  have h1 : after seg37 (after seg36 (after seg35 (after seg34 (after seg33 (after seg32 (after seg31 (after seg30 (after seg29 (after seg28 (after seg27 (after seg26 (after seg25 (after seg24 (after seg23 (after seg22 (after seg21 (after seg20 (after seg19 (after seg18 (after seg17 V1)))))))))))))))))))) (Proc.devRef .tc main_v31) = V1 (Proc.devRef .tc main_v31) := by after_results_simp
  rw [h0, h1]
  after_results_simp <;> rfl

set_option maxRecDepth 8192 in
set_option maxHeartbeats 4000000 in
/-- A slice of an earlier buffer. -/
theorem held_v36 : W V0 (Proc.devRef .tc main_v36) =
    extractStridedSlice S8x32x2048 ![0, 768, 0] (W V0 (Proc.devRef .tc main_v33)) slices_S8x800x2048_S8x32x2048_0_768_0 := by
  unfold W
  rw [ops_eq]
  repeat rw [after_append]
  generalize after seg15 (after seg14 (after seg13 (after seg12 (after seg11 (after seg10 (after seg9 (after seg8 (after seg7 (after seg6 (after seg5 (after seg4 (after seg3 (after seg2 (after seg1 (after seg0 V0))))))))))))))) = V1
  after_results_simp <;> rfl

set_option maxRecDepth 8192 in
set_option maxHeartbeats 4000000 in
/-- The means of adjacent row pairs of an earlier buffer. -/
theorem held_v40 : W V0 (Proc.devRef .tc main_v40) =
    Host.divf (Host.reduceAdd (shapeCast _ (W V0 (Proc.devRef .tc main_v36)) shapeCasts_S8x32x2048_S8x16x2x2048) (constant S_ .f32 0x00000000#32) reducesTo_S8x16x2x2048_S8x16x2048_d2 h_S_) (broadcastInDim S8x16x2048 ![] bcast_S_S8x16x2048 (constant S_ .f32 0x40000000#32)) := by
  unfold W
  rw [ops_eq]
  repeat rw [after_append]
  generalize after seg17 (after seg16 (after seg15 (after seg14 (after seg13 (after seg12 (after seg11 (after seg10 (after seg9 (after seg8 (after seg7 (after seg6 (after seg5 (after seg4 (after seg3 (after seg2 (after seg1 (after seg0 V0))))))))))))))))) = V1
  after_results_simp <;> rfl

set_option maxRecDepth 8192 in
set_option maxHeartbeats 4000000 in
/-- A slice of an earlier buffer. -/
theorem held_v41 : W V0 (Proc.devRef .tc main_v41) =
    extractStridedSlice S8x768x2048 ![0, 0, 0] (W V0 (Proc.devRef .tc main_v33)) slices_S8x800x2048_S8x768x2048_0_0_0 := by
  unfold W
  rw [ops_eq]
  repeat rw [after_append]
  generalize after seg15 (after seg14 (after seg13 (after seg12 (after seg11 (after seg10 (after seg9 (after seg8 (after seg7 (after seg6 (after seg5 (after seg4 (after seg3 (after seg2 (after seg1 (after seg0 V0))))))))))))))) = V1
  after_results_simp <;> rfl

set_option maxRecDepth 8192 in
set_option maxHeartbeats 4000000 in
/-- Two earlier buffers, one after the other. -/
theorem held_v42 : W V0 (Proc.devRef .tc main_v42) =
    concatenate S8x784x2048 1 [⟨S8x768x2048, (W V0 (Proc.devRef .tc main_v41))⟩, ⟨S8x16x2048, (W V0 (Proc.devRef .tc main_v40))⟩] concatenates_S8x768x2048_S8x16x2048_S8x784x2048_d1 := by
  unfold W
  rw [ops_eq]
  repeat rw [after_append]
  generalize after seg18 (after seg17 (after seg16 (after seg15 (after seg14 (after seg13 (after seg12 (after seg11 (after seg10 (after seg9 (after seg8 (after seg7 (after seg6 (after seg5 (after seg4 (after seg3 (after seg2 (after seg1 (after seg0 V0)))))))))))))))))) = V1
  have h0 : after seg37 (after seg36 (after seg35 (after seg34 (after seg33 (after seg32 (after seg31 (after seg30 (after seg29 (after seg28 (after seg27 (after seg26 (after seg25 (after seg24 (after seg23 (after seg22 (after seg21 (after seg20 (after seg19 V1)))))))))))))))))) (Proc.devRef .tc main_v41) = V1 (Proc.devRef .tc main_v41) := by after_results_simp
  have h1 : after seg37 (after seg36 (after seg35 (after seg34 (after seg33 (after seg32 (after seg31 (after seg30 (after seg29 (after seg28 (after seg27 (after seg26 (after seg25 (after seg24 (after seg23 (after seg22 (after seg21 (after seg20 (after seg19 V1)))))))))))))))))) (Proc.devRef .tc main_v40) = V1 (Proc.devRef .tc main_v40) := by after_results_simp
  rw [h0, h1]
  after_results_simp <;> rfl

set_option maxRecDepth 8192 in
set_option maxHeartbeats 4000000 in
/-- A slice of an earlier buffer. -/
theorem held_v43 : W V0 (Proc.devRef .tc main_v43) =
    extractStridedSlice S8x16x2048 ![0, 16, 0] (W V0 (Proc.devRef .tc main_v36)) slices_S8x32x2048_S8x16x2048_0_16_0 := by
  unfold W
  rw [ops_eq]
  repeat rw [after_append]
  generalize after seg17 (after seg16 (after seg15 (after seg14 (after seg13 (after seg12 (after seg11 (after seg10 (after seg9 (after seg8 (after seg7 (after seg6 (after seg5 (after seg4 (after seg3 (after seg2 (after seg1 (after seg0 V0))))))))))))))))) = V1
  after_results_simp <;> rfl

set_option maxRecDepth 8192 in
set_option maxHeartbeats 4000000 in
/-- Two earlier buffers, one after the other. -/
theorem held_v44 : W V0 (Proc.devRef .tc main_v44) =
    concatenate S8x32x2048 1 [⟨S8x16x2048, (W V0 (Proc.devRef .tc main_v43))⟩, ⟨S8x16x2048, (W V0 (Proc.devRef .tc main_v40))⟩] concatenates_S8x16x2048_S8x16x2048_S8x32x2048_d1 := by
  unfold W
  rw [ops_eq]
  repeat rw [after_append]
  generalize after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0)))))))))))))))))))) = V1
  have h0 : after seg37 (after seg36 (after seg35 (after seg34 (after seg33 (after seg32 (after seg31 (after seg30 (after seg29 (after seg28 (after seg27 (after seg26 (after seg25 (after seg24 (after seg23 (after seg22 (after seg21 V1)))))))))))))))) (Proc.devRef .tc main_v43) = V1 (Proc.devRef .tc main_v43) := by after_results_simp
  have h1 : after seg37 (after seg36 (after seg35 (after seg34 (after seg33 (after seg32 (after seg31 (after seg30 (after seg29 (after seg28 (after seg27 (after seg26 (after seg25 (after seg24 (after seg23 (after seg22 (after seg21 V1)))))))))))))))) (Proc.devRef .tc main_v40) = V1 (Proc.devRef .tc main_v40) := by after_results_simp
  rw [h0, h1]
  after_results_simp <;> rfl

set_option maxRecDepth 8192 in
set_option maxHeartbeats 4000000 in
/-- A slice of an earlier buffer. -/
theorem held_v45 : W V0 (Proc.devRef .tc main_v45) =
    extractStridedSlice S8x16x2048 ![0, 768, 0] (W V0 (Proc.devRef .tc main_v42)) slices_S8x784x2048_S8x16x2048_0_768_0 := by
  unfold W
  rw [ops_eq]
  repeat rw [after_append]
  generalize after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))) = V1
  after_results_simp <;> rfl

set_option maxRecDepth 8192 in
set_option maxHeartbeats 4000000 in
/-- The means of adjacent row pairs of an earlier buffer. -/
theorem held_v49 : W V0 (Proc.devRef .tc main_v49) =
    Host.divf (Host.reduceAdd (shapeCast _ (W V0 (Proc.devRef .tc main_v45)) shapeCasts_S8x16x2048_S8x8x2x2048) (constant S_ .f32 0x00000000#32) reducesTo_S8x8x2x2048_S8x8x2048_d2 h_S_) (broadcastInDim S8x8x2048 ![] bcast_S_S8x8x2048 (constant S_ .f32 0x40000000#32)) := by
  unfold W
  rw [ops_eq]
  repeat rw [after_append]
  generalize after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))) = V1
  after_results_simp <;> rfl

set_option maxRecDepth 8192 in
set_option maxHeartbeats 4000000 in
/-- A slice of an earlier buffer. -/
theorem held_v50 : W V0 (Proc.devRef .tc main_v50) =
    extractStridedSlice S8x768x2048 ![0, 0, 0] (W V0 (Proc.devRef .tc main_v42)) slices_S8x784x2048_S8x768x2048_0_0_0 := by
  unfold W
  rw [ops_eq]
  repeat rw [after_append]
  generalize after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))) = V1
  after_results_simp <;> rfl

set_option maxRecDepth 8192 in
set_option maxHeartbeats 4000000 in
/-- Two earlier buffers, one after the other. -/
theorem held_v51 : W V0 (Proc.devRef .tc main_v51) =
    concatenate S8x776x2048 1 [⟨S8x768x2048, (W V0 (Proc.devRef .tc main_v50))⟩, ⟨S8x8x2048, (W V0 (Proc.devRef .tc main_v49))⟩] concatenates_S8x768x2048_S8x8x2048_S8x776x2048_d1 := by
  unfold W
  rw [ops_eq]
  repeat rw [after_append]
  generalize after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0)))))))))))))))))))))) = V1
  have h0 : after seg37 (after seg36 (after seg35 (after seg34 (after seg33 (after seg32 (after seg31 (after seg30 (after seg29 (after seg28 (after seg27 (after seg26 (after seg25 (after seg24 (after seg23 V1)))))))))))))) (Proc.devRef .tc main_v50) = V1 (Proc.devRef .tc main_v50) := by after_results_simp
  have h1 : after seg37 (after seg36 (after seg35 (after seg34 (after seg33 (after seg32 (after seg31 (after seg30 (after seg29 (after seg28 (after seg27 (after seg26 (after seg25 (after seg24 (after seg23 V1)))))))))))))) (Proc.devRef .tc main_v49) = V1 (Proc.devRef .tc main_v49) := by after_results_simp
  rw [h0, h1]
  after_results_simp <;> rfl

set_option maxRecDepth 8192 in
set_option maxHeartbeats 4000000 in
/-- A slice of an earlier buffer. -/
theorem held_v52 : W V0 (Proc.devRef .tc main_v52) =
    extractStridedSlice S8x8x2048 ![0, 8, 0] (W V0 (Proc.devRef .tc main_v45)) slices_S8x16x2048_S8x8x2048_0_8_0 := by
  unfold W
  rw [ops_eq]
  repeat rw [after_append]
  generalize after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))) = V1
  after_results_simp <;> rfl

set_option maxRecDepth 8192 in
set_option maxHeartbeats 4000000 in
/-- Two earlier buffers, one after the other. -/
theorem held_v53 : W V0 (Proc.devRef .tc main_v53) =
    concatenate S8x16x2048 1 [⟨S8x8x2048, (W V0 (Proc.devRef .tc main_v52))⟩, ⟨S8x8x2048, (W V0 (Proc.devRef .tc main_v49))⟩] concatenates_S8x8x2048_S8x8x2048_S8x16x2048_d1 := by
  unfold W
  rw [ops_eq]
  repeat rw [after_append]
  generalize after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0)))))))))))))))))))))))) = V1
  have h0 : after seg37 (after seg36 (after seg35 (after seg34 (after seg33 (after seg32 (after seg31 (after seg30 (after seg29 (after seg28 (after seg27 (after seg26 (after seg25 V1)))))))))))) (Proc.devRef .tc main_v52) = V1 (Proc.devRef .tc main_v52) := by after_results_simp
  have h1 : after seg37 (after seg36 (after seg35 (after seg34 (after seg33 (after seg32 (after seg31 (after seg30 (after seg29 (after seg28 (after seg27 (after seg26 (after seg25 V1)))))))))))) (Proc.devRef .tc main_v49) = V1 (Proc.devRef .tc main_v49) := by after_results_simp
  rw [h0, h1]
  after_results_simp <;> rfl

set_option maxRecDepth 8192 in
set_option maxHeartbeats 4000000 in
/-- A slice of an earlier buffer. -/
theorem held_v54 : W V0 (Proc.devRef .tc main_v54) =
    extractStridedSlice S8x8x2048 ![0, 768, 0] (W V0 (Proc.devRef .tc main_v51)) slices_S8x776x2048_S8x8x2048_0_768_0 := by
  unfold W
  rw [ops_eq]
  repeat rw [after_append]
  generalize after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))) = V1
  after_results_simp <;> rfl

set_option maxRecDepth 8192 in
set_option maxHeartbeats 4000000 in
/-- The means of adjacent row pairs of an earlier buffer. -/
theorem held_v58 : W V0 (Proc.devRef .tc main_v58) =
    Host.divf (Host.reduceAdd (shapeCast _ (W V0 (Proc.devRef .tc main_v54)) shapeCasts_S8x8x2048_S8x4x2x2048) (constant S_ .f32 0x00000000#32) reducesTo_S8x4x2x2048_S8x4x2048_d2 h_S_) (broadcastInDim S8x4x2048 ![] bcast_S_S8x4x2048 (constant S_ .f32 0x40000000#32)) := by
  unfold W
  rw [ops_eq]
  repeat rw [after_append]
  generalize after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))))) = V1
  after_results_simp <;> rfl

set_option maxRecDepth 8192 in
set_option maxHeartbeats 4000000 in
/-- A slice of an earlier buffer. -/
theorem held_v59 : W V0 (Proc.devRef .tc main_v59) =
    extractStridedSlice S8x768x2048 ![0, 0, 0] (W V0 (Proc.devRef .tc main_v51)) slices_S8x776x2048_S8x768x2048_0_0_0 := by
  unfold W
  rw [ops_eq]
  repeat rw [after_append]
  generalize after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))) = V1
  after_results_simp <;> rfl

set_option maxRecDepth 8192 in
set_option maxHeartbeats 4000000 in
/-- Two earlier buffers, one after the other. -/
theorem held_v60 : W V0 (Proc.devRef .tc main_v60) =
    concatenate S8x772x2048 1 [⟨S8x768x2048, (W V0 (Proc.devRef .tc main_v59))⟩, ⟨S8x4x2048, (W V0 (Proc.devRef .tc main_v58))⟩] concatenates_S8x768x2048_S8x4x2048_S8x772x2048_d1 := by
  unfold W
  rw [ops_eq]
  repeat rw [after_append]
  generalize after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0)))))))))))))))))))))))))) = V1
  have h0 : after seg37 (after seg36 (after seg35 (after seg34 (after seg33 (after seg32 (after seg31 (after seg30 (after seg29 (after seg28 (after seg27 V1)))))))))) (Proc.devRef .tc main_v59) = V1 (Proc.devRef .tc main_v59) := by after_results_simp
  have h1 : after seg37 (after seg36 (after seg35 (after seg34 (after seg33 (after seg32 (after seg31 (after seg30 (after seg29 (after seg28 (after seg27 V1)))))))))) (Proc.devRef .tc main_v58) = V1 (Proc.devRef .tc main_v58) := by after_results_simp
  rw [h0, h1]
  after_results_simp <;> rfl

set_option maxRecDepth 8192 in
set_option maxHeartbeats 4000000 in
/-- A slice of an earlier buffer. -/
theorem held_v61 : W V0 (Proc.devRef .tc main_v61) =
    extractStridedSlice S8x4x2048 ![0, 4, 0] (W V0 (Proc.devRef .tc main_v54)) slices_S8x8x2048_S8x4x2048_0_4_0 := by
  unfold W
  rw [ops_eq]
  repeat rw [after_append]
  generalize after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))))) = V1
  after_results_simp <;> rfl

set_option maxRecDepth 8192 in
set_option maxHeartbeats 4000000 in
/-- Two earlier buffers, one after the other. -/
theorem held_v62 : W V0 (Proc.devRef .tc main_v62) =
    concatenate S8x8x2048 1 [⟨S8x4x2048, (W V0 (Proc.devRef .tc main_v61))⟩, ⟨S8x4x2048, (W V0 (Proc.devRef .tc main_v58))⟩] concatenates_S8x4x2048_S8x4x2048_S8x8x2048_d1 := by
  unfold W
  rw [ops_eq]
  repeat rw [after_append]
  generalize after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0)))))))))))))))))))))))))))) = V1
  have h0 : after seg37 (after seg36 (after seg35 (after seg34 (after seg33 (after seg32 (after seg31 (after seg30 (after seg29 V1)))))))) (Proc.devRef .tc main_v61) = V1 (Proc.devRef .tc main_v61) := by after_results_simp
  have h1 : after seg37 (after seg36 (after seg35 (after seg34 (after seg33 (after seg32 (after seg31 (after seg30 (after seg29 V1)))))))) (Proc.devRef .tc main_v58) = V1 (Proc.devRef .tc main_v58) := by after_results_simp
  rw [h0, h1]
  after_results_simp <;> rfl

set_option maxRecDepth 8192 in
set_option maxHeartbeats 4000000 in
/-- A slice of an earlier buffer. -/
theorem held_v63 : W V0 (Proc.devRef .tc main_v63) =
    extractStridedSlice S8x4x2048 ![0, 768, 0] (W V0 (Proc.devRef .tc main_v60)) slices_S8x772x2048_S8x4x2048_0_768_0 := by
  unfold W
  rw [ops_eq]
  repeat rw [after_append]
  generalize after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))))))) = V1
  after_results_simp <;> rfl

set_option maxRecDepth 8192 in
set_option maxHeartbeats 4000000 in
/-- The means of adjacent row pairs of an earlier buffer. -/
theorem held_v67 : W V0 (Proc.devRef .tc main_v67) =
    Host.divf (Host.reduceAdd (shapeCast _ (W V0 (Proc.devRef .tc main_v63)) shapeCasts_S8x4x2048_S8x2x2x2048) (constant S_ .f32 0x00000000#32) reducesTo_S8x2x2x2048_S8x2x2048_d2 h_S_) (broadcastInDim S8x2x2048 ![] bcast_S_S8x2x2048 (constant S_ .f32 0x40000000#32)) := by
  unfold W
  rw [ops_eq]
  repeat rw [after_append]
  generalize after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))))))))) = V1
  after_results_simp <;> rfl

set_option maxRecDepth 8192 in
set_option maxHeartbeats 4000000 in
/-- A slice of an earlier buffer. -/
theorem held_v68 : W V0 (Proc.devRef .tc main_v68) =
    extractStridedSlice S8x768x2048 ![0, 0, 0] (W V0 (Proc.devRef .tc main_v60)) slices_S8x772x2048_S8x768x2048_0_0_0 := by
  unfold W
  rw [ops_eq]
  repeat rw [after_append]
  generalize after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))))))) = V1
  after_results_simp <;> rfl

set_option maxRecDepth 8192 in
set_option maxHeartbeats 4000000 in
/-- Two earlier buffers, one after the other. -/
theorem held_v69 : W V0 (Proc.devRef .tc main_v69) =
    concatenate S8x770x2048 1 [⟨S8x768x2048, (W V0 (Proc.devRef .tc main_v68))⟩, ⟨S8x2x2048, (W V0 (Proc.devRef .tc main_v67))⟩] concatenates_S8x768x2048_S8x2x2048_S8x770x2048_d1 := by
  unfold W
  rw [ops_eq]
  repeat rw [after_append]
  generalize after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0)))))))))))))))))))))))))))))) = V1
  have h0 : after seg37 (after seg36 (after seg35 (after seg34 (after seg33 (after seg32 (after seg31 V1)))))) (Proc.devRef .tc main_v68) = V1 (Proc.devRef .tc main_v68) := by after_results_simp
  have h1 : after seg37 (after seg36 (after seg35 (after seg34 (after seg33 (after seg32 (after seg31 V1)))))) (Proc.devRef .tc main_v67) = V1 (Proc.devRef .tc main_v67) := by after_results_simp
  rw [h0, h1]
  after_results_simp <;> rfl

set_option maxRecDepth 8192 in
set_option maxHeartbeats 4000000 in
/-- A slice of an earlier buffer. -/
theorem held_v70 : W V0 (Proc.devRef .tc main_v70) =
    extractStridedSlice S8x2x2048 ![0, 2, 0] (W V0 (Proc.devRef .tc main_v63)) slices_S8x4x2048_S8x2x2048_0_2_0 := by
  unfold W
  rw [ops_eq]
  repeat rw [after_append]
  generalize after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))))))))) = V1
  after_results_simp <;> rfl

set_option maxRecDepth 8192 in
set_option maxHeartbeats 4000000 in
/-- Two earlier buffers, one after the other. -/
theorem held_v71 : W V0 (Proc.devRef .tc main_v71) =
    concatenate S8x4x2048 1 [⟨S8x2x2048, (W V0 (Proc.devRef .tc main_v70))⟩, ⟨S8x2x2048, (W V0 (Proc.devRef .tc main_v67))⟩] concatenates_S8x2x2048_S8x2x2048_S8x4x2048_d1 := by
  unfold W
  rw [ops_eq]
  repeat rw [after_append]
  generalize after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0)))))))))))))))))))))))))))))))) = V1
  have h0 : after seg37 (after seg36 (after seg35 (after seg34 (after seg33 V1)))) (Proc.devRef .tc main_v70) = V1 (Proc.devRef .tc main_v70) := by after_results_simp
  have h1 : after seg37 (after seg36 (after seg35 (after seg34 (after seg33 V1)))) (Proc.devRef .tc main_v67) = V1 (Proc.devRef .tc main_v67) := by after_results_simp
  rw [h0, h1]
  after_results_simp <;> rfl

set_option maxRecDepth 8192 in
set_option maxHeartbeats 4000000 in
/-- A slice of an earlier buffer. -/
theorem held_v72 : W V0 (Proc.devRef .tc main_v72) =
    extractStridedSlice S8x2x2048 ![0, 768, 0] (W V0 (Proc.devRef .tc main_v69)) slices_S8x770x2048_S8x2x2048_0_768_0 := by
  unfold W
  rw [ops_eq]
  repeat rw [after_append]
  generalize after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))))))))))) = V1
  after_results_simp <;> rfl

set_option maxRecDepth 8192 in
set_option maxHeartbeats 4000000 in
/-- The means of adjacent row pairs of an earlier buffer. -/
theorem held_v76 : W V0 (Proc.devRef .tc main_v76) =
    Host.divf (Host.reduceAdd (shapeCast _ (W V0 (Proc.devRef .tc main_v72)) shapeCasts_S8x2x2048_S8x1x2x2048) (constant S_ .f32 0x00000000#32) reducesTo_S8x1x2x2048_S8x1x2048_d2 h_S_) (broadcastInDim S8x1x2048 ![] bcast_S_S8x1x2048 (constant S_ .f32 0x40000000#32)) := by
  unfold W
  rw [ops_eq]
  repeat rw [after_append]
  generalize after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))))))))))))) = V1
  after_results_simp <;> rfl

set_option maxRecDepth 8192 in
set_option maxHeartbeats 4000000 in
/-- A slice of an earlier buffer. -/
theorem held_v77 : W V0 (Proc.devRef .tc main_v77) =
    extractStridedSlice S8x768x2048 ![0, 0, 0] (W V0 (Proc.devRef .tc main_v69)) slices_S8x770x2048_S8x768x2048_0_0_0 := by
  unfold W
  rw [ops_eq]
  repeat rw [after_append]
  generalize after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))))))))))) = V1
  after_results_simp <;> rfl

set_option maxRecDepth 8192 in
set_option maxHeartbeats 4000000 in
/-- Two earlier buffers, one after the other. -/
theorem held_v78 : W V0 (Proc.devRef .tc main_v78) =
    concatenate S8x769x2048 1 [⟨S8x768x2048, (W V0 (Proc.devRef .tc main_v77))⟩, ⟨S8x1x2048, (W V0 (Proc.devRef .tc main_v76))⟩] concatenates_S8x768x2048_S8x1x2048_S8x769x2048_d1 := by
  unfold W
  rw [ops_eq]
  repeat rw [after_append]
  generalize after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0)))))))))))))))))))))))))))))))))) = V1
  have h0 : after seg37 (after seg36 (after seg35 V1)) (Proc.devRef .tc main_v77) = V1 (Proc.devRef .tc main_v77) := by after_results_simp
  have h1 : after seg37 (after seg36 (after seg35 V1)) (Proc.devRef .tc main_v76) = V1 (Proc.devRef .tc main_v76) := by after_results_simp
  rw [h0, h1]
  after_results_simp <;> rfl

set_option maxRecDepth 8192 in
set_option maxHeartbeats 4000000 in
/-- A slice of an earlier buffer. -/
theorem held_v79 : W V0 (Proc.devRef .tc main_v79) =
    extractStridedSlice S8x1x2048 ![0, 1, 0] (W V0 (Proc.devRef .tc main_v72)) slices_S8x2x2048_S8x1x2048_0_1_0 := by
  unfold W
  rw [ops_eq]
  repeat rw [after_append]
  generalize after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))))))))))))) = V1
  after_results_simp <;> rfl

set_option maxRecDepth 8192 in
set_option maxHeartbeats 4000000 in
/-- Two earlier buffers, one after the other. -/
theorem held_v80 : W V0 (Proc.devRef .tc main_v80) =
    concatenate S8x2x2048 1 [⟨S8x1x2048, (W V0 (Proc.devRef .tc main_v79))⟩, ⟨S8x1x2048, (W V0 (Proc.devRef .tc main_v76))⟩] concatenates_S8x1x2048_S8x1x2048_S8x2x2048_d1 := by
  unfold W
  rw [ops_eq]
  repeat rw [after_append]
  generalize after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0))))))))))))))))))))))))))))))))))) = V1
  have h0 : after seg37 (after seg36 V1) (Proc.devRef .tc main_v79) = V1 (Proc.devRef .tc main_v79) := by after_results_simp
  have h1 : after seg37 (after seg36 V1) (Proc.devRef .tc main_v76) = V1 (Proc.devRef .tc main_v76) := by after_results_simp
  rw [h0, h1]
  after_results_simp <;> rfl

set_option maxRecDepth 8192 in
set_option maxHeartbeats 4000000 in
/-- The result buffer: the eight turns, shortest first, then the short memory. -/
theorem held_v81 : W V0 (Proc.devRef .tc main_v81) =
    concatenate S8x2558x2048 1 [⟨S8x2x2048, (W V0 (Proc.devRef .tc main_v80))⟩, ⟨S8x4x2048, (W V0 (Proc.devRef .tc main_v71))⟩, ⟨S8x8x2048, (W V0 (Proc.devRef .tc main_v62))⟩, ⟨S8x16x2048, (W V0 (Proc.devRef .tc main_v53))⟩, ⟨S8x32x2048, (W V0 (Proc.devRef .tc main_v44))⟩, ⟨S8x64x2048, (W V0 (Proc.devRef .tc main_v35))⟩, ⟨S8x128x2048, (W V0 (Proc.devRef .tc main_v26))⟩, ⟨S8x256x2048, (W V0 (Proc.devRef .tc main_v17))⟩, ⟨S8x2048x2048, (W V0 (Proc.devRef .tc main_v1))⟩] concatenates_S8x2x2048_S8x4x2048_S8x8x2048_S8x16x2048_S8x32x2048_S8x64x2048_S8x128x2048_S8x256x2048_S8x2048x2048_S8x2558x2048_d1 := by
  unfold W
  rw [ops_eq]
  repeat rw [after_append]
  generalize after seg36 (after seg35 (after seg34 (after seg33 (after seg32 (after seg31 (after seg30 (after seg29 (after seg28 (after seg27 (after seg26 (after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V0)))))))))))))))))))))))))))))))))))) = V1
  have h0 : after seg37 V1 (Proc.devRef .tc main_v80) = V1 (Proc.devRef .tc main_v80) := by after_results_simp
  have h1 : after seg37 V1 (Proc.devRef .tc main_v71) = V1 (Proc.devRef .tc main_v71) := by after_results_simp
  have h2 : after seg37 V1 (Proc.devRef .tc main_v62) = V1 (Proc.devRef .tc main_v62) := by after_results_simp
  have h3 : after seg37 V1 (Proc.devRef .tc main_v53) = V1 (Proc.devRef .tc main_v53) := by after_results_simp
  have h4 : after seg37 V1 (Proc.devRef .tc main_v44) = V1 (Proc.devRef .tc main_v44) := by after_results_simp
  have h5 : after seg37 V1 (Proc.devRef .tc main_v35) = V1 (Proc.devRef .tc main_v35) := by after_results_simp
  have h6 : after seg37 V1 (Proc.devRef .tc main_v26) = V1 (Proc.devRef .tc main_v26) := by after_results_simp
  have h7 : after seg37 V1 (Proc.devRef .tc main_v17) = V1 (Proc.devRef .tc main_v17) := by after_results_simp
  have h8 : after seg37 V1 (Proc.devRef .tc main_v1) = V1 (Proc.devRef .tc main_v1) := by after_results_simp
  rw [h0, h1, h2, h3, h4, h5, h6, h7, h8]
  after_results_simp <;> rfl

end Cert.ReferenceIdeal.Steps

end
-- ==== Proof.ReferenceRows.lean ====
import proofs.«137517_j10634339025369_2_alg».proof.Proof.ReferenceSteps
import proofs.«137517_j10634339025369_2_alg».proof.Proof.Cascade

/-!
# What the reference computes, down one lane

The reference appends the input to memory, cuts the short memory (rows 512 … 2559 of the 3582), pools its first 1024
rows by pairs, and then eight times takes the last rows of a growing helix, pools them, puts the pooled rows back
behind the untouched first 768, and keeps the newer half of the rows it took followed by the pooled rows as one turn.
Read down lane `e` of batch `b` — `M` the lane of memory, `I` of the input — the rows it takes at step `k` are level
`k` of the cascade, what it pools from them is level `k + 1`, and the result is `outRow M I`. Each buffer is read
through its equation (`held_…`: what it holds after the run, over the buffers it is computed from).
-/

noncomputable section

namespace Cert.ReferenceIdeal.Rows

open Cert.ReferenceIdeal Cert.ReferenceIdeal.Gen Cert.ReferenceIdeal.ValueP Cert.ReferenceIdeal.Steps Idealize.ShloMosaic
open Idealize.ShloMosaic.ValueIdx Idealize.ShloMosaic.StableHlo Cert.ColumnRows Cert.Cascade

variable (V0 : Valuation τ sig (Elt Ideal)) (b : Fin 8) (e : Fin 2048) (M I : ℕ → EReal)

/-- Memory followed by the input. -/
theorem joined (hM : Rows3 (V0 (Proc.devRef .tc main_arg1)) b e M) (hI : Rows3 (V0 (Proc.devRef .tc main_arg0)) b e I) :
    Rows3 (W V0 (Proc.devRef .tc main_v0)) b e (glue 2558 M I) := by
  rw [held_v0 V0]
  exact rows3_glue _ _ _ b e _ _ hM hI

/-- The short memory: 2048 rows from row 512. -/
theorem short (hM : Rows3 (V0 (Proc.devRef .tc main_arg1)) b e M) (hI : Rows3 (V0 (Proc.devRef .tc main_arg0)) b e I) :
    Rows3 (W V0 (Proc.devRef .tc main_v1)) b e (shift 512 (glue 2558 M I)) := by
  rw [held_v1 V0]
  exact rows3_slice 512 _ _ b e _ (joined V0 b e M I hM hI)

/-- The pooled fallout: means of adjacent pairs of the first 1024 rows of the short memory. -/
theorem pooled (hM : Rows3 (V0 (Proc.devRef .tc main_arg1)) b e M) (hI : Rows3 (V0 (Proc.devRef .tc main_arg0)) b e I) :
    Rows3 (W V0 (Proc.devRef .tc main_v7)) b e (halve (shift 0 (shift 512 (glue 2558 M I)))) := by
  rw [held_v7 V0, held_v3 V0]
  exact rows3_halve (by norm_num : (1024 : ℕ) = 2 * 512) _ _ _ _ _ b e _ (rows3_slice 0 _ _ b e _ (short V0 b e M I hM hI))

/-- The rows pooled at the first step of the loop are level 0: the last 256 of long memory followed by the pooled
    fallout, that is the pooled rows 1024 … 1535 of memory. -/
theorem old0 (hM : Rows3 (V0 (Proc.devRef .tc main_arg1)) b e M) (hI : Rows3 (V0 (Proc.devRef .tc main_arg0)) b e I) :
    Rows3 (W V0 (Proc.devRef .tc main_v9)) b e (lvl0 M) := by
  rw [held_v9 V0, held_v8 V0]
  refine (rows3_slice 768 _ _ b e _ (rows3_glue _ _ _ b e _ _ (rows3_col3 _ b e) (pooled V0 b e M I hM hI))).congr ?_
  intro r hr
  have c1 : ¬ 768 + r < 512 := by omega
  have c2 : 512 + (0 + 2 * (768 + r - 512)) < 2558 := by omega
  have c3 : 512 + (0 + (2 * (768 + r - 512) + 1)) < 2558 := by omega
  have e1 : 512 + (0 + 2 * (768 + r - 512)) = 1024 + 2 * r := by omega
  have e2 : 512 + (0 + (2 * (768 + r - 512) + 1)) = 1024 + (2 * r + 1) := by omega
  simp only [shift, glue, halve, lvl0]
  rw [if_neg c1, if_pos c2, if_pos c3, e1, e2]

theorem new1 (hM : Rows3 (V0 (Proc.devRef .tc main_arg1)) b e M) (hI : Rows3 (V0 (Proc.devRef .tc main_arg0)) b e I) :
    Rows3 (W V0 (Proc.devRef .tc main_v13)) b e (lvl1 M) := by
  rw [held_v13 V0]
  exact rows3_halve (by norm_num : (256 : ℕ) = 2 * 128) _ _ _ _ _ b e _ (old0 V0 b e M I hM hI)

/-- A turn: the newer half of the rows taken, then the rows pooled from them. -/
theorem part1 (hM : Rows3 (V0 (Proc.devRef .tc main_arg1)) b e M) (hI : Rows3 (V0 (Proc.devRef .tc main_arg0)) b e I) :
    Rows3 (W V0 (Proc.devRef .tc main_v17)) b e (turn 128 (lvl0 M) (lvl1 M)) := by
  rw [held_v17 V0, held_v16 V0]
  exact rows3_glue _ _ _ b e _ _ (rows3_slice 128 _ _ b e _ (old0 V0 b e M I hM hI)) (new1 V0 b e M I hM hI)

/-- The rows taken at the next step are the rows pooled at this one: they were put back behind the first 768. -/
theorem old1 (hM : Rows3 (V0 (Proc.devRef .tc main_arg1)) b e M) (hI : Rows3 (V0 (Proc.devRef .tc main_arg0)) b e I) :
    Rows3 (W V0 (Proc.devRef .tc main_v18)) b e (lvl1 M) := by
  rw [held_v18 V0, held_v15 V0]
  exact (rows3_slice 768 _ _ b e _ (rows3_glue _ _ _ b e _ _ (rows3_col3 _ b e) (new1 V0 b e M I hM hI))).congr
    (fun r _ => congrFun (shift_glue 768 _ _) r)

theorem new2 (hM : Rows3 (V0 (Proc.devRef .tc main_arg1)) b e M) (hI : Rows3 (V0 (Proc.devRef .tc main_arg0)) b e I) :
    Rows3 (W V0 (Proc.devRef .tc main_v22)) b e (lvl2 M) := by
  rw [held_v22 V0]
  exact rows3_halve (by norm_num : (128 : ℕ) = 2 * 64) _ _ _ _ _ b e _ (old1 V0 b e M I hM hI)

theorem part2 (hM : Rows3 (V0 (Proc.devRef .tc main_arg1)) b e M) (hI : Rows3 (V0 (Proc.devRef .tc main_arg0)) b e I) :
    Rows3 (W V0 (Proc.devRef .tc main_v26)) b e (turn 64 (lvl1 M) (lvl2 M)) := by
  rw [held_v26 V0, held_v25 V0]
  exact rows3_glue _ _ _ b e _ _ (rows3_slice 64 _ _ b e _ (old1 V0 b e M I hM hI)) (new2 V0 b e M I hM hI)

theorem old2 (hM : Rows3 (V0 (Proc.devRef .tc main_arg1)) b e M) (hI : Rows3 (V0 (Proc.devRef .tc main_arg0)) b e I) :
    Rows3 (W V0 (Proc.devRef .tc main_v27)) b e (lvl2 M) := by
  rw [held_v27 V0, held_v24 V0]
  exact (rows3_slice 768 _ _ b e _ (rows3_glue _ _ _ b e _ _ (rows3_col3 _ b e) (new2 V0 b e M I hM hI))).congr
    (fun r _ => congrFun (shift_glue 768 _ _) r)

theorem new3 (hM : Rows3 (V0 (Proc.devRef .tc main_arg1)) b e M) (hI : Rows3 (V0 (Proc.devRef .tc main_arg0)) b e I) :
    Rows3 (W V0 (Proc.devRef .tc main_v31)) b e (lvl3 M) := by
  rw [held_v31 V0]
  exact rows3_halve (by norm_num : (64 : ℕ) = 2 * 32) _ _ _ _ _ b e _ (old2 V0 b e M I hM hI)

theorem part3 (hM : Rows3 (V0 (Proc.devRef .tc main_arg1)) b e M) (hI : Rows3 (V0 (Proc.devRef .tc main_arg0)) b e I) :
    Rows3 (W V0 (Proc.devRef .tc main_v35)) b e (turn 32 (lvl2 M) (lvl3 M)) := by
  rw [held_v35 V0, held_v34 V0]
  exact rows3_glue _ _ _ b e _ _ (rows3_slice 32 _ _ b e _ (old2 V0 b e M I hM hI)) (new3 V0 b e M I hM hI)

theorem old3 (hM : Rows3 (V0 (Proc.devRef .tc main_arg1)) b e M) (hI : Rows3 (V0 (Proc.devRef .tc main_arg0)) b e I) :
    Rows3 (W V0 (Proc.devRef .tc main_v36)) b e (lvl3 M) := by
  rw [held_v36 V0, held_v33 V0]
  exact (rows3_slice 768 _ _ b e _ (rows3_glue _ _ _ b e _ _ (rows3_col3 _ b e) (new3 V0 b e M I hM hI))).congr
    (fun r _ => congrFun (shift_glue 768 _ _) r)

theorem new4 (hM : Rows3 (V0 (Proc.devRef .tc main_arg1)) b e M) (hI : Rows3 (V0 (Proc.devRef .tc main_arg0)) b e I) :
    Rows3 (W V0 (Proc.devRef .tc main_v40)) b e (lvl4 M) := by
  rw [held_v40 V0]
  exact rows3_halve (by norm_num : (32 : ℕ) = 2 * 16) _ _ _ _ _ b e _ (old3 V0 b e M I hM hI)

theorem part4 (hM : Rows3 (V0 (Proc.devRef .tc main_arg1)) b e M) (hI : Rows3 (V0 (Proc.devRef .tc main_arg0)) b e I) :
    Rows3 (W V0 (Proc.devRef .tc main_v44)) b e (turn 16 (lvl3 M) (lvl4 M)) := by
  rw [held_v44 V0, held_v43 V0]
  exact rows3_glue _ _ _ b e _ _ (rows3_slice 16 _ _ b e _ (old3 V0 b e M I hM hI)) (new4 V0 b e M I hM hI)

theorem old4 (hM : Rows3 (V0 (Proc.devRef .tc main_arg1)) b e M) (hI : Rows3 (V0 (Proc.devRef .tc main_arg0)) b e I) :
    Rows3 (W V0 (Proc.devRef .tc main_v45)) b e (lvl4 M) := by
  rw [held_v45 V0, held_v42 V0]
  exact (rows3_slice 768 _ _ b e _ (rows3_glue _ _ _ b e _ _ (rows3_col3 _ b e) (new4 V0 b e M I hM hI))).congr
    (fun r _ => congrFun (shift_glue 768 _ _) r)

theorem new5 (hM : Rows3 (V0 (Proc.devRef .tc main_arg1)) b e M) (hI : Rows3 (V0 (Proc.devRef .tc main_arg0)) b e I) :
    Rows3 (W V0 (Proc.devRef .tc main_v49)) b e (lvl5 M) := by
  rw [held_v49 V0]
  exact rows3_halve (by norm_num : (16 : ℕ) = 2 * 8) _ _ _ _ _ b e _ (old4 V0 b e M I hM hI)

theorem part5 (hM : Rows3 (V0 (Proc.devRef .tc main_arg1)) b e M) (hI : Rows3 (V0 (Proc.devRef .tc main_arg0)) b e I) :
    Rows3 (W V0 (Proc.devRef .tc main_v53)) b e (turn 8 (lvl4 M) (lvl5 M)) := by
  rw [held_v53 V0, held_v52 V0]
  exact rows3_glue _ _ _ b e _ _ (rows3_slice 8 _ _ b e _ (old4 V0 b e M I hM hI)) (new5 V0 b e M I hM hI)

theorem old5 (hM : Rows3 (V0 (Proc.devRef .tc main_arg1)) b e M) (hI : Rows3 (V0 (Proc.devRef .tc main_arg0)) b e I) :
    Rows3 (W V0 (Proc.devRef .tc main_v54)) b e (lvl5 M) := by
  rw [held_v54 V0, held_v51 V0]
  exact (rows3_slice 768 _ _ b e _ (rows3_glue _ _ _ b e _ _ (rows3_col3 _ b e) (new5 V0 b e M I hM hI))).congr
    (fun r _ => congrFun (shift_glue 768 _ _) r)

theorem new6 (hM : Rows3 (V0 (Proc.devRef .tc main_arg1)) b e M) (hI : Rows3 (V0 (Proc.devRef .tc main_arg0)) b e I) :
    Rows3 (W V0 (Proc.devRef .tc main_v58)) b e (lvl6 M) := by
  rw [held_v58 V0]
  exact rows3_halve (by norm_num : (8 : ℕ) = 2 * 4) _ _ _ _ _ b e _ (old5 V0 b e M I hM hI)

theorem part6 (hM : Rows3 (V0 (Proc.devRef .tc main_arg1)) b e M) (hI : Rows3 (V0 (Proc.devRef .tc main_arg0)) b e I) :
    Rows3 (W V0 (Proc.devRef .tc main_v62)) b e (turn 4 (lvl5 M) (lvl6 M)) := by
  rw [held_v62 V0, held_v61 V0]
  exact rows3_glue _ _ _ b e _ _ (rows3_slice 4 _ _ b e _ (old5 V0 b e M I hM hI)) (new6 V0 b e M I hM hI)

theorem old6 (hM : Rows3 (V0 (Proc.devRef .tc main_arg1)) b e M) (hI : Rows3 (V0 (Proc.devRef .tc main_arg0)) b e I) :
    Rows3 (W V0 (Proc.devRef .tc main_v63)) b e (lvl6 M) := by
  rw [held_v63 V0, held_v60 V0]
  exact (rows3_slice 768 _ _ b e _ (rows3_glue _ _ _ b e _ _ (rows3_col3 _ b e) (new6 V0 b e M I hM hI))).congr
    (fun r _ => congrFun (shift_glue 768 _ _) r)

theorem new7 (hM : Rows3 (V0 (Proc.devRef .tc main_arg1)) b e M) (hI : Rows3 (V0 (Proc.devRef .tc main_arg0)) b e I) :
    Rows3 (W V0 (Proc.devRef .tc main_v67)) b e (lvl7 M) := by
  rw [held_v67 V0]
  exact rows3_halve (by norm_num : (4 : ℕ) = 2 * 2) _ _ _ _ _ b e _ (old6 V0 b e M I hM hI)

theorem part7 (hM : Rows3 (V0 (Proc.devRef .tc main_arg1)) b e M) (hI : Rows3 (V0 (Proc.devRef .tc main_arg0)) b e I) :
    Rows3 (W V0 (Proc.devRef .tc main_v71)) b e (turn 2 (lvl6 M) (lvl7 M)) := by
  rw [held_v71 V0, held_v70 V0]
  exact rows3_glue _ _ _ b e _ _ (rows3_slice 2 _ _ b e _ (old6 V0 b e M I hM hI)) (new7 V0 b e M I hM hI)

theorem old7 (hM : Rows3 (V0 (Proc.devRef .tc main_arg1)) b e M) (hI : Rows3 (V0 (Proc.devRef .tc main_arg0)) b e I) :
    Rows3 (W V0 (Proc.devRef .tc main_v72)) b e (lvl7 M) := by
  rw [held_v72 V0, held_v69 V0]
  exact (rows3_slice 768 _ _ b e _ (rows3_glue _ _ _ b e _ _ (rows3_col3 _ b e) (new7 V0 b e M I hM hI))).congr
    (fun r _ => congrFun (shift_glue 768 _ _) r)

theorem new8 (hM : Rows3 (V0 (Proc.devRef .tc main_arg1)) b e M) (hI : Rows3 (V0 (Proc.devRef .tc main_arg0)) b e I) :
    Rows3 (W V0 (Proc.devRef .tc main_v76)) b e (lvl8 M) := by
  rw [held_v76 V0]
  exact rows3_halve (by norm_num : (2 : ℕ) = 2 * 1) _ _ _ _ _ b e _ (old7 V0 b e M I hM hI)

theorem part8 (hM : Rows3 (V0 (Proc.devRef .tc main_arg1)) b e M) (hI : Rows3 (V0 (Proc.devRef .tc main_arg0)) b e I) :
    Rows3 (W V0 (Proc.devRef .tc main_v80)) b e (turn 1 (lvl7 M) (lvl8 M)) := by
  rw [held_v80 V0, held_v79 V0]
  exact rows3_glue _ _ _ b e _ _ (rows3_slice 1 _ _ b e _ (old7 V0 b e M I hM hI)) (new8 V0 b e M I hM hI)

/-- Down a lane the result is the eight turns, then the short memory: `outRow M I`. -/
theorem out_rows (hM : Rows3 (V0 (Proc.devRef .tc main_arg1)) b e M) (hI : Rows3 (V0 (Proc.devRef .tc main_arg0)) b e I) :
    Rows3 (W V0 (Proc.devRef .tc main_v81)) b e (outRow M I) := by
  rw [held_v81 V0]
  refine (rows3_cat9 _ _ _ _ _ _ _ _ _ _ b e _ _ _ _ _ _ _ _ _
    (part8 V0 b e M I hM hI) (part7 V0 b e M I hM hI) (part6 V0 b e M I hM hI) (part5 V0 b e M I hM hI) (part4 V0 b e M I hM hI) (part3 V0 b e M I hM hI) (part2 V0 b e M I hM hI) (part1 V0 b e M I hM hI)
    (short V0 b e M I hM hI)).congr ?_
  intro r hr
  show glue 510 (helix M) (shift 512 (glue 2558 M I)) r = outRow M I r
  by_cases c : r < 510
  · rw [outRow_helix M I r c]
    unfold glue
    rw [if_pos c]
  · have e1 : 512 + (r - 510) = r + 2 := by omega
    by_cases c2 : r < 2556
    · have c3 : r + 2 < 2558 := by omega
      rw [outRow_copy M I r (by omega) c2]
      simp only [glue, shift]
      rw [if_neg c, e1, if_pos c3]
    · have c3 : ¬ r + 2 < 2558 := by omega
      have e2 : r + 2 - 2558 = r - 2556 := by omega
      rw [outRow_tail M I r (by omega)]
      simp only [glue, shift]
      rw [if_neg c, e1, if_neg c3, e2]

/-- What the result buffer holds after the run is `result` of the argument arrays. -/
theorem out_eq : W V0 (Proc.devRef .tc main_v81) = result (V0 (Proc.devRef .tc main_arg0)) (V0 (Proc.devRef .tc main_arg1)) := by
  funext i
  obtain ⟨b, r, e, rfl⟩ : ∃ (b : Fin 8) (r : Fin 2558) (e : Fin 2048), i = ix3 b r e := ⟨i 0, i 1, i 2, eq_ix3 i⟩
  rw [result_apply]
  exact out_rows V0 b e _ _ (rows3_col3 _ b e) (rows3_col3 _ b e) r.val r.isLt

end Cert.ReferenceIdeal.Rows

end
-- ==== Proof.lean ====
import proofs.«137517_j10634339025369_2_alg».proof.Defs
import proofs.«137517_j10634339025369_2_alg».proof.Proof.Gen.Kernel
import proofs.«137517_j10634339025369_2_alg».proof.Proof.Gen.Kernel.Frame
import proofs.«137517_j10634339025369_2_alg».proof.Proof.Gen.KernelIdeal
import proofs.«137517_j10634339025369_2_alg».proof.Proof.Gen.KernelIdeal.Frame
import proofs.«137517_j10634339025369_2_alg».proof.Proof.Gen.KernelIdeal.Value
import proofs.«137517_j10634339025369_2_alg».proof.Proof.Gen.ReferenceIdeal
import proofs.«137517_j10634339025369_2_alg».proof.Proof.Gen.Pre_finite_inputs
import proofs.«137517_j10634339025369_2_alg».proof.Proof.KernelValue
import proofs.«137517_j10634339025369_2_alg».proof.Proof.ReferenceRunPatched
import proofs.«137517_j10634339025369_2_alg».proof.Proof.ReferenceRows
import Idealize.ShloMosaic.Adequacy
import Idealize.ShloMosaic.Init

/-!
# The memory update of the helix: kernel against reference, over the extended reals

Both programs compute, down every lane of every batch, the same 2558 rows from the lane `M` of memory and the lane `I`
of the input (`Cert.Cascade.outRow`): rows 1024 … 1535 of `M` halved nine times by means of adjacent pairs, the eight
turns of the helix — the newer half of a level followed by the next level — laid shortest first over rows 0 … 509, then
rows 512 … 2557 of `M`, then the first two rows of `I`. The kernel builds the turns from the one slice of memory that
reaches them and stores three pieces per block; the reference carries the whole helix through eight slice / pool /
concatenate steps. Each mean is the same sum of two entries divided by the same word 2.0 on both sides, in the same
tree, so the two results are equal entry by entry as extended reals, with no use of finiteness: only the places the
entries are read from differ, and those are matched row by row (`KernelRows`, `KernelBlock`, `KernelValue` for the
kernel, `ReferenceRows` for the reference). The kernel's idealization rewrote nothing, so `preserves` is trivial.
-/

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at `Cert.Cascade.result` of the argument arrays. -/
theorem algebraic : Cert.algebraic_KernelIdeal_ReferenceIdeal := by
  intro m ρ m' ρ' _ hagree
  refine ⟨fun c => Cert.Cascade.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.Rows.out_eq (StableHlo.launchContents m' c)).trans ?_
  show Cert.Cascade.result (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) = _
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
